-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : IVec S1x800000 32 := (extractStridedSlice S1x800000 ![1, 0] · slices_S2x800000_S1x800000_1_0) main_arg1
  let main_v55 : IVec S800000 32 := shapeCast S800000 main_v54 shapeCasts_S1x800000_S800000
  let main_c_20 : IVec S_ 32 := constantI S_ 32 0#32
  let main_v56 : IVec S800000 32 := broadcastInDim S800000 ![] bcast_S_S800000 main_c_20
  let main_v57 : IVec S800000 1 := cmpi .sge main_v55 main_v56
  let main_c_21 : IVec S_ 1 := constantI S_ 1 1#1
  let main_v58 : IVec S_ 1 := (fun x v => Host.reduce IntOp.andi x v reducesTo_S800000_S_d0 h_S_) main_v57 main_c_21
  let main_v59 : IVec S_ 1 := andi main_v53 main_v58
  main_v59

def fn_part2 {F : FTy → Type} [FloatOps F] (main_arg1 : IVec S2x800000 32) (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_v48 main_v49 main_v50

def fn_part1 {F : FTy → Type} [FloatOps F] (main_arg1 : IVec S2x800000 32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩

abbrev nBuf : Space → Nat
  | .hbm => 73
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S50000x128, .f32⟩
  | .hbm, ⟨18, _⟩ => ⟨S50000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S50000x128, .f32⟩
  | .hbm, ⟨37, _⟩ => ⟨S128x128, .f32⟩
  | .hbm, ⟨38, _⟩ => ⟨S128x128, .f32⟩
  | .hbm, ⟨39, _⟩ => ⟨S50000x128, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S50000x128, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S50000x128, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | .local _ .vmem, ⟨32, _⟩ => ⟨S128, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S5000x128, .f32⟩
  | .local _ .vmem, ⟨37, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v22_2 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v29_2 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36_0 : Ref sig .tc := ⟨.hbm, 61, rfl⟩
abbrev main_v36_1 : Ref sig .tc := ⟨.hbm, 62, rfl⟩
abbrev main_v36_2 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  inb_S128_S128_0 : ∀ a, (![0] : Fin 1 → Nat) a + S128.size a ≤ S128.size a
  h_S128 : 0 < S128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S1x128 : S128.ShapeCasts S1x128
  broadcasts_S1x128_S5000x128 : S1x128.Broadcasts S5000x128
  shapeCasts_S128_S128 : S128.ShapeCasts S128
  reduces_S5000x128_S128 : S5000x128.Reduces [0] S128
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22_1) S128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_2) S128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v29_1) S128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29_2) S128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v29_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v36_1) S128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v36_2) S128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v36_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S128x128, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S128, .f32⟩
  | 40 => ⟨S_, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S128, .f32⟩
  | 49 => ⟨S_, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S_, .f32⟩
  | 56 => ⟨S128, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S128x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S50000x128, .f32⟩
  | 85 => ⟨S_, .f32⟩
  | 86 => ⟨S128, .f32⟩
  | 87 => ⟨S_, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S128, .f32⟩
  | 111 => ⟨S_, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call0_cst : Ref sig .tc := ⟨.hbm, 68, rfl⟩
abbrev main_call0_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_call1_cst : Ref sig .tc := ⟨.hbm, 106, rfl⟩
abbrev main_call1_v0 : Ref sig .tc := ⟨.hbm, 107, rfl⟩
abbrev main_v78 : Ref sig .tc := ⟨.hbm, 108, rfl⟩
abbrev main_cst_12 : Ref sig .tc := ⟨.hbm, 109, rfl⟩
abbrev main_v79 : Ref sig .tc := ⟨.hbm, 110, rfl⟩
abbrev main_cst_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_14 : Ref sig .tc := ⟨.hbm, 118, rfl⟩
abbrev main_v86 : Ref sig .tc := ⟨.hbm, 119, rfl⟩
abbrev main_cst_15 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibMoment.lean ====
import Idealize.ShloMosaic.PureOps.Ideal
import Mathlib.Data.EReal.Basic
import Mathlib.Data.EReal.Operations
import Mathlib.Data.EReal.Inv
import Mathlib.Algebra.BigOperators.Group.Finset.Basic
import Mathlib.Tactic

/-!
# Finite extended reals and the second-moment law

`IsReal x` says that an extended real is a real number. The finite values are closed under
the ring operations, `max`, finite sums, division by a nonzero real and the reciprocal square
root of a positive value. On finite values every operation is the operation of `ℝ`, so an
identity between extended reals reduces to the identity between the real witnesses.

The moment law: for `n` finite values `y r` with mean `μ = (∑ y) / n` and a finite scale `s`,
the mean of the squared deviations from `s · μ` is

  `(∑ (y r - s μ)²) / n = (∑ y r²) / n - μ² (2 s - s²)`,

because `∑ (y r - t)² = ∑ y r² - 2 t ∑ y r + n t²` and `∑ y r = n μ`.
-/

noncomputable section

namespace Cert.LibMoment

open Idealize.ShloMosaic
open scoped BigOperators

/-- An extended real that is a real number. -/
def IsReal (x : EReal) : Prop := ∃ a : ℝ, x = (a : EReal)

theorem isReal_coe (a : ℝ) : IsReal (a : EReal) := ⟨a, rfl⟩

theorem isReal_zero : IsReal (0 : EReal) := ⟨0, EReal.coe_zero.symm⟩

theorem isReal_one : IsReal (1 : EReal) := ⟨1, rfl⟩

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- A value that is neither infinity is a real number. -/
theorem isReal_of_ne {x : EReal} (h1 : x ≠ ⊤) (h2 : x ≠ ⊥) : IsReal x :=
  ⟨x.toReal, (EReal.coe_toReal h1 h2).symm⟩

theorem isReal_iff {x : EReal} : IsReal x ↔ x ≠ ⊤ ∧ x ≠ ⊥ :=
  ⟨fun h => ⟨h.ne_top, h.ne_bot⟩, fun h => isReal_of_ne h.1 h.2⟩

/-- A value whose absolute value `max x (-x)` is below `⊤` is a real number. -/
theorem isReal_of_abs_lt_top {x : EReal} (h : max x (-x) < ⊤) : IsReal x := by
  have h1 : x < ⊤ := lt_of_le_of_lt (le_max_left _ _) h
  have h2 : -x < ⊤ := lt_of_le_of_lt (le_max_right _ _) h
  refine isReal_of_ne h1.ne ?_
  intro hx
  rw [hx, EReal.neg_bot] at h2
  exact lt_irrefl _ h2

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

theorem IsReal.min {x y : EReal} (hx : IsReal x) (hy : IsReal y) : IsReal (min x y) := by
  rcases le_total x y with h | h
  · rw [min_eq_left h]; exact hx
  · rw [min_eq_right h]; exact hy

/-- The coercion of reals commutes with a finite sum. -/
theorem coe_finset_sum {α : Type*} (s : Finset α) (f : α → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- A finite sum of real numbers is a real number. -/
theorem IsReal.sum {α : Type*} (s : Finset α) (f : α → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add
      (ih (fun i hi => h i (Finset.mem_insert_of_mem hi)))

theorem IsReal.sum' {α : Type*} (s : Finset α) (f : α → EReal) (h : ∀ i, IsReal (f i)) :
    IsReal (∑ i ∈ s, f i) :=
  IsReal.sum s f (fun i _ => h i)

theorem IsReal.sum_univ {α : Type*} [Fintype α] (f : α → EReal) (h : ∀ i, IsReal (f i)) :
    IsReal (∑ i, f i) :=
  IsReal.sum Finset.univ f (fun i _ => h i)

/-- Division of a real number by a nonzero real is a real number. -/
theorem IsReal.div_coe {x : EReal} (hx : IsReal x) {n : ℝ} (hn : n ≠ 0) :
    IsReal (Ideal.div x (n : EReal)) := by
  rw [Ideal.div_coe hn]
  exact hx.mul (isReal_coe _)

/-- The reciprocal square root of a positive real number is a real number. -/
theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact isReal_coe _

/-- Sum of squared deviations from a constant `t`, over the reals:
    `∑ (a r - t)² = ∑ a r² - 2 t ∑ a r + n t²`. -/
theorem sum_sq_dev {ι : Type} [Fintype ι] (a : ι → ℝ) (t : ℝ) :
    ∑ r, (a r - t) * (a r - t)
      = (∑ r, a r * a r) - 2 * t * (∑ r, a r) + (Fintype.card ι : ℝ) * (t * t) := by
  have h : ∀ r, (a r - t) * (a r - t) = a r * a r - 2 * t * a r + t * t := fun r => by ring
  simp only [h, Finset.sum_add_distrib, Finset.sum_sub_distrib, ← Finset.mul_sum,
    Finset.sum_const, Finset.card_univ, nsmul_eq_mul]
  ring

/-- The moment law over the reals. -/
theorem var_eq_real {ι : Type} [Fintype ι] (n : ℝ) (hn : n = (Fintype.card ι : ℝ)) (hn0 : n ≠ 0)
    (a : ι → ℝ) (m : ℝ) :
    (∑ r, (a r - m * ((∑ r, a r) * (1 / n))) * (a r - m * ((∑ r, a r) * (1 / n)))) * (1 / n)
      = (∑ r, a r * a r) * (1 / n)
        - ((∑ r, a r) * (1 / n)) * ((∑ r, a r) * (1 / n)) * (2 * m - m * m) := by
  rw [sum_sq_dev, ← hn]
  field_simp
  ring

/-- THE MOMENT LAW: the mean of the squared deviations from `ms · mean` is the mean of the
    squares minus `mean² · (2 ms - ms²)`. -/
theorem var_eq {ι : Type} [Fintype ι] (n : ℝ) (hn : n = (Fintype.card ι : ℝ))
    (hpos : 0 < Fintype.card ι)
    (y : ι → EReal) (hy : ∀ r, IsReal (y r)) (ms : EReal) (hms : IsReal ms) :
    Ideal.div (∑ r, (y r - ms * Ideal.div (∑ r, y r) (n : EReal))
        * (y r - ms * Ideal.div (∑ r, y r) (n : EReal))) (n : EReal)
      = Ideal.div (∑ r, y r * y r) (n : EReal)
        - (Ideal.div (∑ r, y r) (n : EReal) * Ideal.div (∑ r, y r) (n : EReal))
          * (((2 : ℝ) : EReal) * ms - ms * ms) := by
  choose a ha using hy
  obtain ⟨m, rfl⟩ := hms
  have hy' : y = fun r => ((a r : ℝ) : EReal) := funext ha
  subst hy'
  have hn0 : n ≠ 0 := by
    rw [hn]
    exact_mod_cast hpos.ne'
  simp only [Ideal.div_coe hn0, coe_finset_sum, ← EReal.coe_mul, ← EReal.coe_sub]
  rw [EReal.coe_eq_coe_iff]
  exact var_eq_real n hn hn0 a m

end Cert.LibMoment
-- ==== Proof.Net.lean ====
/-
  The network as plain mathematics on the extended reals, and the one law that joins the two programs.

  A feature matrix is a function of a row (one of 50000 nodes) and a column (one of 128 features). A dense layer is
  y = h · wt + b, entry (r, c) the sum over k of h (r, k) · wt (k, c), plus b c. A batch normalisation of y uses, per
  column, the mean over all rows and a variance, and maps y (r, c) to (y − mean) · rsqrt (var + eps) · g + be; it is
  followed by max (·, 0) in the two inner layers.

  The variance comes in two forms: the mean of the squared deviations from the mean (`varDev`), and the mean of the
  squares minus the square of the mean (`varSq`). On a column of real numbers they are the same number (the second-moment
  law); on the extended reals they need not be, so every stage is also shown to keep all entries real: sums and products
  of reals are real, the deviation form of the variance is a real ≥ 0, so var + eps is a positive real and its
  reciprocal square root is real. Hence the two networks, one built on each form, agree on real inputs.
-/
import Idealize.ShloMosaic.PureOps.Ideal
import proofs.«114590_j23673859736036_2_alg».proof.Proof.LibMoment
import Mathlib.Tactic

noncomputable section

namespace Cert.Net

open Idealize.ShloMosaic Cert.LibMoment
open scoped BigOperators

abbrev Mat := Fin 50000 → Fin 128 → EReal
abbrev Sq := Fin 128 → Fin 128 → EReal
abbrev Row := Fin 128 → EReal

/-- The number of rows, as the f32 word of 50000.0 denotes it. -/
def cnt : EReal := Ideal.ofBits .f32 0x47435000#32
/-- The variance offset, as the f32 word of 1e-5 denotes it. -/
def eps : EReal := Ideal.ofBits .f32 0x3727C5AC#32

theorem cnt_eq : cnt = ((50000 : ℝ) : EReal) := by
  unfold cnt
  simp [Ideal.ofBits, Ideal.ieee, -EReal.coe_mul]; norm_num

theorem eps_pos : ∃ e : ℝ, 0 < e ∧ eps = (e : EReal) := by
  unfold eps
  refine ⟨_, ?_, by simp [Ideal.ofBits, Ideal.ieee, -EReal.coe_mul]; rfl⟩
  norm_num

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_inf : Ideal.ofBits .f32 0x7F800000#32 = ⊤ := by
  simp [Ideal.ofBits, Ideal.ieee]

/-- Every entry is a real number. -/
def RealM (y : Mat) : Prop := ∀ r c, IsReal (y r c)
def RealS (w : Sq) : Prop := ∀ k c, IsReal (w k c)
def RealR (v : Row) : Prop := ∀ c, IsReal (v c)

/-- The dense layer h · wt + b. -/
def lin (h : Mat) (wt : Sq) (b : Row) : Mat := fun r c => (∑ k : Fin 128, h r k * wt k c) + b c

/-- The column mean. -/
def mean (y : Mat) : Row := fun c => Ideal.div (∑ r : Fin 50000, y r c) cnt

/-- The variance as the mean of the squared deviations from the mean. -/
def varDev (y : Mat) : Row := fun c =>
  Ideal.div (∑ r : Fin 50000, (y r c - mean y c) * (y r c - mean y c)) cnt

/-- The variance as the mean of the squares minus the square of the mean. -/
def varSq (y : Mat) : Row := fun c =>
  Ideal.div (∑ r : Fin 50000, y r c * y r c) cnt - mean y c * mean y c

/-- The normalisation with given statistics. -/
def bn (y : Mat) (mu var g be : Row) : Mat := fun r c =>
  (y r c - mu c) * Ideal.rsqrt (var c + eps) * g c + be c

def relu (y : Mat) : Mat := fun r c => max (y r c) 0

/-- One normalisation with the statistics of its own input, the variance in the form `V`. -/
def layer (V : Mat → Row) (y : Mat) (g be : Row) : Mat := bn y (mean y) (V y) g be

/-- The whole network after the aggregation, the variance in the form `V`. -/
def net (V : Mat → Row) (h : Mat) (wt1 : Sq) (b1 g1 be1 : Row) (wt2 : Sq) (b2 g2 be2 g3 be3 : Row) : Mat :=
  layer V (relu (layer V (lin (relu (layer V (lin h wt1 b1) g1 be1)) wt2 b2) g2 be2)) g3 be3

/-! ## Every stage keeps the entries real -/

theorem lin_real {h : Mat} {wt : Sq} {b : Row} (hh : RealM h) (hw : RealS wt) (hb : RealR b) : RealM (lin h wt b) :=
  fun r c => (IsReal.sum_univ _ fun k => (hh r k).mul (hw k c)).add (hb c)

theorem mean_real {y : Mat} (hy : RealM y) : RealR (mean y) := fun c => by
  unfold mean; rw [cnt_eq]
  exact (IsReal.sum_univ _ fun r => hy r c).div_coe (by norm_num)

theorem varDev_real {y : Mat} (hy : RealM y) : RealR (varDev y) := fun c => by
  unfold varDev; rw [cnt_eq]
  exact (IsReal.sum_univ _ fun r => ((hy r c).sub (mean_real hy c)).mul ((hy r c).sub (mean_real hy c))).div_coe
    (by norm_num)

/-- The deviation form of the variance of a real column is not negative. -/
theorem varDev_nonneg {y : Mat} (hy : RealM y) (c : Fin 128) : 0 ≤ varDev y c := by
  obtain ⟨mu, hmu⟩ := mean_real hy c
  choose a ha using fun r => hy r c
  unfold varDev
  rw [hmu, cnt_eq, Ideal.div_coe (by norm_num : (50000 : ℝ) ≠ 0)]
  simp only [ha, ← EReal.coe_sub, ← EReal.coe_mul, coe_finset_sum]
  rw [← EReal.coe_zero, EReal.coe_le_coe_iff]
  exact mul_nonneg (Finset.sum_nonneg fun r _ => mul_self_nonneg _) (by norm_num)

theorem bn_real {y : Mat} {mu var g be : Row} (hy : RealM y) (hmu : RealR mu) (hv : RealR var)
    (hv0 : ∀ c, 0 ≤ var c) (hg : RealR g) (hbe : RealR be) : RealM (bn y mu var g be) := fun r c => by
  obtain ⟨e, he, hee⟩ := eps_pos
  have hpos : (0 : EReal) < var c + eps := by
    obtain ⟨v, hv'⟩ := hv c
    have hv0' : 0 ≤ v := by have := hv0 c; rw [hv'] at this; exact_mod_cast this
    rw [hv', hee, ← EReal.coe_add]
    exact_mod_cast (by linarith : 0 < v + e)
  have hre : IsReal (var c + eps) := (hv c).add ⟨e, hee⟩
  exact ((((hy r c).sub (hmu c)).mul (hre.rsqrt hpos)).mul (hg c)).add (hbe c)

theorem relu_real {y : Mat} (hy : RealM y) : RealM (relu y) := fun r c => (hy r c).max isReal_zero

theorem layerDev_real {y : Mat} {g be : Row} (hy : RealM y) (hg : RealR g) (hbe : RealR be) :
    RealM (layer varDev y g be) :=
  bn_real hy (mean_real hy) (varDev_real hy) (varDev_nonneg hy) hg hbe

/-! ## The second-moment law, column by column -/

theorem varSq_eq_varDev {y : Mat} (hy : RealM y) : varSq y = varDev y := by
  funext c
  have h := var_eq (ι := Fin 50000) (50000 : ℝ) (by rw [Fintype.card_fin]; norm_num) (by rw [Fintype.card_fin]; norm_num)
    (fun r => y r c) (fun r => hy r c) ((1 : ℝ) : EReal) (isReal_coe 1)
  have h2 : ((2 : ℝ) : EReal) * ((1 : ℝ) : EReal) - ((1 : ℝ) : EReal) * ((1 : ℝ) : EReal) = 1 := by
    rw [← EReal.coe_mul, ← EReal.coe_mul, ← EReal.coe_sub]; norm_num
  rw [h2, mul_one] at h
  simp only [EReal.coe_one, one_mul] at h
  unfold varSq varDev mean
  rw [cnt_eq]
  exact h.symm

theorem layer_eq {y : Mat} (g be : Row) (hy : RealM y) : layer varSq y g be = layer varDev y g be := by
  unfold layer; rw [varSq_eq_varDev hy]

/-- On real inputs the network built on either form of the variance is the same. -/
theorem net_eq {h : Mat} {wt1 wt2 : Sq} {b1 g1 be1 b2 g2 be2 g3 be3 : Row} (hh : RealM h) (hw1 : RealS wt1)
    (hb1 : RealR b1) (hg1 : RealR g1) (hbe1 : RealR be1) (hw2 : RealS wt2) (hb2 : RealR b2) (hg2 : RealR g2)
    (hbe2 : RealR be2) :
    net varSq h wt1 b1 g1 be1 wt2 b2 g2 be2 g3 be3 = net varDev h wt1 b1 g1 be1 wt2 b2 g2 be2 g3 be3 := by
  have y1 : RealM (lin h wt1 b1) := lin_real hh hw1 hb1
  have a1 : RealM (relu (layer varDev (lin h wt1 b1) g1 be1)) := relu_real (layerDev_real y1 hg1 hbe1)
  have y2 := lin_real a1 hw2 hb2
  have a2 : RealM (relu (layer varDev (lin (relu (layer varDev (lin h wt1 b1) g1 be1)) wt2 b2) g2 be2)) :=
    relu_real (layerDev_real y2 hg2 hbe2)
  unfold net
  rw [layer_eq g1 be1 y1, layer_eq g2 be2 y2, layer_eq g3 be3 a2]

end Cert.Net

end
-- ==== Proof.LibFiniteOps.lean ====
import Idealize.ShloMosaic.PureOps
import Idealize.ShloMosaic.PureOps.Ideal
import proofs.«114590_j23673859736036_2_alg».proof.Proof.LibMoment

/-!
# Operations that keep every entry a real number

A vector of extended reals is `AllReal` when every entry is a real number. At the ideal values
each operation below is a textbook operation on the entries — a sum, a product, a maximum, a
choice between two entries, a re-indexing, a finite sum of entries or of products of entries —
so it keeps that property, by the closure of the real numbers under the operation.
-/

noncomputable section

namespace Cert.LibFiniteOps

open Idealize.ShloMosaic Cert.LibMoment
open scoped BigOperators

/-- Every entry of the vector is a real number. -/
def AllReal {s : Shape} (v : s.Idx → EReal) : Prop := ∀ i, IsReal (v i)

theorem AllReal.apply {s : Shape} {v : s.Idx → EReal} (h : AllReal v) (i : s.Idx) : IsReal (v i) := h i

/-! ### Re-indexings: every entry of the result is an entry of the operand -/

/-- A vector read through any map of indices. -/
theorem allReal_comp {s t : Shape} {x : s.Idx → EReal} (g : t.Idx → s.Idx) (hx : AllReal x) :
    AllReal (fun j => x (g j)) :=
  fun j => hx (g j)

theorem allReal_broadcastInDim {s t : Shape} (dims : Fin s.rank → Fin t.rank)
    (h : s.BroadcastsInDim t dims) {x : s.Idx → EReal} (hx : AllReal x) :
    AllReal (broadcastInDim t dims h x) :=
  fun _ => hx _

theorem allReal_transpose {s t : Shape} (perm : List (Fin s.rank)) {x : s.Idx → EReal}
    (h : s.Transposes perm t) (hx : AllReal x) :
    AllReal (transpose t perm x h) :=
  fun _ => hx _

theorem allReal_shapeCast {s t : Shape} {x : s.Idx → EReal} (h : s.ShapeCasts t) (hx : AllReal x) :
    AllReal (shapeCast t x h) :=
  fun _ => hx _

/-- A gather reads, at each result index, one entry of the operand. -/
theorem allReal_gather {s si t : Shape} {w : Nat} (d : GatherDims s si t) {x : s.Idx → EReal}
    (idx : IVec si w) (hx : AllReal x) :
    AllReal (Host.gather d x idx) :=
  fun _ => hx _

/-! ### Constants -/

/-- The splat of a pattern that denotes a real number. -/
theorem allReal_constant (s : Shape) (φ : FTy) (b : BitVec φ.bits)
    (hb : IsReal (Ideal.ofBits φ b)) :
    AllReal (constant (F := Ideal) s φ b) :=
  fun _ => hb

/-- A rank-zero constant broadcast to any shape. -/
theorem allReal_broadcast_constant {s0 t : Shape} (dims : Fin s0.rank → Fin t.rank)
    (h : s0.BroadcastsInDim t dims) (φ : FTy) (b : BitVec φ.bits)
    (hb : IsReal (Ideal.ofBits φ b)) :
    AllReal (broadcastInDim t dims h (constant (F := Ideal) s0 φ b)) :=
  allReal_broadcastInDim dims h (allReal_constant s0 φ b hb)

/-! ### Entrywise operations -/

theorem allReal_addf {s : Shape} {φ : FTy} {x y : FVec Ideal s φ} (hx : AllReal x) (hy : AllReal y) :
    AllReal (addf x y) :=
  fun i => (hx i).add (hy i)

theorem allReal_subf {s : Shape} {φ : FTy} {x y : FVec Ideal s φ} (hx : AllReal x) (hy : AllReal y) :
    AllReal (subf x y) :=
  fun i => (hx i).sub (hy i)

theorem allReal_mulf {s : Shape} {φ : FTy} {x y : FVec Ideal s φ} (hx : AllReal x) (hy : AllReal y) :
    AllReal (mulf x y) :=
  fun i => (hx i).mul (hy i)

theorem allReal_maximumf {s : Shape} {φ : FTy} {x y : FVec Ideal s φ} (hx : AllReal x)
    (hy : AllReal y) :
    AllReal (maximumf x y) :=
  fun i => (hx i).max (hy i)

/-- A choice, entry by entry, between two vectors of real numbers. -/
theorem allReal_select {s : Shape} (c : IVec s 1) {x y : s.Idx → EReal} (hx : AllReal x)
    (hy : AllReal y) :
    AllReal (select c x y) := by
  intro i
  show IsReal (if c i = 1 then x i else y i)
  split
  · exact hx i
  · exact hy i

/-- The reciprocal square root of positive real numbers. -/
theorem allReal_rsqrt {s : Shape} {φ : FTy} {x : FVec Ideal s φ} (hx : AllReal x)
    (hpos : ∀ i, (0 : EReal) < x i) :
    AllReal (Host.rsqrt x) :=
  fun i => (hx i).rsqrt (hpos i)

/-- Division by real numbers none of which is zero. -/
theorem allReal_divf {s : Shape} {φ : FTy} {x y : FVec Ideal s φ} (hx : AllReal x)
    (hy : AllReal y) (hne : ∀ i, y i ≠ 0) :
    AllReal (Host.divf x y) := by
  intro i
  obtain ⟨n, hn⟩ := hy i
  have hn0 : n ≠ 0 := by
    intro h
    apply hne i
    rw [hn, h]
    exact EReal.coe_zero
  show IsReal (Ideal.div (x i) (y i))
  rw [hn]
  exact (hx i).div_coe hn0

/-! ### Finite sums -/

/-- Scatter with addition: each entry of the operand plus the finite sum of the updates that
    land on it. -/
theorem allReal_scatterAdd {s si u : Shape} {w : Nat} {φ : FTy} (d : ScatterDims s si u)
    {x : FVec Ideal s φ} (idx : IVec si w) {upd : FVec Ideal u φ}
    (hx : AllReal x) (hu : AllReal upd) :
    AllReal (Host.scatterAdd d x idx upd) :=
  fun i => (hx i).add (IsReal.sum _ _ (fun j _ => hu j))

/-- A reduction by addition: the initial value plus the finite sum of the entries that reduce to
    each index. -/
theorem allReal_reduceAdd {s t u : Shape} {φ : FTy} {axes : List (Fin s.rank)}
    {x : FVec Ideal s φ} {init : u.Idx → Ideal φ} (h : s.ReducesTo axes t) (hu : 0 < u.numel)
    (hx : AllReal x) (hi : AllReal init) :
    AllReal (Host.reduceAdd x init h hu) :=
  fun _ => (hi _).add (IsReal.sum _ _ (fun i _ => hx i))

/-- A contraction: at each index, zero plus the finite sum of products of entries. -/
theorem allReal_dotGeneral {sl sr so : Shape} {φ₁ φ₂ : FTy} (d : DotDims sl sr so)
    (prec : Option ContractPrecision) {x : FVec Ideal sl φ₁} {y : FVec Ideal sr φ₂}
    (hx : AllReal x) (hy : AllReal y) :
    AllReal (Host.dotGeneral d prec x y) :=
  fun _ => isReal_zero.add (IsReal.sum_univ _ (fun _ => (hx _).mul (hy _)))

end Cert.LibFiniteOps

end
-- ==== Proof.Mats.lean ====
/-
  Arrays of the printed shapes read as the curried matrices, square matrices and rows the network is stated over,
  and back. An index of a rank-2 array is its two coordinates; a matrix passed transposed is read with the
  coordinates exchanged.
-/
import Idealize.ShloMosaic.Lib.ValueIdx
import proofs.«114590_j23673859736036_2_alg».proof.Proof.Net
import proofs.«114590_j23673859736036_2_alg».proof.Proof.LibFiniteOps

noncomputable section

namespace Cert.Net

open Idealize.ShloMosaic Idealize.ShloMosaic.ValueIdx Cert.LibMoment Cert.LibFiniteOps

abbrev ShM : Shape := ⟨2, ![50000, 128]⟩
abbrev ShS : Shape := ⟨2, ![128, 128]⟩
abbrev ShR : Shape := ⟨1, ![128]⟩

/-- A [50000,128] array as a matrix of rows and columns. -/
def mat (a : ShM.Idx → EReal) : Mat := fun r c => a (ix2 r c)
/-- A [128,128] array as it stands: entry (k, c). -/
def sqm (a : ShS.Idx → EReal) : Sq := fun k c => a (ix2 k c)
/-- A [128,128] array read transposed: entry (k, c) of the result is entry (c, k) of the array. -/
def sqT (a : ShS.Idx → EReal) : Sq := fun k c => a (ix2 c k)
/-- A [128] array as a row. -/
def row (a : ShR.Idx → EReal) : Row := fun c => a (ix1 c)
/-- A matrix as a [50000,128] array. -/
def unmat (y : Mat) : ShM.Idx → EReal := fun i => y (i 0) (i 1)
/-- A row as a [128] array. -/
def unrow (v : Row) : ShR.Idx → EReal := fun i => v (i 0)

theorem unmat_apply (y : Mat) (r : Fin 50000) (c : Fin 128) : unmat y (ix2 r c) = y r c := rfl
theorem mat_unmat (y : Mat) : mat (unmat y) = y := rfl
theorem unmat_mat (a : ShM.Idx → EReal) : unmat (mat a) = a :=
  funext fun i => congrArg a (eq_ix2 i).symm
theorem unrow_apply (v : Row) (c : Fin 128) : unrow v (ix1 c) = v c := rfl
theorem row_unrow (v : Row) : row (unrow v) = v := rfl
theorem unrow_row (a : ShR.Idx → EReal) : unrow (row a) = a :=
  funext fun i => congrArg a (eq_ix1 i).symm

/-- Two [50000,128] arrays with the same entries are equal. -/
theorem ext_mat {a b : ShM.Idx → EReal} (h : ∀ r c, a (ix2 r c) = b (ix2 r c)) : a = b := by
  funext i; rw [eq_ix2 i]; exact h _ _
theorem ext_row {a b : ShR.Idx → EReal} (h : ∀ c, a (ix1 c) = b (ix1 c)) : a = b := by
  funext i; rw [eq_ix1 i]; exact h _

theorem realM_mat {a : ShM.Idx → EReal} (h : AllReal a) : RealM (mat a) := fun r c => h (ix2 r c)
theorem realS_sqT {a : ShS.Idx → EReal} (h : AllReal a) : RealS (sqT a) := fun k c => h (ix2 c k)
theorem realR_row {a : ShR.Idx → EReal} (h : AllReal a) : RealR (row a) := fun c => h (ix1 c)

end Cert.Net

end
-- ==== Proof.LibFiniteMax.lean ====
/-
  Finite entries, clips and maxima on the extended reals. Library imports only.

  * The words of `+inf` and `-inf` denote `⊤` and `⊥`.
  * An extended real that the comparison `|x| < +inf` accepts — `max x (-x)` compared with the word of `+inf`, the
    element test of a "every input is finite" precondition — is a real number.
  * A value clipped into a real interval, `min hi (max lo r)`, is a real number whatever `r` is.
  * The maximum, taken from `⊥`, of a nonempty finite family of real numbers is a real number (a row's or an
    array's largest absolute value, as a quantizer's scale takes it).
  * The absolute value `max x (-x)` of a real number is a real number.
  "Is a real number" is stated as `∃ a : ℝ, x = ↑a`.
-/
import Idealize.ShloMosaic.PureOps.Ideal
import Mathlib.Data.EReal.Basic
import Mathlib.Data.EReal.Operations
import Mathlib.Data.Finset.Fold
import Mathlib.Tactic

noncomputable section

namespace Cert.LibFiniteMax

open Idealize.ShloMosaic

/-- The word of `+inf` denotes `⊤`. -/
theorem ofBits_pos_inf : Ideal.ofBits .f32 0x7F800000#32 = ⊤ := by
  simp [Ideal.ofBits, Ideal.ieee]

/-- The word of `-inf` denotes `⊥`. -/
theorem ofBits_neg_inf : Ideal.ofBits .f32 0xFF800000#32 = ⊥ := by
  simp [Ideal.ofBits, Ideal.ieee]

/-- A value that is neither infinity is a real number. -/
theorem real_of_ne {x : EReal} (h1 : x ≠ ⊤) (h2 : x ≠ ⊥) : ∃ a : ℝ, x = (a : EReal) :=
  ⟨x.toReal, (EReal.coe_toReal h1 h2).symm⟩

/-- A value whose absolute value `max x (-x)` is below `⊤` is a real number. -/
theorem real_of_abs_lt_top {x : EReal} (h : max x (-x) < ⊤) : ∃ a : ℝ, x = (a : EReal) := by
  have h1 : x < ⊤ := lt_of_le_of_lt (le_max_left _ _) h
  have h2 : -x < ⊤ := lt_of_le_of_lt (le_max_right _ _) h
  refine real_of_ne (ne_of_lt h1) ?_
  rintro rfl
  simp at h2

/-- An entry that the comparison `|x| < +inf` accepts is a real number. -/
theorem real_of_lt_inf {x : EReal}
    (h : Ideal.cmp .olt (max x (-x)) (Ideal.ofBits .f32 0x7F800000#32) = 1#1) : ∃ a : ℝ, x = (a : EReal) := by
  rw [ofBits_pos_inf] at h
  apply real_of_abs_lt_top
  by_contra hc
  have : Ideal.cmp .olt (max x (-x)) ⊤ = 0#1 := by
    unfold Ideal.cmp
    simp only [decide_eq_false hc]
    rfl
  rw [this] at h
  exact absurd h (by decide)

/-- A value clipped into the real interval [lo, hi] is a real number. -/
theorem clip_real (lo hi : ℝ) (hle : lo ≤ hi) (r : EReal) :
    ∃ a : ℝ, min (hi : EReal) (max (lo : EReal) r) = (a : EReal) := by
  apply real_of_ne
  · exact ne_of_lt (lt_of_le_of_lt (min_le_left _ _) (EReal.coe_lt_top _))
  · exact ne_of_gt (lt_of_lt_of_le (EReal.bot_lt_coe _)
      (le_min (EReal.coe_le_coe_iff.2 hle) (le_max_left _ _)))

/-- The maximum, from `⊥`, of a nonempty finite family of real numbers is a real number. -/
theorem fold_max_real {ι : Type*} (S : Finset ι) (f : ι → EReal) (hne : S.Nonempty)
    (hf : ∀ i ∈ S, ∃ a : ℝ, f i = (a : EReal)) : ∃ a : ℝ, S.fold max ⊥ f = (a : EReal) := by
  apply real_of_ne
  · apply ne_of_lt
    rw [Finset.fold_max_lt]
    refine ⟨bot_lt_top, fun i hi => ?_⟩
    obtain ⟨a, ha⟩ := hf i hi
    rw [ha]; exact EReal.coe_lt_top a
  · apply ne_of_gt
    rw [Finset.lt_fold_max]
    obtain ⟨i, hi⟩ := hne
    obtain ⟨a, ha⟩ := hf i hi
    exact Or.inr ⟨i, hi, by rw [ha]; exact EReal.bot_lt_coe a⟩

/-- The absolute value of a real number is a real number. -/
theorem abs_real {x : EReal} (hx : ∃ a : ℝ, x = (a : EReal)) : ∃ a : ℝ, max x (-x) = (a : EReal) := by
  obtain ⟨a, rfl⟩ := hx
  rcases le_total (a : EReal) (-(a : EReal)) with h | h
  · rw [max_eq_right h]; exact ⟨-a, (EReal.coe_neg a).symm⟩
  · rw [max_eq_left h]; exact ⟨a, rfl⟩

end Cert.LibFiniteMax

end
-- ==== Proof.PreFacts.lean ====
import proofs.«114590_j23673859736036_2_alg».proof.Pre_finite_inputs
import proofs.«114590_j23673859736036_2_alg».proof.Proof.LibFiniteOps
import proofs.«114590_j23673859736036_2_alg».proof.Proof.LibFiniteMax
import proofs.«114590_j23673859736036_2_alg».proof.Proof.Net
import Idealize.ShloMosaic.Lib.ReduceAll
import Idealize.ShloMosaic.Lib.ValueIdx
import Idealize.ShloMosaic.Lib.ValueLayout

/-!
# What the precondition says, decoded

The precondition is one bit: the conjunction, over the eleven real-valued arguments `a`, of
"every entry of `a` satisfies `|x| < +∞`", and of "every entry of row 1 of the index array is
`≥ 0` as a signed integer". When that bit is 1:

* a conjunction that is 1 has every conjunct 1;
* a conjunction over all entries of an array that is 1 has a 1 at every entry;
* an extended real `x` with `max x (-x) < ⊤` is neither `⊤` nor `⊥`, so it is a real number;
* row 1 of the `[2, 800000]` index array, sliced out as a `[1, 800000]` array and flattened, reads
  at `e` the entry `(1, e)` of the array.

So every real-valued argument has only real entries, and every destination index is non-negative;
a signed word that is `≥ 0` is not `< 0`.
-/

noncomputable section

namespace Cert.PreFacts

open Idealize.ShloMosaic Idealize.ShloMosaic.ValueIdx
open Cert.Pre_finite_inputs Cert.LibFiniteOps Cert.LibMoment

variable [Cert.Pre_finite_inputs.Facts]

/-- The rank-zero shape has one index. -/
instance : Subsingleton S_.Idx := ⟨fun a b => funext fun d => d.elim0⟩

/-- One "every entry is finite" test, read back: when the conjunction over all entries of
    `|x| < +∞` is 1, every entry of `x` is a real number. -/
theorem allReal_of_all {s : Shape} {axes : List (Fin s.rank)} (x : FVec Ideal s .f32)
    (bc : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] bc (constant (F := Ideal) S_ .f32 0x7F800000#32)))
          init hr hu j = 1#1) :
    AllReal x := by
  intro i
  have hi := Host.reduce_andi_all _ init hr hu j e i
  obtain ⟨a, ha⟩ := Cert.LibFiniteMax.real_of_lt_inf (x := x i) hi
  exact ⟨a, ha⟩

/-- A signed word that is `≥ 0` is a non-negative integer. -/
theorem toInt_nonneg (x : BitVec 32) (h : IntOp.cmpi .sge x 0#32 = 1#1) : 0 ≤ x.toInt := by
  have h0 : (0#32).toInt ≤ x.toInt := IntOp.cmpi_sge.1 h
  simpa using h0

/-- A signed word that is `≥ 0` is not `< 0`: the test "x < 0" gives 0. -/
theorem not_neg (x : BitVec 32) (h : IntOp.cmpi .sge x 0#32 = 1#1) : IntOp.cmpi .slt x 0#32 = 0#1 := by
  have h0 : (0#32).toInt ≤ x.toInt := IntOp.cmpi_sge.1 h
  have hn : ¬ IntOp.cmpi .slt x 0#32 = 1#1 := fun hc => absurd (IntOp.cmpi_slt.1 hc) (not_lt.2 h0)
  exact eq_zero_of_ne_one hn

/-- The same at the scalar unit's comparison, which is the same function of the two words. -/
theorem not_neg_scalar (x : BitVec 32) (h : IntOp.cmpi .sge x 0#32 = 1#1) : Scalar.cmpi .slt x 0#32 = 0#1 :=
  not_neg x h

/-- The same for a whole array compared entry by entry with the splat of zero: where an entry is
    `≥ 0`, the array test "entry < 0" gives 0 there. -/
theorem not_neg_at {s : Shape} (v : IVec s 32) (bc : S_.BroadcastsInDim s (![] : Fin 0 → Fin s.rank)) (i : s.Idx)
    (h : IntOp.cmpi .sge (v i) 0#32 = 1#1) :
    cmpi .slt v (broadcastInDim s ![] bc (constantI S_ 32 0#32)) i = 0#1 :=
  not_neg (v i) h

/-- THE PRECONDITION DECODED: every real-valued argument has only real entries, and every entry of
    row 1 of the index array is `≥ 0` as a signed integer. -/
theorem of_pre (a0 : FVec Ideal S50000x128 .f32) (a1 : IVec S2x800000 32) (a2 : FVec Ideal S128x128 .f32)
    (a3 a4 a5 : FVec Ideal S128 .f32) (a6 : FVec Ideal S128x128 .f32) (a7 a8 a9 a10 a11 : FVec Ideal S128 .f32)
    (h : Cert.Pre_finite_inputs.fn (F := Ideal) a0 a1 a2 a3 a4 a5 a6 a7 a8 a9 a10 a11 = fun _ => 1#1) :
    AllReal a0 ∧ AllReal a2 ∧ AllReal a3 ∧ AllReal a4 ∧ AllReal a5 ∧ AllReal a6 ∧ AllReal a7 ∧ AllReal a8
      ∧ AllReal a9 ∧ AllReal a10 ∧ AllReal a11
      ∧ (∀ e : Fin 800000, IntOp.cmpi .sge (a1 (ix2 (1 : Fin 2) e)) 0#32 = 1#1) := by
  -- the one bit of the result, as the nested conjunction it is
  have e := congrFun h ix0
  dsimp only [fn, fn_part1, fn_part2, fn_part3, andi] at e
  simp only [IntOp.andi_eq_one] at e
  obtain ⟨⟨⟨⟨⟨⟨⟨⟨⟨⟨⟨e0, e2⟩, e3⟩, e4⟩, e5⟩, e6⟩, e7⟩, e8⟩, e9⟩, e10⟩, e11⟩, ei⟩ := e
  refine ⟨allReal_of_all _ _ _ _ _ _ e0, allReal_of_all _ _ _ _ _ _ e2, allReal_of_all _ _ _ _ _ _ e3,
    allReal_of_all _ _ _ _ _ _ e4, allReal_of_all _ _ _ _ _ _ e5, allReal_of_all _ _ _ _ _ _ e6,
    allReal_of_all _ _ _ _ _ _ e7, allReal_of_all _ _ _ _ _ _ e8, allReal_of_all _ _ _ _ _ _ e9,
    allReal_of_all _ _ _ _ _ _ e10, allReal_of_all _ _ _ _ _ _ e11, fun k => ?_⟩
  -- the integer test at entry k of the flattened row 1
  have hk := Host.reduce_andi_all _ _ _ _ _ ei (ix1 k)
  -- that entry is entry (1, k) of the index array
  have hs : shapeCast S800000 (extractStridedSlice S1x800000 ![1, 0] a1 Facts.slices_S2x800000_S1x800000_1_0)
      Facts.shapeCasts_S1x800000_S800000 (ix1 k) = a1 (ix2 (1 : Fin 2) k) :=
    (shapeCast_1a_a_apply _ _ k).trans (slice2_axis0_apply 1 a1 _ (0 : Fin 1) k (1 : Fin 2) rfl)
  rw [← hs]
  exact hk

/-- Row 1 of the index array, entry by entry: a non-negative integer, and the test "entry < 0" gives 0. -/
theorem dst_nonneg (a0 : FVec Ideal S50000x128 .f32) (a1 : IVec S2x800000 32) (a2 : FVec Ideal S128x128 .f32)
    (a3 a4 a5 : FVec Ideal S128 .f32) (a6 : FVec Ideal S128x128 .f32) (a7 a8 a9 a10 a11 : FVec Ideal S128 .f32)
    (h : Cert.Pre_finite_inputs.fn (F := Ideal) a0 a1 a2 a3 a4 a5 a6 a7 a8 a9 a10 a11 = fun _ => 1#1)
    (e : Fin 800000) :
    0 ≤ (a1 (ix2 (1 : Fin 2) e)).toInt ∧ IntOp.cmpi .slt (a1 (ix2 (1 : Fin 2) e)) 0#32 = 0#1 :=
  have hk := (of_pre a0 a1 a2 a3 a4 a5 a6 a7 a8 a9 a10 a11 h).2.2.2.2.2.2.2.2.2.2.2 e
  ⟨toInt_nonneg _ hk, not_neg _ hk⟩

end Cert.PreFacts

end
-- ==== Proof.LibScatterInit.lean ====
/-
  A scatter-add into an operand is the operand plus a scatter-add into zeros.

  At the ideal reading the host's accumulating scatter gives, at every index, the operand's entry plus the sum of the
  updates that land there.  So adding the same updates at the same places into x, or into an all-zero array and then
  adding x, is the same array: x i + Σ u = x i + (0 + Σ u).  No finiteness is asked: only that 0 is neutral.
  Any shapes, any dimension numbers.  Library imports only.
-/
import Idealize.ShloMosaic.PureOps.Ideal.Laws
import Idealize.ShloMosaic.Lib.ValueIdx

noncomputable section

namespace Cert.LibScatterInit

open Idealize.ShloMosaic Idealize.ShloMosaic.ValueIdx

/-- The accumulating scatter at an index: the operand's entry plus the sum of the updates landing there. -/
theorem scatterAdd_apply {s si su : Shape} {φ : FTy} {w : ℕ} (d : ScatterDims s si su) (x : FVec Ideal s φ)
    (idx : IVec si w) (u : FVec Ideal su φ) (i : s.Idx) :
    Host.scatterAdd d x idx u i = x i + ∑ j ∈ Finset.univ.filter (fun j => d.resultIdx? j idx = some i), u j := rfl

/-- Scatter-adding into x is x plus the scatter-add of the same updates into any array z that is zero everywhere. -/
theorem scatterAdd_eq_add_zeros {s si su : Shape} {φ : FTy} {w : ℕ} (d : ScatterDims s si su) (x z : FVec Ideal s φ)
    (hz : ∀ i, z i = 0) (idx : IVec si w) (u : FVec Ideal su φ) :
    Host.scatterAdd d x idx u = addf x (Host.scatterAdd d z idx u) := by
  funext i
  rw [addf_apply, scatterAdd_apply, scatterAdd_apply, hz i, zero_add]

end Cert.LibScatterInit

end
-- ==== Proof.Host0.lean ====
import proofs.«114590_j23673859736036_2_alg».proof.Proof.Gen.KernelIdeal.Frame
import proofs.«114590_j23673859736036_2_alg».proof.Proof.Gen.ReferenceIdeal.Read
import proofs.«114590_j23673859736036_2_alg».proof.Proof.PreFacts
import proofs.«114590_j23673859736036_2_alg».proof.Proof.Gen.Pre_finite_inputs
import proofs.«114590_j23673859736036_2_alg».proof.Proof.LibScatterInit
import proofs.«114590_j23673859736036_2_alg».proof.Proof.LibFiniteOps
import proofs.«114590_j23673859736036_2_alg».proof.Proof.Net
import Idealize.ShloMosaic.Lib.StableHlo.Run
import Idealize.ShloMosaic.Lib.ValueIdx
import Idealize.ShloMosaic.Lib.ValueLayout

/-!
# The operations before the first kernel region, as values

Before its first kernel region the program computes, from the input `x` (50000 rows of 128) and the
`[2, 800000]` index array (row 0 the sources, row 1 the destinations):

* the aggregation `1·x + Σ_{e : dst e = i} x[src e]`, written as one accumulating scatter of the gathered
  rows `x[src e]` into the array `1·x`, at destination indices in which every negative entry has first
  been moved up by 50000;
* the transposes of the two weight matrices.
Every other argument is left as it was.

The reference computes the same aggregation as `1·x` plus an accumulating scatter of the same gathered rows
into an all-zero array, at the destination indices as given. The two agree when every destination index is
`≥ 0`: then no entry is moved, and adding the same updates at the same places into `1·x`, or into zeros and then
adding `1·x`, is the same array. When every entry of `x` is a real number so is every entry of the aggregation:
it is a finite sum of real numbers.
-/

noncomputable section

namespace Cert.Host0

open Cert.KernelIdeal Cert.KernelIdeal.Gen
open Idealize.ShloMosaic Idealize.ShloMosaic.TcCoe Idealize.SL.Sem Idealize.ShloMosaic.StableHlo
open Idealize.ShloMosaic.ValueIdx
open Cert.LibFiniteOps Cert.LibMoment

/-- Row `r` of the index array, flattened. -/
def rowK (x1 : IVec S2x800000 32) (r : Fin 2) : IVec S800000 32 :=
  match r with
  | ⟨0, _⟩ => shapeCast S800000 (extractStridedSlice S1x800000 ![0, 0] x1 slices_S2x800000_S1x800000_0_0) shapeCasts_S1x800000_S800000
  | ⟨1, _⟩ => shapeCast S800000 (extractStridedSlice S1x800000 ![1, 0] x1 slices_S2x800000_S1x800000_1_0) shapeCasts_S1x800000_S800000

/-- An index vector as a one-column array. -/
def colK (v : IVec S800000 32) : IVec S800000x1 32 :=
  broadcastInDim S800000x1 ![0] bcast_S800000_S800000x1_0 v

/-- An index vector with every negative entry moved up by 50000, as a one-column array. -/
def wrapK (v : IVec S800000 32) : IVec S800000x1 32 :=
  colK (select (cmpi .slt v (broadcastInDim S800000 ![] bcast_S_S800000 (constantI S_ 32 0#32)))
      (addi v (broadcastInDim S800000 ![] bcast_S_S800000 (constantI S_ 32 50000#32))) v)

/-- The array the sums are added into: one times the input. -/
def baseK (x0 : FVec Ideal S50000x128 .f32) : FVec Ideal S50000x128 .f32 :=
  mulf (broadcastInDim S50000x128 ![] bcast_S_S50000x128 (constant (F := Ideal) S_ .f32 0x3F800000#32)) x0

/-- The gathered rows: row `src e` of the input, for every edge `e`. -/
def gatK (x0 : FVec Ideal S50000x128 .f32) (x1 : IVec S2x800000 32) : FVec Ideal S800000x128 .f32 :=
  Host.gather gather_S50000x128_S800000x1_S800000x128_1_0_n_n_0_1_1128 x0 (wrapK (rowK x1 0))

/-- The aggregation as the kernel program's host lines compute it. -/
def aggK (x0 : FVec Ideal S50000x128 .f32) (x1 : IVec S2x800000 32) : FVec Ideal S50000x128 .f32 :=
  Host.scatterAdd scatter_S50000x128_S800000x1_S800000x128_1_0_0_1 (baseK x0) (wrapK (rowK x1 1)) (gatK x0 x1)

section Run

/-! ## What the first region finds in its buffers -/

variable (m : (ℓ : Loc nD τ sig) → Buf (Elt Ideal) ℓ) (ρ : Dev nD → PrngReg)

/-- The aggregation's buffer when the first region is entered. -/
theorem W1_agg (c : Dev nD) :
    W1 (F := Ideal) m ρ c (Proc.devRef .tc main_v19)
      = aggK (m ((c : Thread nD τ).loc main_arg0)) (m ((c : Thread nD τ).loc main_arg1)) := by
  show StableHlo.after hostOps0 (W0 m ρ c) (Proc.devRef .tc main_v19) = _
  after_results_simp
  rfl

/-- The first transposed weight matrix. -/
theorem W1_wt1 (c : Dev nD) :
    W1 (F := Ideal) m ρ c (Proc.devRef .tc main_v20)
      = transpose S128x128 [1, 0] (m ((c : Thread nD τ).loc main_arg2)) transposes_S128x128_S128x128_1_0 := by
  show StableHlo.after hostOps0 (W0 m ρ c) (Proc.devRef .tc main_v20) = _
  after_results_simp

/-- The second transposed weight matrix. -/
theorem W1_wt2 (c : Dev nD) :
    W1 (F := Ideal) m ρ c (Proc.devRef .tc main_v21)
      = transpose S128x128 [1, 0] (m ((c : Thread nD τ).loc main_arg6)) transposes_S128x128_S128x128_1_0 := by
  show StableHlo.after hostOps0 (W0 m ρ c) (Proc.devRef .tc main_v21) = _
  after_results_simp

/-! The arguments no operation writes are as launched. -/

theorem W1_main_arg3 (c : Dev nD) :
    W1 (F := Ideal) m ρ c (Proc.devRef .tc main_arg3) = m ((c : Thread nD τ).loc main_arg3) := by
  show StableHlo.after hostOps0 (W0 m ρ c) (Proc.devRef .tc main_arg3) = _
  after_results_simp

theorem W1_main_arg4 (c : Dev nD) :
    W1 (F := Ideal) m ρ c (Proc.devRef .tc main_arg4) = m ((c : Thread nD τ).loc main_arg4) := by
  show StableHlo.after hostOps0 (W0 m ρ c) (Proc.devRef .tc main_arg4) = _
  after_results_simp

theorem W1_main_arg5 (c : Dev nD) :
    W1 (F := Ideal) m ρ c (Proc.devRef .tc main_arg5) = m ((c : Thread nD τ).loc main_arg5) := by
  show StableHlo.after hostOps0 (W0 m ρ c) (Proc.devRef .tc main_arg5) = _
  after_results_simp

theorem W1_main_arg7 (c : Dev nD) :
    W1 (F := Ideal) m ρ c (Proc.devRef .tc main_arg7) = m ((c : Thread nD τ).loc main_arg7) := by
  show StableHlo.after hostOps0 (W0 m ρ c) (Proc.devRef .tc main_arg7) = _
  after_results_simp

theorem W1_main_arg8 (c : Dev nD) :
    W1 (F := Ideal) m ρ c (Proc.devRef .tc main_arg8) = m ((c : Thread nD τ).loc main_arg8) := by
  show StableHlo.after hostOps0 (W0 m ρ c) (Proc.devRef .tc main_arg8) = _
  after_results_simp

theorem W1_main_arg9 (c : Dev nD) :
    W1 (F := Ideal) m ρ c (Proc.devRef .tc main_arg9) = m ((c : Thread nD τ).loc main_arg9) := by
  show StableHlo.after hostOps0 (W0 m ρ c) (Proc.devRef .tc main_arg9) = _
  after_results_simp

theorem W1_main_arg10 (c : Dev nD) :
    W1 (F := Ideal) m ρ c (Proc.devRef .tc main_arg10) = m ((c : Thread nD τ).loc main_arg10) := by
  show StableHlo.after hostOps0 (W0 m ρ c) (Proc.devRef .tc main_arg10) = _
  after_results_simp

theorem W1_main_arg11 (c : Dev nD) :
    W1 (F := Ideal) m ρ c (Proc.devRef .tc main_arg11) = m ((c : Thread nD τ).loc main_arg11) := by
  show StableHlo.after hostOps0 (W0 m ρ c) (Proc.devRef .tc main_arg11) = _
  after_results_simp

end Run

/-- Entry `k` of flattened row 1 is entry `(1, k)` of the index array. -/
theorem rowK_one (x1 : IVec S2x800000 32) (k : Fin 800000) : rowK x1 1 (ix1 k) = x1 (ix2 (1 : Fin 2) k) :=
  (shapeCast_1a_a_apply _ _ k).trans (slice2_axis0_apply 1 x1 _ (0 : Fin 1) k (1 : Fin 2) rfl)

/-- Where every entry is `≥ 0`, moving the negative entries changes nothing. -/
theorem wrapK_of_nonneg (v : IVec S800000 32) (h : ∀ i, IntOp.cmpi .sge (v i) 0#32 = 1#1) : wrapK v = colK v := by
  unfold wrapK
  congr 1
  funext i
  show (if cmpi .slt v (broadcastInDim S800000 ![] bcast_S_S800000 (constantI S_ 32 0#32)) i = 1 then _ else _) = v i
  rw [Cert.PreFacts.not_neg_at v _ i (h i)]
  rfl

/-- With every destination index `≥ 0`, the kernel program's aggregation is the reference's. -/
theorem aggK_eq_ref (x0 : FVec Ideal S50000x128 .f32) (x1 : IVec S2x800000 32)
    (hdst : ∀ e : Fin 800000, IntOp.cmpi .sge (x1 (ix2 (1 : Fin 2) e)) 0#32 = 1#1) :
    aggK x0 x1 = Cert.ReferenceIdeal.Read.val_main_v16 (F := Ideal) x0 x1 := by
  have hrow : ∀ i, IntOp.cmpi .sge (rowK x1 1 i) 0#32 = 1#1 := fun i => by
    have e : rowK x1 1 i = x1 (ix2 (1 : Fin 2) (i 0)) :=
      (congrArg (rowK x1 1) (eq_ix1 (n := 800000) i)).trans (rowK_one x1 (i 0))
    rw [e]; exact hdst _
  unfold aggK
  rw [wrapK_of_nonneg _ hrow,
    Cert.LibScatterInit.scatterAdd_eq_add_zeros _ _ (Cert.ReferenceIdeal.Read.val_main_v11 (F := Ideal))
      (fun i => Cert.Net.ofBits_zero)]
  rfl

/-- The aggregation of an array of real numbers is an array of real numbers. -/
theorem aggK_real (x0 : FVec Ideal S50000x128 .f32) (x1 : IVec S2x800000 32) (h0 : AllReal x0) :
    AllReal (aggK x0 x1) := by
  have h1 : IsReal (Ideal.ofBits .f32 0x3F800000#32) := by rw [Cert.Net.ofBits_one]; exact isReal_one
  exact allReal_scatterAdd _ _ (allReal_mulf (allReal_broadcast_constant _ _ _ _ h1) h0) (allReal_gather _ _ h0)

end Cert.Host0

end
-- ==== Proof.KRun.lean ====
/-
  The idealized kernel's run with every unscoped buffer of every core read at the end: the launch over @main's eight
  segments (four stretches of host operations, four kernel regions) ends with each buffer at the contents the fold
  through the segments gives it (the region-exit arrays at what the write-backs leave, every other buffer as the
  host operations leave it). The frame claim reads only the arguments out of this; a value claim reads the result.
-/
import proofs.«114590_j23673859736036_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the contents the fold through the segments ends with. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result buffer and the twelve arguments at the end of the run. -/
theorem run_result : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v43 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c)⟩)
    (run_all m ρ)

end Cert.KernelIdeal.KRun

end
-- ==== Proof.RefNet.lean ====
/-
  The reference's result is the network of the module Net, built on the deviation form of the variance, of the
  aggregated features.

  The reference computes, after the aggregation, three normalisations: a dense layer, a normalisation and max (·, 0),
  twice, then a third normalisation. Every stage is read at an index from the stages before it: a dense layer's entry
  (r, c) is the sum over k of the input at (r, k) times the transposed weight at (k, c), that is the weight at (c, k),
  plus the bias at c; a column sum starts from the constant 0, so it is the plain sum; a row broadcast over the
  50000 rows reads the row at the column's coordinate. The mean is broadcast twice in each normalisation (once for
  the deviations the variance is made of, once for the deviation that is scaled); both are the same column mean.
  The aggregation itself stays a single unread term throughout.
-/
import proofs.«114590_j23673859736036_2_alg».proof.Proof.Gen.ReferenceIdeal.Read
import proofs.«114590_j23673859736036_2_alg».proof.Proof.Mats

noncomputable section

namespace Cert.RefNet

open Cert.ReferenceIdeal Cert.ReferenceIdeal.Read Cert.Net Idealize.ShloMosaic Idealize.ShloMosaic.ValueIdx
open Idealize.SL.Sem
open scoped BigOperators

/-- The arrays the reference is a function of: a feature matrix, the edge list, a weight matrix, a row. -/
abbrev TM := (⟨S50000x128, .f32⟩ : BufTy).Contents (Elt Ideal)
abbrev TI := (⟨S2x800000, .i32⟩ : BufTy).Contents (Elt Ideal)
abbrev TS := (⟨S128x128, .f32⟩ : BufTy).Contents (Elt Ideal)
abbrev TR := (⟨S128, .f32⟩ : BufTy).Contents (Elt Ideal)

/-! ## Indices are their coordinates -/

/-- An index of a rank-2 array whose coordinates are a and b is the index (a, b). -/
theorem ix2_of {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- An index of a rank-1 array whose coordinate is a is the index a. -/
theorem ix1_of {n : Nat} (j : (⟨1, ![n]⟩ : Shape).Idx) (a : Fin n) (h0 : (j 0).val = a.val) : j = ix1 a := by
  funext d
  match d with
  | ⟨0, _⟩ => exact Fin.ext h0

/-! ## The first layer -/

/-- The first dense layer: the aggregated features times the transposed weight, plus the bias. -/
theorem lin1 (x0 : TM) (x1 : TI) (x2 : TS) (x3 : TR) :
    mat (val_main_v21 (F := Ideal) x0 x1 x2 x3) = lin (mat (val_main_v16 (F := Ideal) x0 x1)) (sqT x2) (row x3) := by
  funext r c
  show val_main_v21 (F := Ideal) x0 x1 x2 x3 (ix2 r c)
    = (∑ k : Fin 128, val_main_v16 (F := Ideal) x0 x1 (ix2 r k) * x2 (ix2 c k)) + x3 (ix1 c)
  rw [val_main_v21_apply]
  show val_main_v18 (F := Ideal) x0 x1 x2 (ix2 r c) + val_main_v20 (F := Ideal) x3 (ix2 r c) = _
  rw [val_main_v18_apply, val_main_v20_apply, val_main_v19_apply]
  refine congrArg₂ (· + ·) (Finset.sum_congr rfl fun k _ => ?_) (congrArg x3 (ix1_of _ _ rfl))
  rw [val_main_v17_apply]
  exact congrArg₂ (· * ·) (congrArg _ (ix2_of _ _ _ rfl rfl)) (congrArg x2 (ix2_of _ _ _ rfl rfl))

/-- The column mean of the first dense layer's result. -/
theorem mean1 (x0 : TM) (x1 : TI) (x2 : TS) (x3 : TR) :
    row (val_main_v24 (F := Ideal) x0 x1 x2 x3) = mean (mat (val_main_v21 (F := Ideal) x0 x1 x2 x3)) := by
  funext c
  show val_main_v24 (F := Ideal) x0 x1 x2 x3 (ix1 c)
    = Ideal.div (∑ r : Fin 50000, val_main_v21 (F := Ideal) x0 x1 x2 x3 (ix2 r c)) cnt
  rw [val_main_v24_apply]
  show Ideal.div (val_main_v22 (F := Ideal) x0 x1 x2 x3 (ix1 c)) (val_main_v23 (F := Ideal) (ix1 c)) = _
  rw [val_main_v22_apply, val_main_v23_apply, val_main_cst_2_apply, val_main_cst_3_apply]
  show Ideal.div (Ideal.ofBits .f32 0x00000000#32 + _) cnt = _
  rw [ofBits_zero, zero_add]
  refine congrArg (Ideal.div · cnt) (Finset.sum_congr rfl fun r _ => ?_)
  exact congrArg _ (ix2_of _ _ _ rfl rfl)

/-- The mean broadcast over the rows, the copy the variance's deviations are taken from. -/
theorem bmean1a (x0 : TM) (x1 : TI) (x2 : TS) (x3 : TR) (r : Fin 50000) (c : Fin 128) :
    val_main_v26 (F := Ideal) x0 x1 x2 x3 (ix2 r c) = mean (mat (val_main_v21 (F := Ideal) x0 x1 x2 x3)) c := by
  rw [← mean1, val_main_v26_apply, val_main_v25_apply]
  exact congrArg _ (ix1_of _ _ rfl)

/-- The mean broadcast over the rows, the copy the scaled deviation is taken from. -/
theorem bmean1b (x0 : TM) (x1 : TI) (x2 : TS) (x3 : TR) (r : Fin 50000) (c : Fin 128) :
    val_main_v33 (F := Ideal) x0 x1 x2 x3 (ix2 r c) = mean (mat (val_main_v21 (F := Ideal) x0 x1 x2 x3)) c := by
  rw [← mean1, val_main_v33_apply, val_main_v32_apply]
  exact congrArg _ (ix1_of _ _ rfl)

/-- The variance of the first dense layer's result: the mean of the squared deviations from the mean. -/
theorem var1 (x0 : TM) (x1 : TI) (x2 : TS) (x3 : TR) :
    row (val_main_v31 (F := Ideal) x0 x1 x2 x3) = varDev (mat (val_main_v21 (F := Ideal) x0 x1 x2 x3)) := by
  funext c
  show val_main_v31 (F := Ideal) x0 x1 x2 x3 (ix1 c)
    = Ideal.div (∑ r : Fin 50000,
        (val_main_v21 (F := Ideal) x0 x1 x2 x3 (ix2 r c) - mean (mat (val_main_v21 (F := Ideal) x0 x1 x2 x3)) c)
        * (val_main_v21 (F := Ideal) x0 x1 x2 x3 (ix2 r c) - mean (mat (val_main_v21 (F := Ideal) x0 x1 x2 x3)) c)) cnt
  rw [val_main_v31_apply]
  show Ideal.div (val_main_v29 (F := Ideal) x0 x1 x2 x3 (ix1 c)) (val_main_v30 (F := Ideal) (ix1 c)) = _
  rw [val_main_v29_apply, val_main_v30_apply, val_main_cst_4_apply, val_main_cst_5_apply]
  show Ideal.div (Ideal.ofBits .f32 0x00000000#32 + _) cnt = _
  rw [ofBits_zero, zero_add]
  refine congrArg (Ideal.div · cnt) (Finset.sum_congr rfl fun r _ => ?_)
  rw [show idx_main_v29 (ix1 c) r = ix2 r c from ix2_of _ _ _ rfl rfl, val_main_v28_apply,
    val_main_v27_apply, bmean1a]
  rfl

/-- The reciprocal square root of the variance plus the offset, broadcast over the rows. -/
theorem rs1 (x0 : TM) (x1 : TI) (x2 : TS) (x3 : TR) (r : Fin 50000) (c : Fin 128) :
    val_main_v39 (F := Ideal) x0 x1 x2 x3 (ix2 r c)
      = Ideal.rsqrt (varDev (mat (val_main_v21 (F := Ideal) x0 x1 x2 x3)) c + eps) := by
  rw [← var1, val_main_v39_apply, val_main_v38_apply,
    show idx_main_v38 (idx_main_v39 (ix2 r c)) = ix1 c from ix1_of _ _ rfl, val_main_v37_apply,
    val_main_v36_apply, val_main_v35_apply, val_main_cst_6_apply]
  rfl

/-- The first normalisation. -/
theorem bn1 (x0 : TM) (x1 : TI) (x2 : TS) (x3 x4 x5 : TR) :
    mat (val_main_v46 (F := Ideal) x0 x1 x2 x3 x4 x5)
      = layer varDev (mat (val_main_v21 (F := Ideal) x0 x1 x2 x3)) (row x4) (row x5) := by
  funext r c
  show val_main_v46 (F := Ideal) x0 x1 x2 x3 x4 x5 (ix2 r c)
    = (val_main_v21 (F := Ideal) x0 x1 x2 x3 (ix2 r c) - mean (mat (val_main_v21 (F := Ideal) x0 x1 x2 x3)) c)
        * Ideal.rsqrt (varDev (mat (val_main_v21 (F := Ideal) x0 x1 x2 x3)) c + eps) * x4 (ix1 c) + x5 (ix1 c)
  rw [val_main_v46_apply, val_main_v43_apply, val_main_v40_apply, val_main_v34_apply, bmean1b, rs1,
    val_main_v42_apply, val_main_v41_apply, val_main_v45_apply, val_main_v44_apply,
    show idx_main_v41 (idx_main_v42 (ix2 r c)) = ix1 c from ix1_of _ _ rfl,
    show idx_main_v44 (idx_main_v45 (ix2 r c)) = ix1 c from ix1_of _ _ rfl]
  rfl

/-- The first layer's output: the normalisation followed by max (·, 0). -/
theorem act1 (x0 : TM) (x1 : TI) (x2 : TS) (x3 x4 x5 : TR) :
    mat (val_main_v47 (F := Ideal) x0 x1 x2 x3 x4 x5)
      = relu (layer varDev (mat (val_main_v21 (F := Ideal) x0 x1 x2 x3)) (row x4) (row x5)) := by
  funext r c
  show val_main_v47 (F := Ideal) x0 x1 x2 x3 x4 x5 (ix2 r c) = max (layer varDev _ (row x4) (row x5) r c) 0
  rw [← bn1, val_main_v47_apply, val_main_call0_v0_apply, val_main_call0_cst_apply]
  show max _ (Ideal.ofBits .f32 0x00000000#32) = _
  rw [ofBits_zero]
  rfl

/-! ## The second layer -/

/-- The second dense layer: the first layer's output times the transposed weight, plus the bias. -/
theorem lin2 (x0 : TM) (x1 : TI) (x2 : TS) (x3 x4 x5 : TR) (x6 : TS) (x7 : TR) :
    mat (val_main_v52 (F := Ideal) x0 x1 x2 x3 x4 x5 x6 x7) = lin (mat (val_main_v47 (F := Ideal) x0 x1 x2 x3 x4 x5)) (sqT x6) (row x7) := by
  funext r c
  show val_main_v52 (F := Ideal) x0 x1 x2 x3 x4 x5 x6 x7 (ix2 r c)
    = (∑ k : Fin 128, val_main_v47 (F := Ideal) x0 x1 x2 x3 x4 x5 (ix2 r k) * x6 (ix2 c k)) + x7 (ix1 c)
  rw [val_main_v52_apply]
  show val_main_v49 (F := Ideal) x0 x1 x2 x3 x4 x5 x6 (ix2 r c) + val_main_v51 (F := Ideal) x7 (ix2 r c) = _
  rw [val_main_v49_apply, val_main_v51_apply, val_main_v50_apply]
  refine congrArg₂ (· + ·) (Finset.sum_congr rfl fun k _ => ?_) (congrArg x7 (ix1_of _ _ rfl))
  rw [val_main_v48_apply]
  exact congrArg₂ (· * ·) (congrArg _ (ix2_of _ _ _ rfl rfl)) (congrArg x6 (ix2_of _ _ _ rfl rfl))

/-- The column mean of the second dense layer's result. -/
theorem mean2 (x0 : TM) (x1 : TI) (x2 : TS) (x3 x4 x5 : TR) (x6 : TS) (x7 : TR) :
    row (val_main_v55 (F := Ideal) x0 x1 x2 x3 x4 x5 x6 x7) = mean (mat (val_main_v52 (F := Ideal) x0 x1 x2 x3 x4 x5 x6 x7)) := by
  funext c
  show val_main_v55 (F := Ideal) x0 x1 x2 x3 x4 x5 x6 x7 (ix1 c)
    = Ideal.div (∑ r : Fin 50000, val_main_v52 (F := Ideal) x0 x1 x2 x3 x4 x5 x6 x7 (ix2 r c)) cnt
  rw [val_main_v55_apply]
  show Ideal.div (val_main_v53 (F := Ideal) x0 x1 x2 x3 x4 x5 x6 x7 (ix1 c)) (val_main_v54 (F := Ideal) (ix1 c)) = _
  rw [val_main_v53_apply, val_main_v54_apply, val_main_cst_7_apply, val_main_cst_8_apply]
  show Ideal.div (Ideal.ofBits .f32 0x00000000#32 + _) cnt = _
  rw [ofBits_zero, zero_add]
  refine congrArg (Ideal.div · cnt) (Finset.sum_congr rfl fun r _ => ?_)
  exact congrArg _ (ix2_of _ _ _ rfl rfl)

/-- The mean broadcast over the rows, the copy the variance's deviations are taken from. -/
theorem bmean2a (x0 : TM) (x1 : TI) (x2 : TS) (x3 x4 x5 : TR) (x6 : TS) (x7 : TR) (r : Fin 50000) (c : Fin 128) :
    val_main_v57 (F := Ideal) x0 x1 x2 x3 x4 x5 x6 x7 (ix2 r c) = mean (mat (val_main_v52 (F := Ideal) x0 x1 x2 x3 x4 x5 x6 x7)) c := by
  rw [← mean2, val_main_v57_apply, val_main_v56_apply]
  exact congrArg _ (ix1_of _ _ rfl)

/-- The mean broadcast over the rows, the copy the scaled deviation is taken from. -/
theorem bmean2b (x0 : TM) (x1 : TI) (x2 : TS) (x3 x4 x5 : TR) (x6 : TS) (x7 : TR) (r : Fin 50000) (c : Fin 128) :
    val_main_v64 (F := Ideal) x0 x1 x2 x3 x4 x5 x6 x7 (ix2 r c) = mean (mat (val_main_v52 (F := Ideal) x0 x1 x2 x3 x4 x5 x6 x7)) c := by
  rw [← mean2, val_main_v64_apply, val_main_v63_apply]
  exact congrArg _ (ix1_of _ _ rfl)

/-- The variance of the second dense layer's result: the mean of the squared deviations from the mean. -/
theorem var2 (x0 : TM) (x1 : TI) (x2 : TS) (x3 x4 x5 : TR) (x6 : TS) (x7 : TR) :
    row (val_main_v62 (F := Ideal) x0 x1 x2 x3 x4 x5 x6 x7) = varDev (mat (val_main_v52 (F := Ideal) x0 x1 x2 x3 x4 x5 x6 x7)) := by
  funext c
  show val_main_v62 (F := Ideal) x0 x1 x2 x3 x4 x5 x6 x7 (ix1 c)
    = Ideal.div (∑ r : Fin 50000,
        (val_main_v52 (F := Ideal) x0 x1 x2 x3 x4 x5 x6 x7 (ix2 r c) - mean (mat (val_main_v52 (F := Ideal) x0 x1 x2 x3 x4 x5 x6 x7)) c)
        * (val_main_v52 (F := Ideal) x0 x1 x2 x3 x4 x5 x6 x7 (ix2 r c) - mean (mat (val_main_v52 (F := Ideal) x0 x1 x2 x3 x4 x5 x6 x7)) c)) cnt
  rw [val_main_v62_apply]
  show Ideal.div (val_main_v60 (F := Ideal) x0 x1 x2 x3 x4 x5 x6 x7 (ix1 c)) (val_main_v61 (F := Ideal) (ix1 c)) = _
  rw [val_main_v60_apply, val_main_v61_apply, val_main_cst_9_apply, val_main_cst_10_apply]
  show Ideal.div (Ideal.ofBits .f32 0x00000000#32 + _) cnt = _
  rw [ofBits_zero, zero_add]
  refine congrArg (Ideal.div · cnt) (Finset.sum_congr rfl fun r _ => ?_)
  rw [show idx_main_v60 (ix1 c) r = ix2 r c from ix2_of _ _ _ rfl rfl, val_main_v59_apply,
    val_main_v58_apply, bmean2a]
  rfl

/-- The reciprocal square root of the variance plus the offset, broadcast over the rows. -/
theorem rs2 (x0 : TM) (x1 : TI) (x2 : TS) (x3 x4 x5 : TR) (x6 : TS) (x7 : TR) (r : Fin 50000) (c : Fin 128) :
    val_main_v70 (F := Ideal) x0 x1 x2 x3 x4 x5 x6 x7 (ix2 r c)
      = Ideal.rsqrt (varDev (mat (val_main_v52 (F := Ideal) x0 x1 x2 x3 x4 x5 x6 x7)) c + eps) := by
  rw [← var2, val_main_v70_apply, val_main_v69_apply,
    show idx_main_v69 (idx_main_v70 (ix2 r c)) = ix1 c from ix1_of _ _ rfl, val_main_v68_apply,
    val_main_v67_apply, val_main_v66_apply, val_main_cst_11_apply]
  rfl

/-- The second normalisation. -/
theorem bn2 (x0 : TM) (x1 : TI) (x2 : TS) (x3 x4 x5 : TR) (x6 : TS) (x7 x8 x9 : TR) :
    mat (val_main_v77 (F := Ideal) x0 x1 x2 x3 x4 x5 x6 x7 x8 x9)
      = layer varDev (mat (val_main_v52 (F := Ideal) x0 x1 x2 x3 x4 x5 x6 x7)) (row x8) (row x9) := by
  funext r c
  show val_main_v77 (F := Ideal) x0 x1 x2 x3 x4 x5 x6 x7 x8 x9 (ix2 r c)
    = (val_main_v52 (F := Ideal) x0 x1 x2 x3 x4 x5 x6 x7 (ix2 r c) - mean (mat (val_main_v52 (F := Ideal) x0 x1 x2 x3 x4 x5 x6 x7)) c)
        * Ideal.rsqrt (varDev (mat (val_main_v52 (F := Ideal) x0 x1 x2 x3 x4 x5 x6 x7)) c + eps) * x8 (ix1 c) + x9 (ix1 c)
  rw [val_main_v77_apply, val_main_v74_apply, val_main_v71_apply, val_main_v65_apply, bmean2b, rs2,
    val_main_v73_apply, val_main_v72_apply, val_main_v76_apply, val_main_v75_apply,
    show idx_main_v72 (idx_main_v73 (ix2 r c)) = ix1 c from ix1_of _ _ rfl,
    show idx_main_v75 (idx_main_v76 (ix2 r c)) = ix1 c from ix1_of _ _ rfl]
  rfl

/-- The second layer's output: the normalisation followed by max (·, 0). -/
theorem act2 (x0 : TM) (x1 : TI) (x2 : TS) (x3 x4 x5 : TR) (x6 : TS) (x7 x8 x9 : TR) :
    mat (val_main_v78 (F := Ideal) x0 x1 x2 x3 x4 x5 x6 x7 x8 x9)
      = relu (layer varDev (mat (val_main_v52 (F := Ideal) x0 x1 x2 x3 x4 x5 x6 x7)) (row x8) (row x9)) := by
  funext r c
  show val_main_v78 (F := Ideal) x0 x1 x2 x3 x4 x5 x6 x7 x8 x9 (ix2 r c) = max (layer varDev _ (row x8) (row x9) r c) 0
  rw [← bn2, val_main_v78_apply, val_main_call1_v0_apply, val_main_call1_cst_apply]
  show max _ (Ideal.ofBits .f32 0x00000000#32) = _
  rw [ofBits_zero]
  rfl

/-! ## The third normalisation -/

/-- The column mean of the second layer's output. -/
theorem mean3 (x0 : TM) (x1 : TI) (x2 : TS) (x3 x4 x5 : TR) (x6 : TS) (x7 x8 x9 : TR) :
    row (val_main_v81 (F := Ideal) x0 x1 x2 x3 x4 x5 x6 x7 x8 x9) = mean (mat (val_main_v78 (F := Ideal) x0 x1 x2 x3 x4 x5 x6 x7 x8 x9)) := by
  funext c
  show val_main_v81 (F := Ideal) x0 x1 x2 x3 x4 x5 x6 x7 x8 x9 (ix1 c)
    = Ideal.div (∑ r : Fin 50000, val_main_v78 (F := Ideal) x0 x1 x2 x3 x4 x5 x6 x7 x8 x9 (ix2 r c)) cnt
  rw [val_main_v81_apply]
  show Ideal.div (val_main_v79 (F := Ideal) x0 x1 x2 x3 x4 x5 x6 x7 x8 x9 (ix1 c)) (val_main_v80 (F := Ideal) (ix1 c)) = _
  rw [val_main_v79_apply, val_main_v80_apply, val_main_cst_12_apply, val_main_cst_13_apply]
  show Ideal.div (Ideal.ofBits .f32 0x00000000#32 + _) cnt = _
  rw [ofBits_zero, zero_add]
  refine congrArg (Ideal.div · cnt) (Finset.sum_congr rfl fun r _ => ?_)
  exact congrArg _ (ix2_of _ _ _ rfl rfl)

/-- The mean broadcast over the rows, the copy the variance's deviations are taken from. -/
theorem bmean3a (x0 : TM) (x1 : TI) (x2 : TS) (x3 x4 x5 : TR) (x6 : TS) (x7 x8 x9 : TR) (r : Fin 50000) (c : Fin 128) :
    val_main_v83 (F := Ideal) x0 x1 x2 x3 x4 x5 x6 x7 x8 x9 (ix2 r c) = mean (mat (val_main_v78 (F := Ideal) x0 x1 x2 x3 x4 x5 x6 x7 x8 x9)) c := by
  rw [← mean3, val_main_v83_apply, val_main_v82_apply]
  exact congrArg _ (ix1_of _ _ rfl)

/-- The mean broadcast over the rows, the copy the scaled deviation is taken from. -/
theorem bmean3b (x0 : TM) (x1 : TI) (x2 : TS) (x3 x4 x5 : TR) (x6 : TS) (x7 x8 x9 : TR) (r : Fin 50000) (c : Fin 128) :
    val_main_v90 (F := Ideal) x0 x1 x2 x3 x4 x5 x6 x7 x8 x9 (ix2 r c) = mean (mat (val_main_v78 (F := Ideal) x0 x1 x2 x3 x4 x5 x6 x7 x8 x9)) c := by
  rw [← mean3, val_main_v90_apply, val_main_v89_apply]
  exact congrArg _ (ix1_of _ _ rfl)

/-- The variance of the second layer's output: the mean of the squared deviations from the mean. -/
theorem var3 (x0 : TM) (x1 : TI) (x2 : TS) (x3 x4 x5 : TR) (x6 : TS) (x7 x8 x9 : TR) :
    row (val_main_v88 (F := Ideal) x0 x1 x2 x3 x4 x5 x6 x7 x8 x9) = varDev (mat (val_main_v78 (F := Ideal) x0 x1 x2 x3 x4 x5 x6 x7 x8 x9)) := by
  funext c
  show val_main_v88 (F := Ideal) x0 x1 x2 x3 x4 x5 x6 x7 x8 x9 (ix1 c)
    = Ideal.div (∑ r : Fin 50000,
        (val_main_v78 (F := Ideal) x0 x1 x2 x3 x4 x5 x6 x7 x8 x9 (ix2 r c) - mean (mat (val_main_v78 (F := Ideal) x0 x1 x2 x3 x4 x5 x6 x7 x8 x9)) c)
        * (val_main_v78 (F := Ideal) x0 x1 x2 x3 x4 x5 x6 x7 x8 x9 (ix2 r c) - mean (mat (val_main_v78 (F := Ideal) x0 x1 x2 x3 x4 x5 x6 x7 x8 x9)) c)) cnt
  rw [val_main_v88_apply]
  show Ideal.div (val_main_v86 (F := Ideal) x0 x1 x2 x3 x4 x5 x6 x7 x8 x9 (ix1 c)) (val_main_v87 (F := Ideal) (ix1 c)) = _
  rw [val_main_v86_apply, val_main_v87_apply, val_main_cst_14_apply, val_main_cst_15_apply]
  show Ideal.div (Ideal.ofBits .f32 0x00000000#32 + _) cnt = _
  rw [ofBits_zero, zero_add]
  refine congrArg (Ideal.div · cnt) (Finset.sum_congr rfl fun r _ => ?_)
  rw [show idx_main_v86 (ix1 c) r = ix2 r c from ix2_of _ _ _ rfl rfl, val_main_v85_apply,
    val_main_v84_apply, bmean3a]
  rfl

/-- The reciprocal square root of the variance plus the offset, broadcast over the rows. -/
theorem rs3 (x0 : TM) (x1 : TI) (x2 : TS) (x3 x4 x5 : TR) (x6 : TS) (x7 x8 x9 : TR) (r : Fin 50000) (c : Fin 128) :
    val_main_v96 (F := Ideal) x0 x1 x2 x3 x4 x5 x6 x7 x8 x9 (ix2 r c)
      = Ideal.rsqrt (varDev (mat (val_main_v78 (F := Ideal) x0 x1 x2 x3 x4 x5 x6 x7 x8 x9)) c + eps) := by
  rw [← var3, val_main_v96_apply, val_main_v95_apply,
    show idx_main_v95 (idx_main_v96 (ix2 r c)) = ix1 c from ix1_of _ _ rfl, val_main_v94_apply,
    val_main_v93_apply, val_main_v92_apply, val_main_cst_16_apply]
  rfl

/-- The third normalisation. -/
theorem bn3 (x0 : TM) (x1 : TI) (x2 : TS) (x3 x4 x5 : TR) (x6 : TS) (x7 x8 x9 x10 x11 : TR) :
    mat (val_main_v103 (F := Ideal) x0 x1 x2 x3 x4 x5 x6 x7 x8 x9 x10 x11)
      = layer varDev (mat (val_main_v78 (F := Ideal) x0 x1 x2 x3 x4 x5 x6 x7 x8 x9)) (row x10) (row x11) := by
  funext r c
  show val_main_v103 (F := Ideal) x0 x1 x2 x3 x4 x5 x6 x7 x8 x9 x10 x11 (ix2 r c)
    = (val_main_v78 (F := Ideal) x0 x1 x2 x3 x4 x5 x6 x7 x8 x9 (ix2 r c) - mean (mat (val_main_v78 (F := Ideal) x0 x1 x2 x3 x4 x5 x6 x7 x8 x9)) c)
        * Ideal.rsqrt (varDev (mat (val_main_v78 (F := Ideal) x0 x1 x2 x3 x4 x5 x6 x7 x8 x9)) c + eps) * x10 (ix1 c) + x11 (ix1 c)
  rw [val_main_v103_apply, val_main_v100_apply, val_main_v97_apply, val_main_v91_apply, bmean3b, rs3,
    val_main_v99_apply, val_main_v98_apply, val_main_v102_apply, val_main_v101_apply,
    show idx_main_v98 (idx_main_v99 (ix2 r c)) = ix1 c from ix1_of _ _ rfl,
    show idx_main_v101 (idx_main_v102 (ix2 r c)) = ix1 c from ix1_of _ _ rfl]
  rfl

/-! ## The whole reference -/

/-- The reference's result, as a matrix, is the network on the deviation form of the variance. -/
theorem ref_mat (x0 : TM) (x1 : TI) (x2 : TS) (x3 x4 x5 : TR) (x6 : TS) (x7 x8 x9 x10 x11 : TR) :
    mat (val_main_v103 (F := Ideal) x0 x1 x2 x3 x4 x5 x6 x7 x8 x9 x10 x11)
      = net varDev (mat (val_main_v16 (F := Ideal) x0 x1)) (sqT x2) (row x3) (row x4) (row x5) (sqT x6) (row x7) (row x8)
          (row x9) (row x10) (row x11) := by
  rw [bn3, act2, lin2, act1, lin1]
  rfl

/-- The reference's result is the network of the aggregated features, the variance in its deviation form. -/
theorem ref_value (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 x4 x5 : (⟨S128, .f32⟩ : BufTy).Contents (Elt Ideal))
    (x6 : (⟨S128x128, .f32⟩ : BufTy).Contents (Elt Ideal)) (x7 x8 x9 x10 x11 : (⟨S128, .f32⟩ : BufTy).Contents (Elt Ideal)) :
    val_main_v103 (F := Ideal) x0 x1 x2 x3 x4 x5 x6 x7 x8 x9 x10 x11
      = unmat (net varDev (mat (val_main_v16 (F := Ideal) x0 x1)) (sqT x2) (row x3) (row x4) (row x5) (sqT x6) (row x7)
          (row x8) (row x9) (row x10) (row x11)) :=
  (unmat_mat _).symm.trans (congrArg unmat (ref_mat x0 x1 x2 x3 x4 x5 x6 x7 x8 x9 x10 x11))

end Cert.RefNet

end
-- ==== Proof.Pieces0.lean ====
/-
  What the first kernel's body leaves in its three output buffers, read back as values. At the first grid point the two
  running vectors are reset to zero and then gain the point's column sums; at every later point they gain the point's
  column sums over what the point before left. The stored block of rows is the same function of the point's input
  blocks in both cases. Each buffer is written by stores through its whole rectangle, so reading the covering
  stores back gives the last store's value, whose loads read the whole input buffers (and, at the first point, the
  zero just stored).
-/
import proofs.«114590_j23673859736036_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem Idealize.ShloMosaic.ValueIdx
open scoped BigOperators

open Idealize.ShloMosaic.Tactic

namespace Cert.KernelIdeal.Pieces0

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- First point: the stored rows. -/
theorem rows_A (c : Dev nD) (i : grid0.Coords) (a1 : Memref sig .tc .vmem S5000x128 .f32) (h1 : a1.IsWhole) (a2 : Memref sig .tc .vmem S128x128 .f32) (h2 : a2.IsWhole) (a3 : Memref sig .tc .vmem S128 .f32) (h3 : a3.IsWhole) (a4 : Memref sig .tc .vmem S5000x128 .f32) (h4 : a4.IsWhole) (a5 : Memref sig .tc .vmem S128 .f32) (h5 : a5.IsWhole) (a6 : Memref sig .tc .vmem S128 .f32) (h6 : a6.IsWhole) (hc : cond0_0 i) (x0 : Vec F S5000x128 .f32) (x1 : Vec F S128x128 .f32) (x2 : Vec F S128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz2]
  simp only [View.readAt_eq_ld, h1.read_unread, h2.read_unread, h3.read_unread, h5.read_unread, h6.read_unread, View.ld_unit_zero (S := S5000x128) hz2, View.ld_unit_zero (S := S128x128) hz2, View.ld_unit_zero (S := S128) hz1]

/-- Later points: the stored rows. -/
theorem rows_B (c : Dev nD) (i : grid0.Coords) (a1 : Memref sig .tc .vmem S5000x128 .f32) (h1 : a1.IsWhole) (a2 : Memref sig .tc .vmem S128x128 .f32) (h2 : a2.IsWhole) (a3 : Memref sig .tc .vmem S128 .f32) (h3 : a3.IsWhole) (a4 : Memref sig .tc .vmem S5000x128 .f32) (h4 : a4.IsWhole) (a5 : Memref sig .tc .vmem S128 .f32) (h5 : a5.IsWhole) (a6 : Memref sig .tc .vmem S128 .f32) (h6 : a6.IsWhole) (hc : ¬cond0_0 i) (x0 : Vec F S5000x128 .f32) (x1 : Vec F S128x128 .f32) (x2 : Vec F S128 .f32) (xo4 xo5 : Vec F S128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  sl_unfold_words
  rw [View.canon_unit_zero hz2]
  simp only [View.readAt_eq_ld, h1.read_unread, h2.read_unread, h3.read_unread, h5.read_unread, h6.read_unread, View.ld_unit_zero (S := S5000x128) hz2, View.ld_unit_zero (S := S128x128) hz2, View.ld_unit_zero (S := S128) hz1]

/-- First point: the running sum, from the zero just stored. -/
theorem sum_A (c : Dev nD) (i : grid0.Coords) (a1 : Memref sig .tc .vmem S5000x128 .f32) (h1 : a1.IsWhole) (a2 : Memref sig .tc .vmem S128x128 .f32) (h2 : a2.IsWhole) (a3 : Memref sig .tc .vmem S128 .f32) (h3 : a3.IsWhole) (a4 : Memref sig .tc .vmem S5000x128 .f32) (h4 : a4.IsWhole) (a5 : Memref sig .tc .vmem S128 .f32) (h5 : a5.IsWhole) (a6 : Memref sig .tc .vmem S128 .f32) (h6 : a6.IsWhole) (hc : cond0_0 i) (x0 : Vec F S5000x128 .f32) (x1 : Vec F S128x128 .f32) (x2 : Vec F S128 .f32) :
    out0_A_4 c i a1 h1 a2 h2 a3 h3 a4 h4 a5 h5 a6 h6 hc x0 x1 x2 = k0_pay4 x0 x1 x2 k0_pay1 := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S128) hz1, View.readCov_unit_zero (S := S128) _ hz1]
  simp only [View.readAt_eq_ld, h1.read_unread, h2.read_unread, h3.read_unread, h5.read_unread, h6.read_unread, View.ld_unit_zero (S := S5000x128) hz2, View.ld_unit_zero (S := S128x128) hz2, View.ld_unit_zero (S := S128) hz1]

/-- Later points: the running sum, from what the point before left. -/
theorem sum_B (c : Dev nD) (i : grid0.Coords) (a1 : Memref sig .tc .vmem S5000x128 .f32) (h1 : a1.IsWhole) (a2 : Memref sig .tc .vmem S128x128 .f32) (h2 : a2.IsWhole) (a3 : Memref sig .tc .vmem S128 .f32) (h3 : a3.IsWhole) (a4 : Memref sig .tc .vmem S5000x128 .f32) (h4 : a4.IsWhole) (a5 : Memref sig .tc .vmem S128 .f32) (h5 : a5.IsWhole) (a6 : Memref sig .tc .vmem S128 .f32) (h6 : a6.IsWhole) (hc : ¬cond0_0 i) (x0 : Vec F S5000x128 .f32) (x1 : Vec F S128x128 .f32) (x2 : Vec F S128 .f32) (xo4 xo5 : Vec F S128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  sl_unfold_words
  rw [View.canon_unit_zero hz1]
  simp only [View.readAt_eq_ld, h1.read_unread, h2.read_unread, h3.read_unread, h5.read_unread, h6.read_unread, View.ld_unit_zero (S := S5000x128) hz2, View.ld_unit_zero (S := S128x128) hz2, View.ld_unit_zero (S := S128) hz1]

/-- First point: the running sum of squares, from the zero just stored. -/
theorem sumsq_A (c : Dev nD) (i : grid0.Coords) (a1 : Memref sig .tc .vmem S5000x128 .f32) (h1 : a1.IsWhole) (a2 : Memref sig .tc .vmem S128x128 .f32) (h2 : a2.IsWhole) (a3 : Memref sig .tc .vmem S128 .f32) (h3 : a3.IsWhole) (a4 : Memref sig .tc .vmem S5000x128 .f32) (h4 : a4.IsWhole) (a5 : Memref sig .tc .vmem S128 .f32) (h5 : a5.IsWhole) (a6 : Memref sig .tc .vmem S128 .f32) (h6 : a6.IsWhole) (hc : cond0_0 i) (x0 : Vec F S5000x128 .f32) (x1 : Vec F S128x128 .f32) (x2 : Vec F S128 .f32) :
    out0_A_5 c i a1 h1 a2 h2 a3 h3 a4 h4 a5 h5 a6 h6 hc x0 x1 x2 = k0_pay5 x0 x1 x2 k0_pay2 := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S128) hz1, View.readCov_unit_zero (S := S128) _ hz1]
  simp only [View.readAt_eq_ld, h1.read_unread, h2.read_unread, h3.read_unread, h5.read_unread, h6.read_unread, View.ld_unit_zero (S := S5000x128) hz2, View.ld_unit_zero (S := S128x128) hz2, View.ld_unit_zero (S := S128) hz1]

/-- Later points: the running sum of squares, from what the point before left. -/
theorem sumsq_B (c : Dev nD) (i : grid0.Coords) (a1 : Memref sig .tc .vmem S5000x128 .f32) (h1 : a1.IsWhole) (a2 : Memref sig .tc .vmem S128x128 .f32) (h2 : a2.IsWhole) (a3 : Memref sig .tc .vmem S128 .f32) (h3 : a3.IsWhole) (a4 : Memref sig .tc .vmem S5000x128 .f32) (h4 : a4.IsWhole) (a5 : Memref sig .tc .vmem S128 .f32) (h5 : a5.IsWhole) (a6 : Memref sig .tc .vmem S128 .f32) (h6 : a6.IsWhole) (hc : ¬cond0_0 i) (x0 : Vec F S5000x128 .f32) (x1 : Vec F S128x128 .f32) (x2 : Vec F S128 .f32) (xo4 xo5 : Vec F S128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  sl_unfold_words
  rw [View.canon_unit_zero hz1]
  simp only [View.readAt_eq_ld, h1.read_unread, h2.read_unread, h3.read_unread, h5.read_unread, h6.read_unread, View.ld_unit_zero (S := S5000x128) hz2, View.ld_unit_zero (S := S128x128) hz2, View.ld_unit_zero (S := S128) hz1]

end Cert.KernelIdeal.Pieces0

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibColReduce.lean ====
/-
  A reduction over the FIRST axis of a matrix, read at a coordinate.

  A matrix `[a, b]` summed over its row axis gives, at column `c`, the sum over `r : Fin a` of the entry `(r, c)`:
  the library states the sum over the reduced index with the coordinate re-inserted; here the re-inserted index is
  written by its coordinates. (The companion of the last-axis forms.) Library imports only.
-/
import Idealize.ShloMosaic.PureOps.Ideal.Laws
import Idealize.ShloMosaic.Lib.ValueIdx

noncomputable section

namespace Cert.LibColReduce

open Idealize.ShloMosaic Idealize.ShloMosaic.ValueIdx

variable {φ : FTy}

/-- Column `c` with row `r` put back is the entry `(r, c)`. -/
theorem lift_col {a b : ℕ} (h : (⟨2, ![a, b]⟩ : Shape).Reduces [0] ⟨1, ![b]⟩) (c : Fin b) (r : Fin a) :
    h.lift (ix1 c) r = ix2 r c := by
  funext d; apply Fin.ext
  fin_cases d <;> rfl

/-- A sum of a matrix down its rows, at column `c`: the sum of the column's entries. -/
theorem multiReduction_add_col {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) :=
  (Ideal.multiReduction_add_single src acc h hφ hacc (ix1 c)).trans
    (Finset.sum_congr rfl fun r _ => congrArg src (lift_col h c r))

end Cert.LibColReduce

end
-- ==== Proof.LibRowwise.lean ====
/-
  Row-wise readings of a matrix `[n, c]`, at an entry given by its two coordinates.

  A row vector `[c]` laid under every row of an `[n, c]` matrix (cast to `[1, c]`, then broadcast down the rows) reads, at
  `(p, j)`, its entry `j`; a column `[n]` laid beside every column (cast to `[n, 1]`, then broadcast along the rows) reads,
  at `(p, j)`, its entry `p`; column `o` of an `[n, b]` matrix cut out as `[n, 1]` and broadcast along the rows reads, at
  `(p, j)`, the entry `(p, o)`. The host's reduce of an `[a, b]` matrix over its second axis by a commutative,
  associative body is, at row `r`, the fold of the body from the initial value over the entries `(r, k)`; its float sum
  is the initial value plus the row's sum.
  Library imports only.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowwise

open Idealize.ShloMosaic Idealize.ShloMosaic.ValueIdx
open scoped BigOperators

variable {α : Type}

/-- A `[c]` array cast to `[1, c]` and broadcast down `n` rows reads, at `(p, j)`, the operand at `j`. -/
theorem rowUnder_apply {n c : ℕ} (b : (⟨1, ![c]⟩ : Shape).Idx → α) (hc : (⟨1, ![c]⟩ : Shape).ShapeCasts ⟨2, ![1, c]⟩)
    (hb : (⟨2, ![1, c]⟩ : Shape).Broadcasts ⟨2, ![n, c]⟩) (p : Fin n) (j : Fin c) :
    broadcastTo ⟨2, ![n, c]⟩ (shapeCast ⟨2, ![1, c]⟩ b hc) hb (ix2 p j) = b (ix1 j) := by
  refine (broadcastTo_apply (shapeCast ⟨2, ![1, c]⟩ b hc) hb (ix2 p j) (ix2 (0 : Fin 1) j) fun ax => ?_).trans ?_
  · match ax with
    | ⟨0, _⟩ => rfl
    | ⟨1, _⟩ =>
      show j.val = if c = 1 then 0 else j.val
      split
      · have := j.isLt; omega
      · rfl
  · exact shapeCast_apply b hc _ _ (by
      rw [Shape.rowMajor_val_two, Shape.rowMajor_val_one]
      show j.val = 0 * c + j.val
      omega)

/-- An `[n]` array cast to `[n, 1]` and broadcast along `c` columns reads, at `(p, j)`, the operand at `p`. -/
theorem columnBeside_apply {n c : ℕ} (v : (⟨1, ![n]⟩ : Shape).Idx → α) (hc : (⟨1, ![n]⟩ : Shape).ShapeCasts ⟨2, ![n, 1]⟩)
    (hb : (⟨2, ![n, 1]⟩ : Shape).Broadcasts ⟨2, ![n, c]⟩) (p : Fin n) (j : Fin c) :
    broadcastTo ⟨2, ![n, c]⟩ (shapeCast ⟨2, ![n, 1]⟩ v hc) hb (ix2 p j) = v (ix1 p) := by
  refine (broadcastTo_apply (shapeCast ⟨2, ![n, 1]⟩ v hc) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact shapeCast_apply v hc _ _ (by
      rw [Shape.rowMajor_val_two, Shape.rowMajor_val_one]
      show p.val = p.val * 1 + 0
      omega)

/-- Column `o` of an `[n, b]` matrix, cut out as `[n, 1]` and broadcast along `c` columns, reads at `(p, j)` the entry
    `(p, o)`. -/
theorem columnOf_apply {n b c : ℕ} (g : (⟨2, ![n, b]⟩ : Shape).Idx → α) (o : ℕ) (ho : o < b)
    (hs : (⟨2, ![n, b]⟩ : Shape).Slices ![0, o] ⟨2, ![n, 1]⟩)
    (hb : (⟨2, ![n, 1]⟩ : Shape).Broadcasts ⟨2, ![n, c]⟩) (p : Fin n) (j : Fin c) :
    broadcastTo ⟨2, ![n, c]⟩ (extractStridedSlice ⟨2, ![n, 1]⟩ ![0, o] g hs) hb (ix2 p j) = g (ix2 p (⟨o, ho⟩ : Fin b)) := by
  refine (broadcastTo_apply (extractStridedSlice ⟨2, ![n, 1]⟩ ![0, o] g hs) hb (ix2 p j) (ix2 p (0 : Fin 1)) fun ax => ?_).trans ?_
  · match ax with
    | ⟨0, _⟩ =>
      show p.val = if n = 1 then 0 else p.val
      split
      · have := p.isLt; omega
      · rfl
    | ⟨1, _⟩ => rfl
  · exact extractStridedSlice_apply ![0, o] g hs (ix2 p (0 : Fin 1)) (ix2 p (⟨o, ho⟩ : Fin b)) fun ax => by
      match ax with
      | ⟨0, _⟩ => show p.val = 0 + p.val; omega
      | ⟨1, _⟩ => show o = o + 0; omega

/-- Row `r` with the second coordinate `k` put back is the entry `(r, k)`. -/
theorem lift_second {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- The host's reduce of a matrix over its second axis by a commutative, associative body, at row `r`: the fold from the
    initial value over the row's entries. -/
theorem hostReduce_row {a b : ℕ} {u : Shape} (f : α → α → α) [Std.Commutative f] [Std.Associative f]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce f x init h' hu (ix1 r)
      = (Finset.univ : Finset (Fin b)).fold f (init (Shape.Idx.first hu)) fun k => x (ix2 r k) :=
  (Host.reduce_eq_fold_single f x init h' h hu (ix1 r)).trans
    (congrArg (fun g => Finset.fold f (init (Shape.Idx.first hu)) g (Finset.univ : Finset (Fin b)))
      (funext fun k => congrArg x (lift_second h r k)))

end Cert.LibRowwise

end
-- ==== Proof.Pay0.lean ====
/-
  The first kernel's arithmetic at an index. A point of its grid holds 5000 rows x of the aggregated features, the
  transposed weights w and the bias b, and stores the rows y = x · w + b of the dense layer: entry (q, c) is the sum
  over k of x (q, k) · w (k, c), plus b c (the change of float format on the way into the matrix unit is the identity on
  the extended reals, the accumulator starts at zero, the bias row is laid under every row). Its two running vectors
  gain, per column c, the sum over the 5000 rows of y (q, c) and of y (q, c)².
-/
import proofs.«114590_j23673859736036_2_alg».proof.Proof.Gen.KernelIdeal.Skeleton
import proofs.«114590_j23673859736036_2_alg».proof.Proof.LibDot
import proofs.«114590_j23673859736036_2_alg».proof.Proof.LibColReduce
import proofs.«114590_j23673859736036_2_alg».proof.Proof.LibRowwise
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.KernelIdeal.Pay0

open Cert.KernelIdeal Cert.KernelIdeal.Gen

/-- The stored block: rows of x · w + b. -/
theorem rows_apply (x : Vec Ideal S5000x128 .f32) (w : Vec Ideal S128x128 .f32) (b : Vec Ideal S128 .f32)
    (q : Fin 5000) (c : Fin 128) :
    k0_pay3 (F := Ideal) x w b (ix2 q c) = (∑ k : Fin 128, x (ix2 q k) * w (ix2 k c)) + b (ix1 c) := by
  unfold k0_pay3
  refine (addf_apply _ _ (ix2 q c)).trans ?_
  refine congrArg₂ (· + ·) ?_ ?_
  · refine (Cert.LibDot.matmul_zero_apply dot_S5000x128_S128x128_S5000x128_1_0_0_1_n_n rfl rfl
      (fun _ _ => rfl) (fun _ _ => rfl) (fun _ _ => rfl) (fun _ _ => rfl) none _ _ q c).trans ?_
    simp only [shapeCast_self]
    rfl
  · exact Cert.LibRowwise.rowUnder_apply b shapeCasts_S128_S1x128 broadcasts_S1x128_S5000x128 q c

/-- The zero the running vectors are reset to. -/
theorem reset1_apply (c : Fin 128) : k0_pay1 (F := Ideal) (ix1 c) = 0 := Ideal.ofBits_zero_f32
theorem reset2_apply (c : Fin 128) : k0_pay2 (F := Ideal) (ix1 c) = 0 := Ideal.ofBits_zero_f32

/-- The running sum gains the column sums of the stored block. -/
theorem sum_apply (x : Vec Ideal S5000x128 .f32) (w : Vec Ideal S128x128 .f32) (b : Vec Ideal S128 .f32)
    (acc : Vec Ideal S128 .f32) (c : Fin 128) :
    k0_pay4 (F := Ideal) x w b acc (ix1 c) = acc (ix1 c) + ∑ q : Fin 5000, k0_pay3 (F := Ideal) x w b (ix2 q c) := by
  unfold k0_pay4
  refine (addf_apply _ _ (ix1 c)).trans ?_
  refine congrArg₂ (· + ·) ?_ ?_
  · rw [shapeCast_self]
  · exact Cert.LibColReduce.multiReduction_add_col (k0_pay3 (F := Ideal) x w b) _ reduces_S5000x128_S128 _ _ c

/-- The running sum of squares gains the column sums of the squares of the stored block. -/
theorem sumsq_apply (x : Vec Ideal S5000x128 .f32) (w : Vec Ideal S128x128 .f32) (b : Vec Ideal S128 .f32)
    (acc : Vec Ideal S128 .f32) (c : Fin 128) :
    k0_pay5 (F := Ideal) x w b acc (ix1 c)
      = acc (ix1 c) + ∑ q : Fin 5000, k0_pay3 (F := Ideal) x w b (ix2 q c) * k0_pay3 (F := Ideal) x w b (ix2 q c) := by
  unfold k0_pay5
  refine (addf_apply _ _ (ix1 c)).trans ?_
  refine congrArg₂ (· + ·) ?_ ?_
  · rw [shapeCast_self]
  · exact Cert.LibColReduce.multiReduction_add_col (mulf (k0_pay3 (F := Ideal) x w b) (k0_pay3 (F := Ideal) x w b)) _
      reduces_S5000x128_S128 _ _ c

end Cert.KernelIdeal.Pay0

end
-- ==== Proof.LibAccSum.lean ====
/-
  Partial sums over the first rows of a column, taken block by block.

  A family indexed by Fin N is extended by zero to all naturals; the sum of the extension over range N is the sum of
  the family. For any function on the naturals the sum over the first a + T naturals is the sum over the first a plus
  the T entries that follow. This is the arithmetic of an accumulator that adds one block of T rows at each step.
-/
import Mathlib.Algebra.BigOperators.Fin
import Mathlib.Algebra.BigOperators.Intervals
import Mathlib.Tactic

namespace Cert.AccSum

open scoped BigOperators
open Finset

variable {M : Type*} [AddCommMonoid M] {N : ℕ}

/-- The family extended by zero beyond its index range. -/
def ext0 (f : Fin N → M) (j : ℕ) : M := if h : j < N then f ⟨j, h⟩ else 0

theorem ext0_of_lt (f : Fin N → M) {j : ℕ} (h : j < N) : ext0 f j = f ⟨j, h⟩ := dif_pos h

/-- Over the whole range the extension sums to the family's sum. -/
theorem sum_ext0 (f : Fin N → M) : ∑ j ∈ range N, ext0 f j = ∑ r : Fin N, f r := by
  rw [Finset.sum_range]
  exact Finset.sum_congr rfl fun r _ => ext0_of_lt f r.isLt

/-- One more block of T entries after the first a. -/
theorem sum_range_add_block (g : ℕ → M) (a T : ℕ) :
    ∑ j ∈ range (a + T), g j = ∑ j ∈ range a, g j + ∑ q : Fin T, g (a + q.val) := by
  rw [Finset.sum_range_add]
  exact congrArg _ (Finset.sum_range fun x => g (a + x))

/-- The first block alone. -/
theorem sum_range_first_block (g : ℕ → M) (T : ℕ) :
    ∑ j ∈ range (0 * T + T), g j = ∑ q : Fin T, g (0 * T + q.val) := by
  rw [sum_range_add_block, Nat.zero_mul, Finset.sum_range_zero, zero_add]

end Cert.AccSum
-- ==== Proof.Reg0.lean ====
/-
  The first kernel region as values. Its grid has ten points; point t holds rows 5000·t … 5000·t + 4999 of the
  aggregated features x (the whole transposed weights and bias at every point) and writes the same rows of
  y = x · wt + b, so the row array ends at y. The two running vectors are reset at point 0, gain the point's column
  sums of y and of y² at every point, and are written back once, after point 9: by induction over the points they
  hold, after point n, the sums over the first 5000·(n + 1) rows, hence at the end the sums over all 50000 rows.
-/
import proofs.«114590_j23673859736036_2_alg».proof.Proof.Gen.KernelIdeal.Frame
import proofs.«114590_j23673859736036_2_alg».proof.Proof.Pieces0
import proofs.«114590_j23673859736036_2_alg».proof.Proof.Pay0
import proofs.«114590_j23673859736036_2_alg».proof.Proof.Mats
import proofs.«114590_j23673859736036_2_alg».proof.Proof.LibAccSum
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open scoped BigOperators

open Idealize.ShloMosaic.Pipeline (Dat)

namespace Cert.KernelIdeal.Reg0

open Cert.KernelIdeal Cert.KernelIdeal.Gen Cert.Net Cert.AccSum Finset

variable (V : (c : Dev nD) → (b : Ref sig .tc) → Buf (Elt Ideal) ((c : Thread nD τ).loc b))

/-- The rows the region computes, as a function of the arrays it finds. -/
def Y (c : Dev nD) : Mat := lin (mat (V c main_v19)) (sqm (V c main_v20)) (row (V c main_arg3))

/-- The printed index maps over the grid: the row windows move with the point, the others stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0
    ∧ win0_4.index t (0 : Fin 1) = 0 ∧ win0_5.index t (0 : Fin 1) = 0 :=
  (by decide +kernel : ∀ t : Fin grid0.N, _)

/-- Row q of point t's block is row 5000·t + q of the array. -/
def rowOf (t : Fin cfg0.N) (q : Fin 5000) : Fin 50000 :=
  ⟨t.val * 5000 + q.val, by have := lt_of_lt_of_eq t.isLt (show cfg0.N = 10 from N_0); have := q.isLt; omega⟩

theorem xblk_apply (c : Dev nD) (t : Fin cfg0.N) (q : Fin 5000) (k : Fin 128) :
    (iblk0 V c 0 t : Vec Ideal S5000x128 .f32) (ix2 q k) = V c main_v19 (ix2 (rowOf t q) k) := by
  unfold iblk0
  rw [View.read_apply]
  show V c main_v19 (((cfg0.win 0).blk t).view.emb (ix2 q k)) = _
  obtain ⟨e0, e1, -⟩ := idx_facts t
  refine congrArg _ (funext fun a => Fin.ext ?_)
  match a with
  | ⟨0, _⟩ => show win0_0.index t (0 : Fin 2) * 5000 + 1 * q.val = t.val * 5000 + q.val; rw [e0]; omega
  | ⟨1, _⟩ => show win0_0.index t (1 : Fin 2) * 128 + 1 * k.val = k.val; rw [e1]; omega

theorem wblk_apply (c : Dev nD) (t : Fin cfg0.N) (k j : Fin 128) :
    (iblk0 V c 1 t : Vec Ideal S128x128 .f32) (ix2 k j) = V c main_v20 (ix2 k j) := by
  unfold iblk0
  rw [View.read_apply]
  show V c main_v20 (((cfg0.win 1).blk t).view.emb (ix2 k j)) = _
  obtain ⟨-, -, e0, e1, -⟩ := idx_facts t
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * j.val = j.val; rw [e1]; omega

theorem bblk_apply (c : Dev nD) (t : Fin cfg0.N) (j : Fin 128) :
    (iblk0 V c 2 t : Vec Ideal S128 .f32) (ix1 j) = V c main_arg3 (ix1 j) := by
  unfold iblk0
  rw [View.read_apply]
  show V c main_arg3 (((cfg0.win 2).blk t).view.emb (ix1 j)) = _
  obtain ⟨-, -, -, -, e0, -⟩ := idx_facts t
  refine congrArg _ (funext fun a => Fin.ext ?_)
  match a with
  | ⟨0, _⟩ => show win0_2.index t (0 : Fin 1) * 128 + 1 * j.val = j.val; rw [e0]; omega

/-- What point t stores: its rows of Y. -/
theorem rows_at (c : Dev nD) (t : Fin cfg0.N) (q : Fin 5000) (j : Fin 128) :
    k0_pay3 (F := Ideal) (iblk0 V c 0 t) (iblk0 V c 1 t) (iblk0 V c 2 t) (ix2 q j) = Y V c (rowOf t q) j := by
  refine (Pay0.rows_apply (iblk0 V c 0 t) (iblk0 V c 1 t) (iblk0 V c 2 t) q j).trans ?_
  unfold Y lin mat sqm row
  refine congrArg₂ (· + ·) (Finset.sum_congr rfl fun k _ => ?_) (bblk_apply V c t j)
  rw [xblk_apply V c t q k, wblk_apply V c t k j]

/-- After point n the running vectors hold the column sums of Y and of Y² over the first 5000·(n+1) rows. -/
theorem sums_at (c : Dev nD) : ∀ (n : ℕ) (h : n < cfg0.N),
    (∀ j : Fin 128, (outsAt0 V c n h).2.1 (ix1 j) = ∑ i ∈ range (n * 5000 + 5000), ext0 (fun r => Y V c r j) i)
    ∧ (∀ j : Fin 128, (outsAt0 V c n h).2.2 (ix1 j)
        = ∑ i ∈ range (n * 5000 + 5000), ext0 (fun r => Y V c r j * Y V c r j) i)
  | 0, h => by
    have e := outsAt0_A V c ⟨0, h⟩ rfl
    have e4 : (outsAt0 V c 0 h).2.1 = k0_pay4 (iblk0 V c 0 ⟨0, h⟩) (iblk0 V c 1 ⟨0, h⟩) (iblk0 V c 2 ⟨0, h⟩) (k0_pay1 (F := Ideal)) :=
      (congrArg (fun p => p.2.1) e).trans (Pieces0.sum_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr (Nat.zero_mod _)) (iblk0 V c 0 ⟨0, h⟩) (iblk0 V c 1 ⟨0, h⟩) (iblk0 V c 2 ⟨0, h⟩))
    have e5 : (outsAt0 V c 0 h).2.2 = k0_pay5 (iblk0 V c 0 ⟨0, h⟩) (iblk0 V c 1 ⟨0, h⟩) (iblk0 V c 2 ⟨0, h⟩) (k0_pay2 (F := Ideal)) :=
      (congrArg (fun p => p.2.2) e).trans (Pieces0.sumsq_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr (Nat.zero_mod _)) (iblk0 V c 0 ⟨0, h⟩) (iblk0 V c 1 ⟨0, h⟩) (iblk0 V c 2 ⟨0, h⟩))
    constructor
    · intro j
      rw [e4]
      refine (Pay0.sum_apply (iblk0 V c 0 ⟨0, h⟩) (iblk0 V c 1 ⟨0, h⟩) (iblk0 V c 2 ⟨0, h⟩) (k0_pay1 (F := Ideal)) j).trans ?_
      rw [Pay0.reset1_apply, zero_add, sum_range_first_block]
      refine Finset.sum_congr rfl fun q _ => ?_
      rw [ext0_of_lt _ (by have := q.isLt; omega)]
      exact rows_at V c ⟨0, h⟩ q j
    · intro j
      rw [e5]
      refine (Pay0.sumsq_apply (iblk0 V c 0 ⟨0, h⟩) (iblk0 V c 1 ⟨0, h⟩) (iblk0 V c 2 ⟨0, h⟩) (k0_pay2 (F := Ideal)) j).trans ?_
      rw [Pay0.reset2_apply, zero_add, sum_range_first_block]
      refine Finset.sum_congr rfl fun q _ => ?_
      rw [ext0_of_lt _ (by have := q.isLt; omega)]
      exact congrArg₂ (· * ·) (rows_at V c ⟨0, h⟩ q j) (rows_at V c ⟨0, h⟩ q j)
  | n + 1, h => by
    have h10 : n + 1 < 10 := lt_of_lt_of_eq h (show cfg0.N = 10 from N_0)
    have hB : ¬(⟨n + 1, h⟩ : Fin cfg0.N).val % 10 = 0 := by dsimp only; omega
    have e := outsAt0_B V c ⟨n + 1, h⟩ hB
    obtain ⟨ih1, ih2⟩ := sums_at c n (Nat.lt_of_succ_lt h)
    have hs : n * 5000 + 5000 = (n + 1) * 5000 := (Nat.succ_mul n 5000).symm
    rw [hs] at ih1 ih2
    have e4 : (outsAt0 V c (n + 1) h).2.1
        = k0_pay4 (iblk0 V c 0 ⟨n + 1, h⟩) (iblk0 V c 1 ⟨n + 1, h⟩) (iblk0 V c 2 ⟨n + 1, h⟩) (outsAt0 V c n (Nat.lt_of_succ_lt h)).2.1 :=
      (congrArg (fun p => p.2.1) e).trans (Pieces0.sum_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (outsAt0 V c n (Nat.lt_of_succ_lt h)).2.1 (outsAt0 V c n (Nat.lt_of_succ_lt h)).2.2)
    have e5 : (outsAt0 V c (n + 1) h).2.2
        = k0_pay5 (iblk0 V c 0 ⟨n + 1, h⟩) (iblk0 V c 1 ⟨n + 1, h⟩) (iblk0 V c 2 ⟨n + 1, h⟩) (outsAt0 V c n (Nat.lt_of_succ_lt h)).2.2 :=
      (congrArg (fun p => p.2.2) e).trans (Pieces0.sumsq_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (outsAt0 V c n (Nat.lt_of_succ_lt h)).2.1 (outsAt0 V c n (Nat.lt_of_succ_lt h)).2.2)
    constructor
    · intro j
      rw [e4]
      refine (Pay0.sum_apply (iblk0 V c 0 ⟨n + 1, h⟩) (iblk0 V c 1 ⟨n + 1, h⟩) (iblk0 V c 2 ⟨n + 1, h⟩) _ j).trans ?_
      rw [ih1 j, sum_range_add_block _ ((n + 1) * 5000) 5000]
      refine congrArg _ (Finset.sum_congr rfl fun q _ => ?_)
      rw [ext0_of_lt _ (by have := q.isLt; omega)]
      exact rows_at V c ⟨n + 1, h⟩ q j
    · intro j
      rw [e5]
      refine (Pay0.sumsq_apply (iblk0 V c 0 ⟨n + 1, h⟩) (iblk0 V c 1 ⟨n + 1, h⟩) (iblk0 V c 2 ⟨n + 1, h⟩) _ j).trans ?_
      rw [ih2 j, sum_range_add_block _ ((n + 1) * 5000) 5000]
      refine congrArg _ (Finset.sum_congr rfl fun q _ => ?_)
      rw [ext0_of_lt _ (by have := q.isLt; omega)]
      exact congrArg₂ (· * ·) (rows_at V c ⟨n + 1, h⟩ q j) (rows_at V c ⟨n + 1, h⟩ q j)

/-! ## The arrays after the region -/

/-- What point t stores in the row window, read at a coordinate of its block, is the rows function at the array's row. -/
theorem stored_at (c : Dev nD) (t : Fin cfg0.N) (q : Fin 5000) (j : Fin 128) :
    k0_pay3 (F := Ideal) (iblk0 V c 0 t) (iblk0 V c 1 t) (iblk0 V c 2 t) (ix2 q j) = unmat (Y V c) (((cfg0.win 3).blk t).view.emb (ix2 q j)) := by
  refine (rows_at V c t q j).trans ?_
  obtain ⟨-, -, -, -, -, eo0, eo1, -⟩ := idx_facts t
  refine congrArg₂ (Y V c) (Fin.ext ?_) (Fin.ext ?_)
  · show t.val * 5000 + q.val = win0_3.index t (0 : Fin 2) * 5000 + 1 * q.val
    rw [eo0]; omega
  · show j.val = win0_3.index t (1 : Fin 2) * 128 + 1 * j.val
    rw [eo1]; omega

set_option maxHeartbeats 400000 in
/-- What point t writes back is block t of the rows Y: at either kind of point the stored block is the point's rows. -/
theorem flushed_rows (c : Dev nD) (t : Fin cfg0.N) :
    (dat0 V c).flushed 3 t = ((cfg0.win 3).blk t).view.read (Elt Ideal) (unmat (Y V c)) := by
  show (cfg0.win 3).cut (grid0.coords t) ((dat0 V c).after 3 t) = _
  rw [after0_3]
  by_cases h0 : t.val % 10 = 0
  · rw [outsAt0_A V c t h0]
    dsimp only
    rw [Pieces0.rows_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)]
    funext i
    obtain ⟨q, j, rfl⟩ : ∃ (q : Fin 5000) (j : Fin 128), i = ix2 q j := ⟨i 0, i 1, eq_ix2 i⟩
    exact stored_at V c t q j
  · rw [outsAt0_B V c t h0]
    dsimp only
    rw [Pieces0.rows_B c (grid0.coords t) (ms0_0 t) (hs0_0 t) (ms0_1 t) (hs0_1 t) (ms0_2 t) (hs0_2 t) (ms0_3 t) (hs0_3 t) (ms0_4 t) (hs0_4 t) (ms0_5 t) (hs0_5 t) (fun hh => h0 ((hcond0_0 t).mp hh)) (iblk0 V c 0 t) (iblk0 V c 1 t) (iblk0 V c 2 t) (outsAt0 V c (t.val - 1) (Nat.lt_of_le_of_lt (Nat.sub_le t.val 1) t.isLt)).2.1 (outsAt0 V c (t.val - 1) (Nat.lt_of_le_of_lt (Nat.sub_le t.val 1) t.isLt)).2.2]
    funext i
    obtain ⟨q, j, rfl⟩ : ∃ (q : Fin 5000) (j : Fin 128), i = ix2 q j := ⟨i 0, i 1, eq_ix2 i⟩
    exact stored_at V c t q j

/-- Every row lies in the block of the point that holds it. -/
theorem cover_rows (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  refine ⟨⟨(i 0).val / 5000, ht⟩, flush0_3 _, ?_⟩
  obtain ⟨-, -, -, -, -, e0, e1, -⟩ := idx_facts ⟨(i 0).val / 5000, ht⟩
  show i ∈ ((View.whole main_v22_0).slice (win0_3.rect ⟨(i 0).val / 5000, ht⟩)).set
  rw [View.set_slice_whole, Rect.mem_set_unit]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]; omega

/-- The row array ends at Y. -/
theorem final_rows (c : Dev nD) : (dat0 V c).arrAt 3 cfg0.N = unmat (Y V c) :=
  (dat0 V c).arrAt_eq_of_cover 3 (unmat (Y V c)) (fun t _ => flushed_rows V c t) cover_rows

/-- The running sum is written back once, after the last point, through the whole [128] array. -/
theorem flushed_sum (c : Dev nD) (t : Fin cfg0.N) (hf : (cfg0.win 4).flush t = true) :
    (dat0 V c).flushed 4 t = ((cfg0.win 4).blk t).view.read (Elt Ideal) (outsAt0 V c t0_9.val t0_9.isLt).2.1 := by
  have hN : cfg0.N = 10 := N_0
  have h9 : t.val = 9 := by have := (flush0_4 t).mp hf; have := t.isLt; omega
  obtain rfl : t = t0_9 := Fin.ext h9
  show (cfg0.win 4).cut (grid0.coords t0_9) ((dat0 V c).after 4 t0_9) = _
  rw [after0_4]
  have hz' : (fun a => win0_4.index t0_9 a * main_v22_1.ty.shape.size a) = fun _ => 0 :=
    funext fun a => by fin_cases a <;> decide +kernel
  exact (Memref.read_access_unit_zero (Elt Ideal) main_v22_1 hz' (fun a => by rw [congrFun hz' a]; simp) _).symm

theorem final_sum (c : Dev nD) : (dat0 V c).arrAt 4 cfg0.N = (outsAt0 V c t0_9.val t0_9.isLt).2.1 :=
  (dat0 V c).arrAt_eq_of_cover 4 _ (flushed_sum V c) fun i =>
    ⟨t0_9, (flush0_4 t0_9).mpr rfl, by
      show i ∈ ((View.whole main_v22_1).slice (win0_4.rect t0_9)).set
      rw [View.set_slice_whole, Rect.mem_set_unit]
      intro a
      have h0 : (i 0 : Nat) < 128 := (i 0).isLt
      match a with
      | ⟨0, _⟩ =>
        show win0_4.index t0_9 0 * win0_4.size 0 ≤ (i 0 : Nat)
          ∧ (i 0 : Nat) < win0_4.index t0_9 0 * win0_4.size 0 + win0_4.xsize (grid0.coords t0_9) 0
        rw [show win0_4.index t0_9 0 * win0_4.size 0 = 0 from by decide +kernel,
          show win0_4.xsize (grid0.coords t0_9) 0 = 128 from by decide +kernel]
        omega⟩

theorem flushed_sumsq (c : Dev nD) (t : Fin cfg0.N) (hf : (cfg0.win 5).flush t = true) :
    (dat0 V c).flushed 5 t = ((cfg0.win 5).blk t).view.read (Elt Ideal) (outsAt0 V c t0_9.val t0_9.isLt).2.2 := by
  have hN : cfg0.N = 10 := N_0
  have h9 : t.val = 9 := by have := (flush0_5 t).mp hf; have := t.isLt; omega
  obtain rfl : t = t0_9 := Fin.ext h9
  show (cfg0.win 5).cut (grid0.coords t0_9) ((dat0 V c).after 5 t0_9) = _
  rw [after0_5]
  have hz' : (fun a => win0_5.index t0_9 a * main_v22_2.ty.shape.size a) = fun _ => 0 :=
    funext fun a => by fin_cases a <;> decide +kernel
  exact (Memref.read_access_unit_zero (Elt Ideal) main_v22_2 hz' (fun a => by rw [congrFun hz' a]; simp) _).symm

theorem final_sumsq (c : Dev nD) : (dat0 V c).arrAt 5 cfg0.N = (outsAt0 V c t0_9.val t0_9.isLt).2.2 :=
  (dat0 V c).arrAt_eq_of_cover 5 _ (flushed_sumsq V c) fun i =>
    ⟨t0_9, (flush0_5 t0_9).mpr rfl, by
      show i ∈ ((View.whole main_v22_2).slice (win0_5.rect t0_9)).set
      rw [View.set_slice_whole, Rect.mem_set_unit]
      intro a
      have h0 : (i 0 : Nat) < 128 := (i 0).isLt
      match a with
      | ⟨0, _⟩ =>
        show win0_5.index t0_9 0 * win0_5.size 0 ≤ (i 0 : Nat)
          ∧ (i 0 : Nat) < win0_5.index t0_9 0 * win0_5.size 0 + win0_5.xsize (grid0.coords t0_9) 0
        rw [show win0_5.index t0_9 0 * win0_5.size 0 = 0 from by decide +kernel,
          show win0_5.xsize (grid0.coords t0_9) 0 = 128 from by decide +kernel]
        omega⟩

/-- The three arrays after the region, in the network's terms. -/
theorem rows_eq (c : Dev nD) : mat ((dat0 V c).arrAt 3 cfg0.N) = Y V c := by
  rw [final_rows]; rfl

theorem sum_eq (c : Dev nD) : row ((dat0 V c).arrAt 4 cfg0.N) = fun j => ∑ r : Fin 50000, Y V c r j := by
  funext j
  show (dat0 V c).arrAt 4 cfg0.N (ix1 j) = _
  rw [final_sum]
  exact ((sums_at V c 9 t0_9.isLt).1 j).trans (sum_ext0 _)

theorem sumsq_eq (c : Dev nD) :
    row ((dat0 V c).arrAt 5 cfg0.N) = fun j => ∑ r : Fin 50000, Y V c r j * Y V c r j := by
  funext j
  show (dat0 V c).arrAt 5 cfg0.N (ix1 j) = _
  rw [final_sumsq]
  exact ((sums_at V c 9 t0_9.isLt).2 j).trans (sum_ext0 _)

end Cert.KernelIdeal.Reg0

end
-- ==== Proof.Pieces1.lean ====
/-
  What the second kernel's body leaves in its three output buffers, read back as values. At the first grid point the
  two running vectors are reset to zero and then gain the point's column sums; at every later point they gain the
  point's column sums over what the point before left. The stored block of rows is the same function of the point's
  input blocks in both cases. Each buffer is written by stores through its whole rectangle, so reading the covering
  stores back gives the last store's value, whose loads read the whole input buffers (and, at the first point, the
  zero just stored).
-/
import proofs.«114590_j23673859736036_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem Idealize.ShloMosaic.ValueIdx
open scoped BigOperators

open Idealize.ShloMosaic.Tactic

namespace Cert.KernelIdeal.Pieces1

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- First point: the stored rows. -/
theorem rows_A (c : Dev nD) (i : grid1.Coords) (a1 : Memref sig .tc .vmem S5000x128 .f32) (h1 : a1.IsWhole) (a2 : Memref sig .tc .vmem S128 .f32) (h2 : a2.IsWhole) (a3 : Memref sig .tc .vmem S128 .f32) (h3 : a3.IsWhole) (a4 : Memref sig .tc .vmem S128 .f32) (h4 : a4.IsWhole) (a5 : Memref sig .tc .vmem S128 .f32) (h5 : a5.IsWhole) (a6 : Memref sig .tc .vmem S128x128 .f32) (h6 : a6.IsWhole) (a7 : Memref sig .tc .vmem S128 .f32) (h7 : a7.IsWhole) (a8 : Memref sig .tc .vmem S5000x128 .f32) (h8 : a8.IsWhole) (a9 : Memref sig .tc .vmem S128 .f32) (h9 : a9.IsWhole) (a10 : Memref sig .tc .vmem S128 .f32) (h10 : a10.IsWhole) (hc : cond1_0 i) (x0 : Vec F S5000x128 .f32) (x1 : Vec F S128 .f32) (x2 : Vec F S128 .f32) (x3 : Vec F S128 .f32) (x4 : Vec F S128 .f32) (x5 : Vec F S128x128 .f32) (x6 : Vec F S128 .f32) :
    out1_A_7 c i a1 h1 a2 h2 a3 h3 a4 h4 a5 h5 a6 h6 a7 h7 a8 h8 a9 h9 a10 h10 hc x0 x1 x2 x3 x4 x5 x6 = k1_pay5 x0 x1 x2 x3 x4 x5 x6 := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_unit_zero hz2]
  simp only [View.readAt_eq_ld, h1.read_unread, h2.read_unread, h3.read_unread, h4.read_unread, h5.read_unread, h6.read_unread, h7.read_unread, h9.read_unread, h10.read_unread, View.ld_unit_zero (S := S5000x128) hz2, View.ld_unit_zero (S := S128x128) hz2, View.ld_unit_zero (S := S128) hz1]

/-- Later points: the stored rows. -/
theorem rows_B (c : Dev nD) (i : grid1.Coords) (a1 : Memref sig .tc .vmem S5000x128 .f32) (h1 : a1.IsWhole) (a2 : Memref sig .tc .vmem S128 .f32) (h2 : a2.IsWhole) (a3 : Memref sig .tc .vmem S128 .f32) (h3 : a3.IsWhole) (a4 : Memref sig .tc .vmem S128 .f32) (h4 : a4.IsWhole) (a5 : Memref sig .tc .vmem S128 .f32) (h5 : a5.IsWhole) (a6 : Memref sig .tc .vmem S128x128 .f32) (h6 : a6.IsWhole) (a7 : Memref sig .tc .vmem S128 .f32) (h7 : a7.IsWhole) (a8 : Memref sig .tc .vmem S5000x128 .f32) (h8 : a8.IsWhole) (a9 : Memref sig .tc .vmem S128 .f32) (h9 : a9.IsWhole) (a10 : Memref sig .tc .vmem S128 .f32) (h10 : a10.IsWhole) (hc : ¬cond1_0 i) (x0 : Vec F S5000x128 .f32) (x1 : Vec F S128 .f32) (x2 : Vec F S128 .f32) (x3 : Vec F S128 .f32) (x4 : Vec F S128 .f32) (x5 : Vec F S128x128 .f32) (x6 : Vec F S128 .f32) (xo8 xo9 : Vec F S128 .f32) :
    out1_B_7 c i a1 h1 a2 h2 a3 h3 a4 h4 a5 h5 a6 h6 a7 h7 a8 h8 a9 h9 a10 h10 hc x0 x1 x2 x3 x4 x5 x6 xo8 xo9 = k1_pay5 x0 x1 x2 x3 x4 x5 x6 := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h9.read_unread, h10.read_unread, View.ld_unit_zero (S := S5000x128) hz2, View.ld_unit_zero (S := S128x128) hz2, View.ld_unit_zero (S := S128) hz1]

/-- First point: the running sum, from the zero just stored. -/
theorem sum_A (c : Dev nD) (i : grid1.Coords) (a1 : Memref sig .tc .vmem S5000x128 .f32) (h1 : a1.IsWhole) (a2 : Memref sig .tc .vmem S128 .f32) (h2 : a2.IsWhole) (a3 : Memref sig .tc .vmem S128 .f32) (h3 : a3.IsWhole) (a4 : Memref sig .tc .vmem S128 .f32) (h4 : a4.IsWhole) (a5 : Memref sig .tc .vmem S128 .f32) (h5 : a5.IsWhole) (a6 : Memref sig .tc .vmem S128x128 .f32) (h6 : a6.IsWhole) (a7 : Memref sig .tc .vmem S128 .f32) (h7 : a7.IsWhole) (a8 : Memref sig .tc .vmem S5000x128 .f32) (h8 : a8.IsWhole) (a9 : Memref sig .tc .vmem S128 .f32) (h9 : a9.IsWhole) (a10 : Memref sig .tc .vmem S128 .f32) (h10 : a10.IsWhole) (hc : cond1_0 i) (x0 : Vec F S5000x128 .f32) (x1 : Vec F S128 .f32) (x2 : Vec F S128 .f32) (x3 : Vec F S128 .f32) (x4 : Vec F S128 .f32) (x5 : Vec F S128x128 .f32) (x6 : Vec F S128 .f32) :
    out1_A_8 c i a1 h1 a2 h2 a3 h3 a4 h4 a5 h5 a6 h6 a7 h7 a8 h8 a9 h9 a10 h10 hc x0 x1 x2 x3 x4 x5 x6 = k1_pay1 (k1_pay5 x0 x1 x2 x3 x4 x5 x6) (k1_pay6 (k1_pay3 )) := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, h6.read_unread, h7.read_unread, h9.read_unread, h10.read_unread, View.ld_unit_zero (S := S5000x128) hz2, View.ld_unit_zero (S := S128x128) hz2, View.ld_unit_zero (S := S128) hz1]

/-- Later points: the running sum, from what the point before left. -/
theorem sum_B (c : Dev nD) (i : grid1.Coords) (a1 : Memref sig .tc .vmem S5000x128 .f32) (h1 : a1.IsWhole) (a2 : Memref sig .tc .vmem S128 .f32) (h2 : a2.IsWhole) (a3 : Memref sig .tc .vmem S128 .f32) (h3 : a3.IsWhole) (a4 : Memref sig .tc .vmem S128 .f32) (h4 : a4.IsWhole) (a5 : Memref sig .tc .vmem S128 .f32) (h5 : a5.IsWhole) (a6 : Memref sig .tc .vmem S128x128 .f32) (h6 : a6.IsWhole) (a7 : Memref sig .tc .vmem S128 .f32) (h7 : a7.IsWhole) (a8 : Memref sig .tc .vmem S5000x128 .f32) (h8 : a8.IsWhole) (a9 : Memref sig .tc .vmem S128 .f32) (h9 : a9.IsWhole) (a10 : Memref sig .tc .vmem S128 .f32) (h10 : a10.IsWhole) (hc : ¬cond1_0 i) (x0 : Vec F S5000x128 .f32) (x1 : Vec F S128 .f32) (x2 : Vec F S128 .f32) (x3 : Vec F S128 .f32) (x4 : Vec F S128 .f32) (x5 : Vec F S128x128 .f32) (x6 : Vec F S128 .f32) (xo8 xo9 : Vec F S128 .f32) :
    out1_B_8 c i a1 h1 a2 h2 a3 h3 a4 h4 a5 h5 a6 h6 a7 h7 a8 h8 a9 h9 a10 h10 hc x0 x1 x2 x3 x4 x5 x6 xo8 xo9 = k1_pay1 (k1_pay5 x0 x1 x2 x3 x4 x5 x6) (k1_pay6 xo8) := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz1]
  simp only [View.readAt_eq_ld, h1.read_unread, h2.read_unread, h3.read_unread, h4.read_unread, h5.read_unread, h6.read_unread, h7.read_unread, h9.read_unread, h10.read_unread, View.ld_unit_zero (S := S5000x128) hz2, View.ld_unit_zero (S := S128x128) hz2, View.ld_unit_zero (S := S128) hz1]

/-- First point: the running sum of squares, from the zero just stored. -/
theorem sumsq_A (c : Dev nD) (i : grid1.Coords) (a1 : Memref sig .tc .vmem S5000x128 .f32) (h1 : a1.IsWhole) (a2 : Memref sig .tc .vmem S128 .f32) (h2 : a2.IsWhole) (a3 : Memref sig .tc .vmem S128 .f32) (h3 : a3.IsWhole) (a4 : Memref sig .tc .vmem S128 .f32) (h4 : a4.IsWhole) (a5 : Memref sig .tc .vmem S128 .f32) (h5 : a5.IsWhole) (a6 : Memref sig .tc .vmem S128x128 .f32) (h6 : a6.IsWhole) (a7 : Memref sig .tc .vmem S128 .f32) (h7 : a7.IsWhole) (a8 : Memref sig .tc .vmem S5000x128 .f32) (h8 : a8.IsWhole) (a9 : Memref sig .tc .vmem S128 .f32) (h9 : a9.IsWhole) (a10 : Memref sig .tc .vmem S128 .f32) (h10 : a10.IsWhole) (hc : cond1_0 i) (x0 : Vec F S5000x128 .f32) (x1 : Vec F S128 .f32) (x2 : Vec F S128 .f32) (x3 : Vec F S128 .f32) (x4 : Vec F S128 .f32) (x5 : Vec F S128x128 .f32) (x6 : Vec F S128 .f32) :
    out1_A_9 c i a1 h1 a2 h2 a3 h3 a4 h4 a5 h5 a6 h6 a7 h7 a8 h8 a9 h9 a10 h10 hc x0 x1 x2 x3 x4 x5 x6 = k1_pay2 (k1_pay5 x0 x1 x2 x3 x4 x5 x6) (k1_pay4 ) := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, h6.read_unread, h7.read_unread, h9.read_unread, h10.read_unread, View.ld_unit_zero (S := S5000x128) hz2, View.ld_unit_zero (S := S128x128) hz2, View.ld_unit_zero (S := S128) hz1]

/-- Later points: the running sum of squares, from what the point before left. -/
theorem sumsq_B (c : Dev nD) (i : grid1.Coords) (a1 : Memref sig .tc .vmem S5000x128 .f32) (h1 : a1.IsWhole) (a2 : Memref sig .tc .vmem S128 .f32) (h2 : a2.IsWhole) (a3 : Memref sig .tc .vmem S128 .f32) (h3 : a3.IsWhole) (a4 : Memref sig .tc .vmem S128 .f32) (h4 : a4.IsWhole) (a5 : Memref sig .tc .vmem S128 .f32) (h5 : a5.IsWhole) (a6 : Memref sig .tc .vmem S128x128 .f32) (h6 : a6.IsWhole) (a7 : Memref sig .tc .vmem S128 .f32) (h7 : a7.IsWhole) (a8 : Memref sig .tc .vmem S5000x128 .f32) (h8 : a8.IsWhole) (a9 : Memref sig .tc .vmem S128 .f32) (h9 : a9.IsWhole) (a10 : Memref sig .tc .vmem S128 .f32) (h10 : a10.IsWhole) (hc : ¬cond1_0 i) (x0 : Vec F S5000x128 .f32) (x1 : Vec F S128 .f32) (x2 : Vec F S128 .f32) (x3 : Vec F S128 .f32) (x4 : Vec F S128 .f32) (x5 : Vec F S128x128 .f32) (x6 : Vec F S128 .f32) (xo8 xo9 : Vec F S128 .f32) :
    out1_B_9 c i a1 h1 a2 h2 a3 h3 a4 h4 a5 h5 a6 h6 a7 h7 a8 h8 a9 h9 a10 h10 hc x0 x1 x2 x3 x4 x5 x6 xo8 xo9 = k1_pay2 (k1_pay5 x0 x1 x2 x3 x4 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  sl_unfold_words
  rw [View.canon_unit_zero hz1]
  simp only [View.readAt_eq_ld, h1.read_unread, h2.read_unread, h3.read_unread, h4.read_unread, h5.read_unread, h6.read_unread, h7.read_unread, h9.read_unread, h10.read_unread, View.ld_unit_zero (S := S5000x128) hz2, View.ld_unit_zero (S := S128x128) hz2, View.ld_unit_zero (S := S128) hz1]

end Cert.KernelIdeal.Pieces1

end
-- ==== Proof.Pay1.lean ====
/-
  The second kernel's arithmetic at an index. A point of its grid holds 5000 rows x of the first dense layer's result,
  four rows (the column means mu, the column variances var, the scale g, the shift be), the transposed weights w and
  the bias b. It forms a = max ((x − mu) · rsqrt (var + eps) · g + be, 0) and stores the rows y = a · w + b of the second
  dense layer: entry (q, c) is the sum over k of a (q, k) · w (k, c), plus b c (each row vector is laid under every one
  of the 5000 rows, the change of float format on the way into the matrix unit is the identity on the extended reals,
  the accumulator starts at zero). Its two running vectors gain, per column c, the sum over the 5000 rows of y (q, c)
  and of y (q, c)².
-/
import proofs.«114590_j23673859736036_2_alg».proof.Proof.Gen.KernelIdeal.Skeleton
import proofs.«114590_j23673859736036_2_alg».proof.Proof.LibDot
import proofs.«114590_j23673859736036_2_alg».proof.Proof.LibColReduce
import proofs.«114590_j23673859736036_2_alg».proof.Proof.LibRowwise
import proofs.«114590_j23673859736036_2_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.KernelIdeal.Pay1

open Cert.KernelIdeal Cert.KernelIdeal.Gen

/-- The stored block: rows of max (normalised x, 0) · w + b. -/
theorem rows_apply (x : Vec Ideal S5000x128 .f32) (mu var g be : Vec Ideal S128 .f32) (w : Vec Ideal S128x128 .f32)
    (b : Vec Ideal S128 .f32) (q : Fin 5000) (c : Fin 128) :
    k1_pay5 (F := Ideal) x mu var g be w b (ix2 q c)
      = (∑ k : Fin 128,
          max ((x (ix2 q k) - mu (ix1 k)) * Ideal.rsqrt (var (ix1 k) + Cert.Net.eps) * g (ix1 k) + be (ix1 k)) 0
            * w (ix2 k c)) + b (ix1 c) := by
  unfold k1_pay5
  refine (addf_apply _ _ (ix2 q c)).trans ?_
  refine congrArg₂ (· + ·) ?_
    (Cert.LibRowwise.rowUnder_apply b shapeCasts_S128_S1x128 broadcasts_S1x128_S5000x128 q c)
  refine (Cert.LibDot.matmul_zero_apply dot_S5000x128_S128x128_S5000x128_1_0_0_1_n_n rfl rfl
    (fun _ _ => rfl) (fun _ _ => rfl) (fun _ _ => rfl) (fun _ _ => rfl) none _ _ q c).trans ?_
  refine Finset.sum_congr rfl fun k _ => ?_
  refine congrArg₂ (· * ·) ?_ ?_
  · refine (truncf_apply (ψ := .bf16) _ bitsLt_bf16_f32 (ix2 q k)).trans ?_
    refine (maximumf_apply _ _ (ix2 q k)).trans ?_
    refine congrArg₂ max ?_ Ideal.ofBits_zero_f32
    refine (addf_apply _ _ (ix2 q k)).trans ?_
    refine congrArg₂ (· + ·) ?_
      (Cert.LibRowwise.rowUnder_apply be shapeCasts_S128_S1x128 broadcasts_S1x128_S5000x128 q k)
    refine (mulf_apply _ _ (ix2 q k)).trans ?_
    refine congrArg₂ (· * ·) ?_
      (Cert.LibRowwise.rowUnder_apply g shapeCasts_S128_S1x128 broadcasts_S1x128_S5000x128 q k)
    refine (mulf_apply _ _ (ix2 q k)).trans ?_
    refine congrArg₂ (· * ·) ?_ ?_
    · refine (subf_apply _ _ (ix2 q k)).trans ?_
      refine congrArg₂ (· - ·) ?_ ?_
      · rw [shapeCast_self]
      · refine (Cert.LibRowwise.rowUnder_apply _ shapeCasts_S128_S1x128 broadcasts_S1x128_S5000x128 q k).trans ?_
        rw [shapeCast_self]
    · refine (Cert.LibRowwise.rowUnder_apply _ shapeCasts_S128_S1x128 broadcasts_S1x128_S5000x128 q k).trans ?_
      rw [shapeCast_self]
      rfl
  · refine (truncf_apply (ψ := .bf16) _ bitsLt_bf16_f32 (ix2 k c)).trans ?_
    rw [shapeCast_self]

/-- The zero the running vectors are reset to. -/
theorem reset3_apply (c : Fin 128) : k1_pay3 (F := Ideal) (ix1 c) = 0 := Ideal.ofBits_zero_f32
theorem reset4_apply (c : Fin 128) : k1_pay4 (F := Ideal) (ix1 c) = 0 := Ideal.ofBits_zero_f32

/-- The running sum gains the column sums of a block y. -/
theorem sum_apply (y : FVec Ideal S5000x128 .f32) (acc : Vec Ideal S128 .f32) (c : Fin 128) :
    k1_pay1 (F := Ideal) y (k1_pay6 acc) (ix1 c) = acc (ix1 c) + ∑ q : Fin 5000, y (ix2 q c) := by
  unfold k1_pay1 k1_pay6
  refine (addf_apply _ _ (ix1 c)).trans ?_
  refine congrArg₂ (· + ·) ?_ ?_
  · rw [shapeCast_self]
  · exact Cert.LibColReduce.multiReduction_add_col y _ reduces_S5000x128_S128 _ _ c

/-- The running sum of squares gains the column sums of the squares of a block y. -/
theorem sumsq_apply (y : FVec Ideal S5000x128 .f32) (acc : Vec Ideal S128 .f32) (c : Fin 128) :
    k1_pay2 (F := Ideal) y acc (ix1 c) = acc (ix1 c) + ∑ q : Fin 5000, y (ix2 q c) * y (ix2 q c) := by
  unfold k1_pay2
  refine (addf_apply _ _ (ix1 c)).trans ?_
  refine congrArg₂ (· + ·) ?_ ?_
  · rw [shapeCast_self]
  · exact Cert.LibColReduce.multiReduction_add_col (mulf y y) _ reduces_S5000x128_S128 _ _ c

end Cert.KernelIdeal.Pay1

end
-- ==== Proof.Reg1.lean ====
/-
  The second kernel region as values. Point t holds rows 5000·t … 5000·t + 4999 of the first layer's output y (and, at
  every point, the whole statistics, scale, shift, transposed weights and bias) and writes the same rows of
  z = max (normalised y, 0) · wt + b, so the row array ends at z. The two running vectors are reset at point 0, gain the
  point's column sums of z and of z² at every point and are written back once, after point 9: by induction over the
  points they hold, after point n, the sums over the first 5000·(n + 1) rows, hence at the end over all 50000 rows.
-/
import proofs.«114590_j23673859736036_2_alg».proof.Proof.Gen.KernelIdeal.Frame
import proofs.«114590_j23673859736036_2_alg».proof.Proof.Pieces1
import proofs.«114590_j23673859736036_2_alg».proof.Proof.Pay1
import proofs.«114590_j23673859736036_2_alg».proof.Proof.Mats
import proofs.«114590_j23673859736036_2_alg».proof.Proof.LibAccSum
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open scoped BigOperators

open Idealize.ShloMosaic.Pipeline (Dat)

namespace Cert.KernelIdeal.Reg1

open Cert.KernelIdeal Cert.KernelIdeal.Gen Cert.Net Cert.AccSum Finset

variable (V : (c : Dev nD) → (b : Ref sig .tc) → Buf (Elt Ideal) ((c : Thread nD τ).loc b))

/-- The rows the region computes, as a function of the arrays it finds. -/
def Y (c : Dev nD) : Mat := lin (relu (bn (mat (V c main_v22_0)) (row (V c main_v24)) (row (V c main_v28)) (row (V c main_arg4)) (row (V c main_arg5)))) (sqm (V c main_v21)) (row (V c main_arg7))

/-- The printed index maps over the grid: the row windows move with the point, the others stay. -/
theorem idx_facts : ∀ t : Fin cfg1.N, win1_0.index t (0 : Fin 2) = t.val
    ∧ win1_0.index t (1 : Fin 2) = 0
    ∧ win1_1.index t (0 : Fin 1) = 0
    ∧ win1_2.index t (0 : Fin 1) = 0
    ∧ win1_3.index t (0 : Fin 1) = 0
    ∧ win1_4.index t (0 : Fin 1) = 0
    ∧ win1_5.index t (0 : Fin 2) = 0
    ∧ win1_5.index t (1 : Fin 2) = 0
    ∧ win1_6.index t (0 : Fin 1) = 0
    ∧ win1_7.index t (0 : Fin 2) = t.val
    ∧ win1_7.index t (1 : Fin 2) = 0
    ∧ win1_8.index t (0 : Fin 1) = 0
    ∧ win1_9.index t (0 : Fin 1) = 0 :=
  (by decide +kernel : ∀ t : Fin grid1.N, _)

/-- Row q of point t's block is row 5000·t + q of the array. -/
def rowOf (t : Fin cfg1.N) (q : Fin 5000) : Fin 50000 :=
  ⟨t.val * 5000 + q.val, by have := lt_of_lt_of_eq t.isLt (show cfg1.N = 10 from N_1); have := q.isLt; omega⟩

theorem blk0_apply (c : Dev nD) (t : Fin cfg1.N) (q : Fin 5000) (j : Fin 128) :
    (iblk1 V c 0 t : Vec Ideal S5000x128 .f32) (ix2 q j) = V c main_v22_0 (ix2 (rowOf t q) j) := by
  unfold iblk1
  rw [View.read_apply]
  show V c main_v22_0 (((cfg1.win 0).blk t).view.emb (ix2 q j)) = _
  obtain ⟨e0_0, e0_1, -⟩ := idx_facts t
  refine congrArg _ (funext fun a => Fin.ext ?_)
  match a with
  | ⟨0, _⟩ => show win1_0.index t (0 : Fin 2) * 5000 + 1 * q.val = t.val * 5000 + q.val; rw [e0_0]; omega
  | ⟨1, _⟩ => show win1_0.index t (1 : Fin 2) * 128 + 1 * j.val = j.val; rw [e0_1]; omega

theorem blk1_apply (c : Dev nD) (t : Fin cfg1.N) (j : Fin 128) :
    (iblk1 V c 1 t : Vec Ideal S128 .f32) (ix1 j) = V c main_v24 (ix1 j) := by
  unfold iblk1
  rw [View.read_apply]
  show V c main_v24 (((cfg1.win 1).blk t).view.emb (ix1 j)) = _
  obtain ⟨-, -, e1_0, -⟩ := idx_facts t
  refine congrArg _ (funext fun a => Fin.ext ?_)
  match a with
  | ⟨0, _⟩ => show win1_1.index t (0 : Fin 1) * 128 + 1 * j.val = j.val; rw [e1_0]; omega

theorem blk2_apply (c : Dev nD) (t : Fin cfg1.N) (j : Fin 128) :
    (iblk1 V c 2 t : Vec Ideal S128 .f32) (ix1 j) = V c main_v28 (ix1 j) := by
  unfold iblk1
  rw [View.read_apply]
  show V c main_v28 (((cfg1.win 2).blk t).view.emb (ix1 j)) = _
  obtain ⟨-, -, -, e2_0, -⟩ := idx_facts t
  refine congrArg _ (funext fun a => Fin.ext ?_)
  match a with
  | ⟨0, _⟩ => show win1_2.index t (0 : Fin 1) * 128 + 1 * j.val = j.val; rw [e2_0]; omega

theorem blk3_apply (c : Dev nD) (t : Fin cfg1.N) (j : Fin 128) :
    (iblk1 V c 3 t : Vec Ideal S128 .f32) (ix1 j) = V c main_arg4 (ix1 j) := by
  unfold iblk1
  rw [View.read_apply]
  show V c main_arg4 (((cfg1.win 3).blk t).view.emb (ix1 j)) = _
  obtain ⟨-, -, -, -, e3_0, -⟩ := idx_facts t
  refine congrArg _ (funext fun a => Fin.ext ?_)
  match a with
  | ⟨0, _⟩ => show win1_3.index t (0 : Fin 1) * 128 + 1 * j.val = j.val; rw [e3_0]; omega

theorem blk4_apply (c : Dev nD) (t : Fin cfg1.N) (j : Fin 128) :
    (iblk1 V c 4 t : Vec Ideal S128 .f32) (ix1 j) = V c main_arg5 (ix1 j) := by
  unfold iblk1
  rw [View.read_apply]
  show V c main_arg5 (((cfg1.win 4).blk t).view.emb (ix1 j)) = _
  obtain ⟨-, -, -, -, -, e4_0, -⟩ := idx_facts t
  refine congrArg _ (funext fun a => Fin.ext ?_)
  match a with
  | ⟨0, _⟩ => show win1_4.index t (0 : Fin 1) * 128 + 1 * j.val = j.val; rw [e4_0]; omega

theorem blk5_apply (c : Dev nD) (t : Fin cfg1.N) (p j : Fin 128) :
    (iblk1 V c 5 t : Vec Ideal S128x128 .f32) (ix2 p j) = V c main_v21 (ix2 p j) := by
  unfold iblk1
  rw [View.read_apply]
  show V c main_v21 (((cfg1.win 5).blk t).view.emb (ix2 p j)) = _
  obtain ⟨-, -, -, -, -, -, e5_0, e5_1, -⟩ := idx_facts t
  refine congrArg _ (funext fun a => Fin.ext ?_)
  match a with
  | ⟨0, _⟩ => show win1_5.index t (0 : Fin 2) * 128 + 1 * p.val = p.val; rw [e5_0]; omega
  | ⟨1, _⟩ => show win1_5.index t (1 : Fin 2) * 128 + 1 * j.val = j.val; rw [e5_1]; omega

theorem blk6_apply (c : Dev nD) (t : Fin cfg1.N) (j : Fin 128) :
    (iblk1 V c 6 t : Vec Ideal S128 .f32) (ix1 j) = V c main_arg7 (ix1 j) := by
  unfold iblk1
  rw [View.read_apply]
  show V c main_arg7 (((cfg1.win 6).blk t).view.emb (ix1 j)) = _
  obtain ⟨-, -, -, -, -, -, -, -, e6_0, -⟩ := idx_facts t
  refine congrArg _ (funext fun a => Fin.ext ?_)
  match a with
  | ⟨0, _⟩ => show win1_6.index t (0 : Fin 1) * 128 + 1 * j.val = j.val; rw [e6_0]; omega

/-- What point t stores: its rows of Y. -/
theorem rows_at (c : Dev nD) (t : Fin cfg1.N) (q : Fin 5000) (j : Fin 128) :
    k1_pay5 (F := Ideal) (iblk1 V c 0 t) (iblk1 V c 1 t) (iblk1 V c 2 t) (iblk1 V c 3 t) (iblk1 V c 4 t) (iblk1 V c 5 t) (iblk1 V c 6 t) (ix2 q j) = Y V c (rowOf t q) j := by
  refine (Pay1.rows_apply (iblk1 V c 0 t) (iblk1 V c 1 t) (iblk1 V c 2 t) (iblk1 V c 3 t) (iblk1 V c 4 t) (iblk1 V c 5 t) (iblk1 V c 6 t) q j).trans ?_
  unfold Y lin relu bn mat sqm row
  refine congrArg₂ (· + ·) (Finset.sum_congr rfl fun k _ => ?_) (blk6_apply V c t j)
  rw [blk0_apply V c t q k, blk1_apply V c t k, blk2_apply V c t k, blk3_apply V c t k, blk4_apply V c t k, blk5_apply V c t k j]

/-- After point n the running vectors hold the column sums of Y and of Y² over the first 5000·(n+1) rows. -/
theorem sums_at (c : Dev nD) : ∀ (n : ℕ) (h : n < cfg1.N),
    (∀ j : Fin 128, (outsAt1 V c n h).2.1 (ix1 j) = ∑ i ∈ range (n * 5000 + 5000), ext0 (fun r => Y V c r j) i)
    ∧ (∀ j : Fin 128, (outsAt1 V c n h).2.2 (ix1 j)
        = ∑ i ∈ range (n * 5000 + 5000), ext0 (fun r => Y V c r j * Y V c r j) i)
  | 0, h => by
    have e := outsAt1_A V c ⟨0, h⟩ rfl
    have e4 : (outsAt1 V c 0 h).2.1 = k1_pay1 (k1_pay5 (F := Ideal) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩)) (k1_pay6 (k1_pay3 (F := Ideal))) :=
      (congrArg (fun p => p.2.1) e).trans (Pieces1.sum_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) ((hcond1_0 ⟨0, h⟩).mpr (Nat.zero_mod _)) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩))
    have e5 : (outsAt1 V c 0 h).2.2 = k1_pay2 (k1_pay5 (F := Ideal) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩)) (k1_pay4 (F := Ideal)) :=
      (congrArg (fun p => p.2.2) e).trans (Pieces1.sumsq_A c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) ((hcond1_0 ⟨0, h⟩).mpr (Nat.zero_mod _)) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩))
    constructor
    · intro j
      rw [e4]
      refine (Pay1.sum_apply (k1_pay5 (F := Ideal) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩)) (k1_pay3 (F := Ideal)) j).trans ?_
      rw [Pay1.reset3_apply, zero_add, sum_range_first_block]
      refine Finset.sum_congr rfl fun q _ => ?_
      rw [ext0_of_lt _ (by have := q.isLt; omega)]
      exact rows_at V c ⟨0, h⟩ q j
    · intro j
      rw [e5]
      refine (Pay1.sumsq_apply (k1_pay5 (F := Ideal) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩)) (k1_pay4 (F := Ideal)) j).trans ?_
      rw [Pay1.reset4_apply, zero_add, sum_range_first_block]
      refine Finset.sum_congr rfl fun q _ => ?_
      rw [ext0_of_lt _ (by have := q.isLt; omega)]
      exact congrArg₂ (· * ·) (rows_at V c ⟨0, h⟩ q j) (rows_at V c ⟨0, h⟩ q j)
  | n + 1, h => by
    have h10 : n + 1 < 10 := lt_of_lt_of_eq h (show cfg1.N = 10 from N_1)
    have hB : ¬(⟨n + 1, h⟩ : Fin cfg1.N).val % 10 = 0 := by dsimp only; omega
    have e := outsAt1_B V c ⟨n + 1, h⟩ hB
    obtain ⟨ih1, ih2⟩ := sums_at c n (Nat.lt_of_succ_lt h)
    have hs : n * 5000 + 5000 = (n + 1) * 5000 := (Nat.succ_mul n 5000).symm
    rw [hs] at ih1 ih2
    have e4 : (outsAt1 V c (n + 1) h).2.1
        = k1_pay1 (k1_pay5 (F := Ideal) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩)) (k1_pay6 (outsAt1 V c n (Nat.lt_of_succ_lt h)).2.1) :=
      (congrArg (fun p => p.2.1) e).trans (Pieces1.sum_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (outsAt1 V c n (Nat.lt_of_succ_lt h)).2.1 (outsAt1 V c n (Nat.lt_of_succ_lt h)).2.2)
    have e5 : (outsAt1 V c (n + 1) h).2.2
        = k1_pay2 (k1_pay5 (F := Ideal) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩)) (outsAt1 V c n (Nat.lt_of_succ_lt h)).2.2 :=
      (congrArg (fun p => p.2.2) e).trans (Pieces1.sumsq_B c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (outsAt1 V c n (Nat.lt_of_succ_lt h)).2.1 (outsAt1 V c n (Nat.lt_of_succ_lt h)).2.2)
    constructor
    · intro j
      rw [e4]
      refine (Pay1.sum_apply (k1_pay5 (F := Ideal) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩)) _ j).trans ?_
      rw [ih1 j, sum_range_add_block _ ((n + 1) * 5000) 5000]
      refine congrArg _ (Finset.sum_congr rfl fun q _ => ?_)
      rw [ext0_of_lt _ (by have := q.isLt; omega)]
      exact rows_at V c ⟨n + 1, h⟩ q j
    · intro j
      rw [e5]
      refine (Pay1.sumsq_apply (k1_pay5 (F := Ideal) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩)) _ j).trans ?_
      rw [ih2 j, sum_range_add_block _ ((n + 1) * 5000) 5000]
      refine congrArg _ (Finset.sum_congr rfl fun q _ => ?_)
      rw [ext0_of_lt _ (by have := q.isLt; omega)]
      exact congrArg₂ (· * ·) (rows_at V c ⟨n + 1, h⟩ q j) (rows_at V c ⟨n + 1, h⟩ q j)

/-! ## The arrays after the region -/

/-- What point t stores in the row window, read at a coordinate of its block, is the rows function at the array's row. -/
theorem stored_at (c : Dev nD) (t : Fin cfg1.N) (q : Fin 5000) (j : Fin 128) :
    k1_pay5 (F := Ideal) (iblk1 V c 0 t) (iblk1 V c 1 t) (iblk1 V c 2 t) (iblk1 V c 3 t) (iblk1 V c 4 t) (iblk1 V c 5 t) (iblk1 V c 6 t) (ix2 q j) = unmat (Y V c) (((cfg1.win 7).blk t).view.emb (ix2 q j)) := by
  refine (rows_at V c t q j).trans ?_
  obtain ⟨-, -, -, -, -, -, -, -, -, eo0, eo1, -⟩ := idx_facts t
  refine congrArg₂ (Y V c) (Fin.ext ?_) (Fin.ext ?_)
  · show t.val * 5000 + q.val = win1_7.index t (0 : Fin 2) * 5000 + 1 * q.val
    rw [eo0]; omega
  · show j.val = win1_7.index t (1 : Fin 2) * 128 + 1 * j.val
    rw [eo1]; omega

set_option maxHeartbeats 400000 in
/-- What point t writes back is block t of the rows Y: at either kind of point the stored block is the point's rows. -/
theorem flushed_rows (c : Dev nD) (t : Fin cfg1.N) :
    (dat1 V c).flushed 7 t = ((cfg1.win 7).blk t).view.read (Elt Ideal) (unmat (Y V c)) := by
  show (cfg1.win 7).cut (grid1.coords t) ((dat1 V c).after 7 t) = _
  rw [after1_7]
  by_cases h0 : t.val % 10 = 0
  · rw [outsAt1_A V c t h0]
    dsimp only
    rw [Pieces1.rows_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)]
    funext i
    obtain ⟨q, j, rfl⟩ : ∃ (q : Fin 5000) (j : Fin 128), i = ix2 q j := ⟨i 0, i 1, eq_ix2 i⟩
    exact stored_at V c t q j
  · rw [outsAt1_B V c t h0]
    dsimp only
    rw [Pieces1.rows_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun hh => h0 ((hcond1_0 t).mp hh)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le t.val 1) t.isLt)).2.1 (outsAt1 V c (t.val - 1) (Nat.lt_of_le_of_lt (Nat.sub_le t.val 1) t.isLt)).2.2]
    funext i
    obtain ⟨q, j, rfl⟩ : ∃ (q : Fin 5000) (j : Fin 128), i = ix2 q j := ⟨i 0, i 1, eq_ix2 i⟩
    exact stored_at V c t q j

/-- Every row lies in the block of the point that holds it. -/
theorem cover_rows (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  have ht : (i 0).val / 5000 < cfg1.N := by rw [hN]; omega
  refine ⟨⟨(i 0).val / 5000, ht⟩, flush1_7 _, ?_⟩
  obtain ⟨-, -, -, -, -, -, -, -, -, eo0, eo1, -⟩ := idx_facts ⟨(i 0).val / 5000, ht⟩
  show i ∈ ((View.whole main_v29_0).slice (win1_7.rect ⟨(i 0).val / 5000, ht⟩)).set
  rw [View.set_slice_whole, Rect.mem_set_unit]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    rw [eo1]; omega

/-- The row array ends at Y. -/
theorem final_rows (c : Dev nD) : (dat1 V c).arrAt 7 cfg1.N = unmat (Y V c) :=
  (dat1 V c).arrAt_eq_of_cover 7 (unmat (Y V c)) (fun t _ => flushed_rows V c t) cover_rows

/-- The running sum is written back once, after the last point, through the whole [128] array. -/
theorem flushed_sum (c : Dev nD) (t : Fin cfg1.N) (hf : (cfg1.win 8).flush t = true) :
    (dat1 V c).flushed 8 t = ((cfg1.win 8).blk t).view.read (Elt Ideal) (outsAt1 V c t1_9.val t1_9.isLt).2.1 := by
  have hN : cfg1.N = 10 := N_1
  have h9 : t.val = 9 := by have := (flush1_8 t).mp hf; have := t.isLt; omega
  obtain rfl : t = t1_9 := Fin.ext h9
  show (cfg1.win 8).cut (grid1.coords t1_9) ((dat1 V c).after 8 t1_9) = _
  rw [after1_8]
  have hz' : (fun a => win1_8.index t1_9 a * main_v29_1.ty.shape.size a) = fun _ => 0 :=
    funext fun a => by fin_cases a <;> decide +kernel
  exact (Memref.read_access_unit_zero (Elt Ideal) main_v29_1 hz' (fun a => by rw [congrFun hz' a]; simp) _).symm

theorem final_sum (c : Dev nD) : (dat1 V c).arrAt 8 cfg1.N = (outsAt1 V c t1_9.val t1_9.isLt).2.1 :=
  (dat1 V c).arrAt_eq_of_cover 8 _ (flushed_sum V c) fun i =>
    ⟨t1_9, (flush1_8 t1_9).mpr rfl, by
      show i ∈ ((View.whole main_v29_1).slice (win1_8.rect t1_9)).set
      rw [View.set_slice_whole, Rect.mem_set_unit]
      intro a
      have h0 : (i 0 : Nat) < 128 := (i 0).isLt
      match a with
      | ⟨0, _⟩ =>
        show win1_8.index t1_9 0 * win1_8.size 0 ≤ (i 0 : Nat)
          ∧ (i 0 : Nat) < win1_8.index t1_9 0 * win1_8.size 0 + win1_8.xsize (grid1.coords t1_9) 0
        rw [show win1_8.index t1_9 0 * win1_8.size 0 = 0 from by decide +kernel,
          show win1_8.xsize (grid1.coords t1_9) 0 = 128 from by decide +kernel]
        omega⟩

theorem flushed_sumsq (c : Dev nD) (t : Fin cfg1.N) (hf : (cfg1.win 9).flush t = true) :
    (dat1 V c).flushed 9 t = ((cfg1.win 9).blk t).view.read (Elt Ideal) (outsAt1 V c t1_9.val t1_9.isLt).2.2 := by
  have hN : cfg1.N = 10 := N_1
  have h9 : t.val = 9 := by have := (flush1_9 t).mp hf; have := t.isLt; omega
  obtain rfl : t = t1_9 := Fin.ext h9
  show (cfg1.win 9).cut (grid1.coords t1_9) ((dat1 V c).after 9 t1_9) = _
  rw [after1_9]
  have hz' : (fun a => win1_9.index t1_9 a * main_v29_2.ty.shape.size a) = fun _ => 0 :=
    funext fun a => by fin_cases a <;> decide +kernel
  exact (Memref.read_access_unit_zero (Elt Ideal) main_v29_2 hz' (fun a => by rw [congrFun hz' a]; simp) _).symm

theorem final_sumsq (c : Dev nD) : (dat1 V c).arrAt 9 cfg1.N = (outsAt1 V c t1_9.val t1_9.isLt).2.2 :=
  (dat1 V c).arrAt_eq_of_cover 9 _ (flushed_sumsq V c) fun i =>
    ⟨t1_9, (flush1_9 t1_9).mpr rfl, by
      show i ∈ ((View.whole main_v29_2).slice (win1_9.rect t1_9)).set
      rw [View.set_slice_whole, Rect.mem_set_unit]
      intro a
      have h0 : (i 0 : Nat) < 128 := (i 0).isLt
      match a with
      | ⟨0, _⟩ =>
        show win1_9.index t1_9 0 * win1_9.size 0 ≤ (i 0 : Nat)
          ∧ (i 0 : Nat) < win1_9.index t1_9 0 * win1_9.size 0 + win1_9.xsize (grid1.coords t1_9) 0
        rw [show win1_9.index t1_9 0 * win1_9.size 0 = 0 from by decide +kernel,
          show win1_9.xsize (grid1.coords t1_9) 0 = 128 from by decide +kernel]
        omega⟩

/-- The three arrays after the region, in the network's terms. -/
theorem rows_eq (c : Dev nD) : mat ((dat1 V c).arrAt 7 cfg1.N) = Y V c := by
  rw [final_rows]; rfl

theorem sum_eq (c : Dev nD) : row ((dat1 V c).arrAt 8 cfg1.N) = fun j => ∑ r : Fin 50000, Y V c r j := by
  funext j
  show (dat1 V c).arrAt 8 cfg1.N (ix1 j) = _
  rw [final_sum]
  exact ((sums_at V c 9 t1_9.isLt).1 j).trans (sum_ext0 _)

theorem sumsq_eq (c : Dev nD) :
    row ((dat1 V c).arrAt 9 cfg1.N) = fun j => ∑ r : Fin 50000, Y V c r j * Y V c r j := by
  funext j
  show (dat1 V c).arrAt 9 cfg1.N (ix1 j) = _
  rw [final_sumsq]
  exact ((sums_at V c 9 t1_9.isLt).2 j).trans (sum_ext0 _)

end Cert.KernelIdeal.Reg1

end
-- ==== Proof.Pieces2.lean ====
/-
  What the third kernel's body leaves in its three output buffers, read back as values. At the first grid point the
  two running vectors are reset to zero and then gain the point's column sums; at every later point they gain the
  point's column sums over what the point before left. The stored block of rows is the same function of the point's
  input blocks in both cases. Each buffer is written by stores through its whole rectangle, so reading the covering
  stores back gives the last store's value, whose loads read the whole input buffers (and, at the first point, the
  zero just stored).
-/
import proofs.«114590_j23673859736036_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem Idealize.ShloMosaic.ValueIdx
open scoped BigOperators

open Idealize.ShloMosaic.Tactic

namespace Cert.KernelIdeal.Pieces2

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- First point: the stored rows. -/
theorem rows_A (c : Dev nD) (i : grid2.Coords) (a1 : Memref sig .tc .vmem S5000x128 .f32) (h1 : a1.IsWhole) (a2 : Memref sig .tc .vmem S128 .f32) (h2 : a2.IsWhole) (a3 : Memref sig .tc .vmem S128 .f32) (h3 : a3.IsWhole) (a4 : Memref sig .tc .vmem S128 .f32) (h4 : a4.IsWhole) (a5 : Memref sig .tc .vmem S128 .f32) (h5 : a5.IsWhole) (a6 : Memref sig .tc .vmem S5000x128 .f32) (h6 : a6.IsWhole) (a7 : Memref sig .tc .vmem S128 .f32) (h7 : a7.IsWhole) (a8 : Memref sig .tc .vmem S128 .f32) (h8 : a8.IsWhole) (hc : cond2_0 i) (x0 : Vec F S5000x128 .f32) (x1 : Vec F S128 .f32) (x2 : Vec F S128 .f32) (x3 : Vec F S128 .f32) (x4 : Vec F S128 .f32) :
    out2_A_5 c i a1 h1 a2 h2 a3 h3 a4 h4 a5 h5 a6 h6 a7 h7 a8 h8 hc x0 x1 x2 x3 x4 = k2_pay3 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero hz2]
  simp only [View.readAt_eq_ld, h1.read_unread, h2.read_unread, h3.read_unread, h4.read_unread, h5.read_unread, h7.read_unread, h8.read_unread, View.ld_unit_zero (S := S5000x128) hz2, View.ld_unit_zero (S := S128x128) hz2, View.ld_unit_zero (S := S128) hz1]

/-- Later points: the stored rows. -/
theorem rows_B (c : Dev nD) (i : grid2.Coords) (a1 : Memref sig .tc .vmem S5000x128 .f32) (h1 : a1.IsWhole) (a2 : Memref sig .tc .vmem S128 .f32) (h2 : a2.IsWhole) (a3 : Memref sig .tc .vmem S128 .f32) (h3 : a3.IsWhole) (a4 : Memref sig .tc .vmem S128 .f32) (h4 : a4.IsWhole) (a5 : Memref sig .tc .vmem S128 .f32) (h5 : a5.IsWhole) (a6 : Memref sig .tc .vmem S5000x128 .f32) (h6 : a6.IsWhole) (a7 : Memref sig .tc .vmem S128 .f32) (h7 : a7.IsWhole) (a8 : Memref sig .tc .vmem S128 .f32) (h8 : a8.IsWhole) (hc : ¬cond2_0 i) (x0 : Vec F S5000x128 .f32) (x1 : Vec F S128 .f32) (x2 : Vec F S128 .f32) (x3 : Vec F S128 .f32) (x4 : Vec F S128 .f32) (xo6 xo7 : Vec F S128 .f32) :
    out2_B_5 c i a1 h1 a2 h2 a3 h3 a4 h4 a5 h5 a6 h6 a7 h7 a8 h8 hc x0 x1 x2 x3 x4 xo6 xo7 = k2_pay3 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  sl_unfold_words
  rw [View.canon_unit_zero hz2]
  simp only [View.readAt_eq_ld, h1.read_unread, h2.read_unread, h3.read_unread, h4.read_unread, h5.read_unread, h7.read_unread, h8.read_unread, View.ld_unit_zero (S := S5000x128) hz2, View.ld_unit_zero (S := S128x128) hz2, View.ld_unit_zero (S := S128) hz1]

/-- First point: the running sum, from the zero just stored. -/
theorem sum_A (c : Dev nD) (i : grid2.Coords) (a1 : Memref sig .tc .vmem S5000x128 .f32) (h1 : a1.IsWhole) (a2 : Memref sig .tc .vmem S128 .f32) (h2 : a2.IsWhole) (a3 : Memref sig .tc .vmem S128 .f32) (h3 : a3.IsWhole) (a4 : Memref sig .tc .vmem S128 .f32) (h4 : a4.IsWhole) (a5 : Memref sig .tc .vmem S128 .f32) (h5 : a5.IsWhole) (a6 : Memref sig .tc .vmem S5000x128 .f32) (h6 : a6.IsWhole) (a7 : Memref sig .tc .vmem S128 .f32) (h7 : a7.IsWhole) (a8 : Memref sig .tc .vmem S128 .f32) (h8 : a8.IsWhole) (hc : cond2_0 i) (x0 : Vec F S5000x128 .f32) (x1 : Vec F S128 .f32) (x2 : Vec F S128 .f32) (x3 : Vec F S128 .f32) (x4 : Vec F S128 .f32) :
    out2_A_6 c i a1 h1 a2 h2 a3 h3 a4 h4 a5 h5 a6 h6 a7 h7 a8 h8 hc x0 x1 x2 x3 x4 = k2_pay4 x0 x1 x2 x3 x4 (k2_pay1 ) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, h7.read_unread, h8.read_unread, View.ld_unit_zero (S := S5000x128) hz2, View.ld_unit_zero (S := S128x128) hz2, View.ld_unit_zero (S := S128) hz1]

/-- Later points: the running sum, from what the point before left. -/
theorem sum_B (c : Dev nD) (i : grid2.Coords) (a1 : Memref sig .tc .vmem S5000x128 .f32) (h1 : a1.IsWhole) (a2 : Memref sig .tc .vmem S128 .f32) (h2 : a2.IsWhole) (a3 : Memref sig .tc .vmem S128 .f32) (h3 : a3.IsWhole) (a4 : Memref sig .tc .vmem S128 .f32) (h4 : a4.IsWhole) (a5 : Memref sig .tc .vmem S128 .f32) (h5 : a5.IsWhole) (a6 : Memref sig .tc .vmem S5000x128 .f32) (h6 : a6.IsWhole) (a7 : Memref sig .tc .vmem S128 .f32) (h7 : a7.IsWhole) (a8 : Memref sig .tc .vmem S128 .f32) (h8 : a8.IsWhole) (hc : ¬cond2_0 i) (x0 : Vec F S5000x128 .f32) (x1 : Vec F S128 .f32) (x2 : Vec F S128 .f32) (x3 : Vec F S128 .f32) (x4 : Vec F S128 .f32) (xo6 xo7 : Vec F S128 .f32) :
    out2_B_6 c i a1 h1 a2 h2 a3 h3 a4 h4 a5 h5 a6 h6 a7 h7 a8 h8 hc x0 x1 x2 x3 x4 xo6 xo7 = k2_pay4 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  sl_unfold_words
  rw [View.canon_unit_zero hz1]
  simp only [View.readAt_eq_ld, h1.read_unread, h2.read_unread, h3.read_unread, h4.read_unread, h5.read_unread, h7.read_unread, h8.read_unread, View.ld_unit_zero (S := S5000x128) hz2, View.ld_unit_zero (S := S128x128) hz2, View.ld_unit_zero (S := S128) hz1]

/-- First point: the running sum of squares, from the zero just stored. -/
theorem sumsq_A (c : Dev nD) (i : grid2.Coords) (a1 : Memref sig .tc .vmem S5000x128 .f32) (h1 : a1.IsWhole) (a2 : Memref sig .tc .vmem S128 .f32) (h2 : a2.IsWhole) (a3 : Memref sig .tc .vmem S128 .f32) (h3 : a3.IsWhole) (a4 : Memref sig .tc .vmem S128 .f32) (h4 : a4.IsWhole) (a5 : Memref sig .tc .vmem S128 .f32) (h5 : a5.IsWhole) (a6 : Memref sig .tc .vmem S5000x128 .f32) (h6 : a6.IsWhole) (a7 : Memref sig .tc .vmem S128 .f32) (h7 : a7.IsWhole) (a8 : Memref sig .tc .vmem S128 .f32) (h8 : a8.IsWhole) (hc : cond2_0 i) (x0 : Vec F S5000x128 .f32) (x1 : Vec F S128 .f32) (x2 : Vec F S128 .f32) (x3 : Vec F S128 .f32) (x4 : Vec F S128 .f32) :
    out2_A_7 c i a1 h1 a2 h2 a3 h3 a4 h4 a5 h5 a6 h6 a7 h7 a8 h8 hc x0 x1 x2 x3 x4 = k2_pay5 x0 x1 x2 x3 x4 (k2_pay2 ) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S128) hz1, View.readCov_unit_zero (S := S128) _ hz1]
  simp only [View.readAt_eq_ld, h1.read_unread, h2.read_unread, h3.read_unread, h4.read_unread, h5.read_unread, h7.read_unread, h8.read_unread, View.ld_unit_zero (S := S5000x128) hz2, View.ld_unit_zero (S := S128x128) hz2, View.ld_unit_zero (S := S128) hz1]

/-- Later points: the running sum of squares, from what the point before left. -/
theorem sumsq_B (c : Dev nD) (i : grid2.Coords) (a1 : Memref sig .tc .vmem S5000x128 .f32) (h1 : a1.IsWhole) (a2 : Memref sig .tc .vmem S128 .f32) (h2 : a2.IsWhole) (a3 : Memref sig .tc .vmem S128 .f32) (h3 : a3.IsWhole) (a4 : Memref sig .tc .vmem S128 .f32) (h4 : a4.IsWhole) (a5 : Memref sig .tc .vmem S128 .f32) (h5 : a5.IsWhole) (a6 : Memref sig .tc .vmem S5000x128 .f32) (h6 : a6.IsWhole) (a7 : Memref sig .tc .vmem S128 .f32) (h7 : a7.IsWhole) (a8 : Memref sig .tc .vmem S128 .f32) (h8 : a8.IsWhole) (hc : ¬cond2_0 i) (x0 : Vec F S5000x128 .f32) (x1 : Vec F S128 .f32) (x2 : Vec F S128 .f32) (x3 : Vec F S128 .f32) (x4 : Vec F S128 .f32) (xo6 xo7 : Vec F S128 .f32) :
    out2_B_7 c i a1 h1 a2 h2 a3 h3 a4 h4 a5 h5 a6 h6 a7 h7 a8 h8 hc x0 x1 x2 x3 x4 xo6 xo7 = k2_pay5 x0 x1 x2 x3 x4 xo7 := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz1]
  simp only [View.readAt_eq_ld, h1.read_unread, h2.read_unread, h3.read_unread, h4.read_unread, h5.read_unread, h7.read_unread, h8.read_unread, View.ld_unit_zero (S := S5000x128) hz2, View.ld_unit_zero (S := S128x128) hz2, View.ld_unit_zero (S := S128) hz1]

end Cert.KernelIdeal.Pieces2

end
-- ==== Proof.Pay2.lean ====
/-
  The third kernel's arithmetic at an index. A point of its grid holds 5000 rows x of the second dense layer's result
  and four rows: the column means mu, the column variances var, the scale g and the shift be. It stores the rows
  a = max ((x − mu) · rsqrt (var + eps) · g + be, 0): each row vector is laid under every one of the 5000 rows, so at
  (q, c) it reads its entry c; the offset eps is the same constant in every column; a cast of an array to its own shape
  changes nothing. Its two running vectors gain, per column c, the sum over the 5000 rows of a (q, c) and of a (q, c)².
-/
import proofs.«114590_j23673859736036_2_alg».proof.Proof.Gen.KernelIdeal.Skeleton
import proofs.«114590_j23673859736036_2_alg».proof.Proof.LibDot
import proofs.«114590_j23673859736036_2_alg».proof.Proof.LibColReduce
import proofs.«114590_j23673859736036_2_alg».proof.Proof.LibRowwise
import proofs.«114590_j23673859736036_2_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.KernelIdeal.Pay2

open Cert.KernelIdeal Cert.KernelIdeal.Gen

/-- The stored block: the normalised rows, cut off below at zero. -/
theorem rows_apply (x : Vec Ideal S5000x128 .f32) (mu var g be : Vec Ideal S128 .f32) (q : Fin 5000) (c : Fin 128) :
    k2_pay3 (F := Ideal) x mu var g be (ix2 q c)
      = max ((x (ix2 q c) - mu (ix1 c)) * Ideal.rsqrt (var (ix1 c) + Cert.Net.eps) * g (ix1 c) + be (ix1 c)) 0 := by
  unfold k2_pay3
  refine (maximumf_apply _ _ (ix2 q c)).trans ?_
  refine congrArg₂ max ?_ Ideal.ofBits_zero_f32
  refine (addf_apply _ _ (ix2 q c)).trans ?_
  refine congrArg₂ (· + ·) ?_
    (Cert.LibRowwise.rowUnder_apply be shapeCasts_S128_S1x128 broadcasts_S1x128_S5000x128 q c)
  refine (mulf_apply _ _ (ix2 q c)).trans ?_
  refine congrArg₂ (· * ·) ?_
    (Cert.LibRowwise.rowUnder_apply g shapeCasts_S128_S1x128 broadcasts_S1x128_S5000x128 q c)
  refine (mulf_apply _ _ (ix2 q c)).trans ?_
  refine congrArg₂ (· * ·) ?_ ?_
  · refine (subf_apply _ _ (ix2 q c)).trans ?_
    refine congrArg₂ (· - ·) ?_ ?_
    · rw [shapeCast_self]
    · refine (Cert.LibRowwise.rowUnder_apply _ shapeCasts_S128_S1x128 broadcasts_S1x128_S5000x128 q c).trans ?_
      rw [shapeCast_self]
  · refine (Cert.LibRowwise.rowUnder_apply _ shapeCasts_S128_S1x128 broadcasts_S1x128_S5000x128 q c).trans ?_
    rw [shapeCast_self]
    rfl

/-- The zero the running vectors are reset to. -/
theorem reset1_apply (c : Fin 128) : k2_pay1 (F := Ideal) (ix1 c) = 0 := Ideal.ofBits_zero_f32
theorem reset2_apply (c : Fin 128) : k2_pay2 (F := Ideal) (ix1 c) = 0 := Ideal.ofBits_zero_f32

/-- The running sum gains the column sums of the stored block. -/
theorem sum_apply (x : Vec Ideal S5000x128 .f32) (mu var g be : Vec Ideal S128 .f32) (acc : Vec Ideal S128 .f32)
    (c : Fin 128) :
    k2_pay4 (F := Ideal) x mu var g be acc (ix1 c)
      = acc (ix1 c) + ∑ q : Fin 5000, k2_pay3 (F := Ideal) x mu var g be (ix2 q c) := by
  unfold k2_pay4
  refine (addf_apply _ _ (ix1 c)).trans ?_
  refine congrArg₂ (· + ·) ?_ ?_
  · rw [shapeCast_self]
  · exact Cert.LibColReduce.multiReduction_add_col (k2_pay3 (F := Ideal) x mu var g be) _ reduces_S5000x128_S128 _ _ c

/-- The running sum of squares gains the column sums of the squares of the stored block. -/
theorem sumsq_apply (x : Vec Ideal S5000x128 .f32) (mu var g be : Vec Ideal S128 .f32) (acc : Vec Ideal S128 .f32)
    (c : Fin 128) :
    k2_pay5 (F := Ideal) x mu var g be acc (ix1 c)
      = acc (ix1 c) + ∑ q : Fin 5000,
          k2_pay3 (F := Ideal) x mu var g be (ix2 q c) * k2_pay3 (F := Ideal) x mu var g be (ix2 q c) := by
  unfold k2_pay5
  refine (addf_apply _ _ (ix1 c)).trans ?_
  refine congrArg₂ (· + ·) ?_ ?_
  · rw [shapeCast_self]
  · exact Cert.LibColReduce.multiReduction_add_col
      (mulf (k2_pay3 (F := Ideal) x mu var g be) (k2_pay3 (F := Ideal) x mu var g be)) _ reduces_S5000x128_S128 _ _ c

end Cert.KernelIdeal.Pay2

end
-- ==== Proof.Reg2.lean ====
/-
  The third kernel region as values. Point t holds rows 5000·t … 5000·t + 4999 of the second layer's output z (and, at
  every point, the whole statistics, scale and shift) and writes the same rows of a = max (normalised z, 0), so the row
  array ends at a. The two running vectors are reset at point 0, gain the point's column sums of a and of a² at every
  point and are written back once, after point 9: by induction over the points they hold, after point n, the sums over
  the first 5000·(n + 1) rows, hence at the end over all 50000 rows.
-/
import proofs.«114590_j23673859736036_2_alg».proof.Proof.Gen.KernelIdeal.Frame
import proofs.«114590_j23673859736036_2_alg».proof.Proof.Pieces2
import proofs.«114590_j23673859736036_2_alg».proof.Proof.Pay2
import proofs.«114590_j23673859736036_2_alg».proof.Proof.Mats
import proofs.«114590_j23673859736036_2_alg».proof.Proof.LibAccSum
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open scoped BigOperators

open Idealize.ShloMosaic.Pipeline (Dat)

namespace Cert.KernelIdeal.Reg2

open Cert.KernelIdeal Cert.KernelIdeal.Gen Cert.Net Cert.AccSum Finset

variable (V : (c : Dev nD) → (b : Ref sig .tc) → Buf (Elt Ideal) ((c : Thread nD τ).loc b))

/-- The rows the region computes, as a function of the arrays it finds. -/
def Y (c : Dev nD) : Mat := relu (bn (mat (V c main_v29_0)) (row (V c main_v31)) (row (V c main_v35)) (row (V c main_arg8)) (row (V c main_arg9)))

/-- The printed index maps over the grid: the row windows move with the point, the others stay. -/
theorem idx_facts : ∀ t : Fin cfg2.N, win2_0.index t (0 : Fin 2) = t.val
    ∧ win2_0.index t (1 : Fin 2) = 0
    ∧ win2_1.index t (0 : Fin 1) = 0
    ∧ win2_2.index t (0 : Fin 1) = 0
    ∧ win2_3.index t (0 : Fin 1) = 0
    ∧ win2_4.index t (0 : Fin 1) = 0
    ∧ win2_5.index t (0 : Fin 2) = t.val
    ∧ win2_5.index t (1 : Fin 2) = 0
    ∧ win2_6.index t (0 : Fin 1) = 0
    ∧ win2_7.index t (0 : Fin 1) = 0 :=
  (by decide +kernel : ∀ t : Fin grid2.N, _)

/-- Row q of point t's block is row 5000·t + q of the array. -/
def rowOf (t : Fin cfg2.N) (q : Fin 5000) : Fin 50000 :=
  ⟨t.val * 5000 + q.val, by have := lt_of_lt_of_eq t.isLt (show cfg2.N = 10 from N_2); have := q.isLt; omega⟩

theorem blk0_apply (c : Dev nD) (t : Fin cfg2.N) (q : Fin 5000) (j : Fin 128) :
    (iblk2 V c 0 t : Vec Ideal S5000x128 .f32) (ix2 q j) = V c main_v29_0 (ix2 (rowOf t q) j) := by
  unfold iblk2
  rw [View.read_apply]
  show V c main_v29_0 (((cfg2.win 0).blk t).view.emb (ix2 q j)) = _
  obtain ⟨e0_0, e0_1, -⟩ := idx_facts t
  refine congrArg _ (funext fun a => Fin.ext ?_)
  match a with
  | ⟨0, _⟩ => show win2_0.index t (0 : Fin 2) * 5000 + 1 * q.val = t.val * 5000 + q.val; rw [e0_0]; omega
  | ⟨1, _⟩ => show win2_0.index t (1 : Fin 2) * 128 + 1 * j.val = j.val; rw [e0_1]; omega

theorem blk1_apply (c : Dev nD) (t : Fin cfg2.N) (j : Fin 128) :
    (iblk2 V c 1 t : Vec Ideal S128 .f32) (ix1 j) = V c main_v31 (ix1 j) := by
  unfold iblk2
  rw [View.read_apply]
  show V c main_v31 (((cfg2.win 1).blk t).view.emb (ix1 j)) = _
  obtain ⟨-, -, e1_0, -⟩ := idx_facts t
  refine congrArg _ (funext fun a => Fin.ext ?_)
  match a with
  | ⟨0, _⟩ => show win2_1.index t (0 : Fin 1) * 128 + 1 * j.val = j.val; rw [e1_0]; omega

theorem blk2_apply (c : Dev nD) (t : Fin cfg2.N) (j : Fin 128) :
    (iblk2 V c 2 t : Vec Ideal S128 .f32) (ix1 j) = V c main_v35 (ix1 j) := by
  unfold iblk2
  rw [View.read_apply]
  show V c main_v35 (((cfg2.win 2).blk t).view.emb (ix1 j)) = _
  obtain ⟨-, -, -, e2_0, -⟩ := idx_facts t
  refine congrArg _ (funext fun a => Fin.ext ?_)
  match a with
  | ⟨0, _⟩ => show win2_2.index t (0 : Fin 1) * 128 + 1 * j.val = j.val; rw [e2_0]; omega

theorem blk3_apply (c : Dev nD) (t : Fin cfg2.N) (j : Fin 128) :
    (iblk2 V c 3 t : Vec Ideal S128 .f32) (ix1 j) = V c main_arg8 (ix1 j) := by
  unfold iblk2
  rw [View.read_apply]
  show V c main_arg8 (((cfg2.win 3).blk t).view.emb (ix1 j)) = _
  obtain ⟨-, -, -, -, e3_0, -⟩ := idx_facts t
  refine congrArg _ (funext fun a => Fin.ext ?_)
  match a with
  | ⟨0, _⟩ => show win2_3.index t (0 : Fin 1) * 128 + 1 * j.val = j.val; rw [e3_0]; omega

theorem blk4_apply (c : Dev nD) (t : Fin cfg2.N) (j : Fin 128) :
    (iblk2 V c 4 t : Vec Ideal S128 .f32) (ix1 j) = V c main_arg9 (ix1 j) := by
  unfold iblk2
  rw [View.read_apply]
  show V c main_arg9 (((cfg2.win 4).blk t).view.emb (ix1 j)) = _
  obtain ⟨-, -, -, -, -, e4_0, -⟩ := idx_facts t
  refine congrArg _ (funext fun a => Fin.ext ?_)
  match a with
  | ⟨0, _⟩ => show win2_4.index t (0 : Fin 1) * 128 + 1 * j.val = j.val; rw [e4_0]; omega

/-- What point t stores: its rows of Y. -/
theorem rows_at (c : Dev nD) (t : Fin cfg2.N) (q : Fin 5000) (j : Fin 128) :
    k2_pay3 (F := Ideal) (iblk2 V c 0 t) (iblk2 V c 1 t) (iblk2 V c 2 t) (iblk2 V c 3 t) (iblk2 V c 4 t) (ix2 q j) = Y V c (rowOf t q) j := by
  refine (Pay2.rows_apply (iblk2 V c 0 t) (iblk2 V c 1 t) (iblk2 V c 2 t) (iblk2 V c 3 t) (iblk2 V c 4 t) q j).trans ?_
  unfold Y relu bn mat row
  rw [blk0_apply V c t q j, blk1_apply V c t j, blk2_apply V c t j, blk3_apply V c t j, blk4_apply V c t j]

/-- After point n the running vectors hold the column sums of Y and of Y² over the first 5000·(n+1) rows. -/
theorem sums_at (c : Dev nD) : ∀ (n : ℕ) (h : n < cfg2.N),
    (∀ j : Fin 128, (outsAt2 V c n h).2.1 (ix1 j) = ∑ i ∈ range (n * 5000 + 5000), ext0 (fun r => Y V c r j) i)
    ∧ (∀ j : Fin 128, (outsAt2 V c n h).2.2 (ix1 j)
        = ∑ i ∈ range (n * 5000 + 5000), ext0 (fun r => Y V c r j * Y V c r j) i)
  | 0, h => by
    have e := outsAt2_A V c ⟨0, h⟩ rfl
    have e4 : (outsAt2 V c 0 h).2.1 = k2_pay4 (iblk2 V c 0 ⟨0, h⟩) (iblk2 V c 1 ⟨0, h⟩) (iblk2 V c 2 ⟨0, h⟩) (iblk2 V c 3 ⟨0, h⟩) (iblk2 V c 4 ⟨0, h⟩) (k2_pay1 (F := Ideal)) :=
      (congrArg (fun p => p.2.1) e).trans (Pieces2.sum_A c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr (Nat.zero_mod _)) (iblk2 V c 0 ⟨0, h⟩) (iblk2 V c 1 ⟨0, h⟩) (iblk2 V c 2 ⟨0, h⟩) (iblk2 V c 3 ⟨0, h⟩) (iblk2 V c 4 ⟨0, h⟩))
    have e5 : (outsAt2 V c 0 h).2.2 = k2_pay5 (iblk2 V c 0 ⟨0, h⟩) (iblk2 V c 1 ⟨0, h⟩) (iblk2 V c 2 ⟨0, h⟩) (iblk2 V c 3 ⟨0, h⟩) (iblk2 V c 4 ⟨0, h⟩) (k2_pay2 (F := Ideal)) :=
      (congrArg (fun p => p.2.2) e).trans (Pieces2.sumsq_A c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr (Nat.zero_mod _)) (iblk2 V c 0 ⟨0, h⟩) (iblk2 V c 1 ⟨0, h⟩) (iblk2 V c 2 ⟨0, h⟩) (iblk2 V c 3 ⟨0, h⟩) (iblk2 V c 4 ⟨0, h⟩))
    constructor
    · intro j
      rw [e4]
      refine (Pay2.sum_apply (iblk2 V c 0 ⟨0, h⟩) (iblk2 V c 1 ⟨0, h⟩) (iblk2 V c 2 ⟨0, h⟩) (iblk2 V c 3 ⟨0, h⟩) (iblk2 V c 4 ⟨0, h⟩) (k2_pay1 (F := Ideal)) j).trans ?_
      rw [Pay2.reset1_apply, zero_add, sum_range_first_block]
      refine Finset.sum_congr rfl fun q _ => ?_
      rw [ext0_of_lt _ (by have := q.isLt; omega)]
      exact rows_at V c ⟨0, h⟩ q j
    · intro j
      rw [e5]
      refine (Pay2.sumsq_apply (iblk2 V c 0 ⟨0, h⟩) (iblk2 V c 1 ⟨0, h⟩) (iblk2 V c 2 ⟨0, h⟩) (iblk2 V c 3 ⟨0, h⟩) (iblk2 V c 4 ⟨0, h⟩) (k2_pay2 (F := Ideal)) j).trans ?_
      rw [Pay2.reset2_apply, zero_add, sum_range_first_block]
      refine Finset.sum_congr rfl fun q _ => ?_
      rw [ext0_of_lt _ (by have := q.isLt; omega)]
      exact congrArg₂ (· * ·) (rows_at V c ⟨0, h⟩ q j) (rows_at V c ⟨0, h⟩ q j)
  | n + 1, h => by
    have h10 : n + 1 < 10 := lt_of_lt_of_eq h (show cfg2.N = 10 from N_2)
    have hB : ¬(⟨n + 1, h⟩ : Fin cfg2.N).val % 10 = 0 := by dsimp only; omega
    have e := outsAt2_B V c ⟨n + 1, h⟩ hB
    obtain ⟨ih1, ih2⟩ := sums_at c n (Nat.lt_of_succ_lt h)
    have hs : n * 5000 + 5000 = (n + 1) * 5000 := (Nat.succ_mul n 5000).symm
    rw [hs] at ih1 ih2
    have e4 : (outsAt2 V c (n + 1) h).2.1
        = k2_pay4 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c n (Nat.lt_of_succ_lt h)).2.1 :=
      (congrArg (fun p => p.2.1) e).trans (Pieces2.sum_B c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c n (Nat.lt_of_succ_lt h)).2.1 (outsAt2 V c n (Nat.lt_of_succ_lt h)).2.2)
    have e5 : (outsAt2 V c (n + 1) h).2.2
        = k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c n (Nat.lt_of_succ_lt h)).2.2 :=
      (congrArg (fun p => p.2.2) e).trans (Pieces2.sumsq_B c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hh => hB ((hcond2_0 ⟨n + 1, h⟩).mp hh)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (outsAt2 V c n (Nat.lt_of_succ_lt h)).2.1 (outsAt2 V c n (Nat.lt_of_succ_lt h)).2.2)
    constructor
    · intro j
      rw [e4]
      refine (Pay2.sum_apply (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ j).trans ?_
      rw [ih1 j, sum_range_add_block _ ((n + 1) * 5000) 5000]
      refine congrArg _ (Finset.sum_congr rfl fun q _ => ?_)
      rw [ext0_of_lt _ (by have := q.isLt; omega)]
      exact rows_at V c ⟨n + 1, h⟩ q j
    · intro j
      rw [e5]
      refine (Pay2.sumsq_apply (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ j).trans ?_
      rw [ih2 j, sum_range_add_block _ ((n + 1) * 5000) 5000]
      refine congrArg _ (Finset.sum_congr rfl fun q _ => ?_)
      rw [ext0_of_lt _ (by have := q.isLt; omega)]
      exact congrArg₂ (· * ·) (rows_at V c ⟨n + 1, h⟩ q j) (rows_at V c ⟨n + 1, h⟩ q j)

/-! ## The arrays after the region -/

/-- What point t stores in the row window, read at a coordinate of its block, is the rows function at the array's row. -/
theorem stored_at (c : Dev nD) (t : Fin cfg2.N) (q : Fin 5000) (j : Fin 128) :
    k2_pay3 (F := Ideal) (iblk2 V c 0 t) (iblk2 V c 1 t) (iblk2 V c 2 t) (iblk2 V c 3 t) (iblk2 V c 4 t) (ix2 q j) = unmat (Y V c) (((cfg2.win 5).blk t).view.emb (ix2 q j)) := by
  refine (rows_at V c t q j).trans ?_
  obtain ⟨-, -, -, -, -, -, eo0, eo1, -⟩ := idx_facts t
  refine congrArg₂ (Y V c) (Fin.ext ?_) (Fin.ext ?_)
  · show t.val * 5000 + q.val = win2_5.index t (0 : Fin 2) * 5000 + 1 * q.val
    rw [eo0]; omega
  · show j.val = win2_5.index t (1 : Fin 2) * 128 + 1 * j.val
    rw [eo1]; omega

set_option maxHeartbeats 400000 in
/-- What point t writes back is block t of the rows Y: at either kind of point the stored block is the point's rows. -/
theorem flushed_rows (c : Dev nD) (t : Fin cfg2.N) :
    (dat2 V c).flushed 5 t = ((cfg2.win 5).blk t).view.read (Elt Ideal) (unmat (Y V c)) := by
  show (cfg2.win 5).cut (grid2.coords t) ((dat2 V c).after 5 t) = _
  rw [after2_5]
  by_cases h0 : t.val % 10 = 0
  · rw [outsAt2_A V c t h0]
    dsimp only
    rw [Pieces2.rows_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)]
    funext i
    obtain ⟨q, j, rfl⟩ : ∃ (q : Fin 5000) (j : Fin 128), i = ix2 q j := ⟨i 0, i 1, eq_ix2 i⟩
    exact stored_at V c t q j
  · rw [outsAt2_B V c t h0]
    dsimp only
    rw [Pieces2.rows_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun hh => h0 ((hcond2_0 t).mp hh)) (iblk2 V c 0 t) (iblk2 V c 1 t) (iblk2 V c 2 t) (iblk2 V c 3 t) (iblk2 V c 4 t) (outsAt2 V c (t.val - 1) (Nat.lt_of_le_of_lt (Nat.sub_le t.val 1) t.isLt)).2.1 (outsAt2 V c (t.val - 1) (Nat.lt_of_le_of_lt (Nat.sub_le t.val 1) t.isLt)).2.2]
    funext i
    obtain ⟨q, j, rfl⟩ : ∃ (q : Fin 5000) (j : Fin 128), i = ix2 q j := ⟨i 0, i 1, eq_ix2 i⟩
    exact stored_at V c t q j

/-- Every row lies in the block of the point that holds it. -/
theorem cover_rows (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have ht : (i 0).val / 5000 < cfg2.N := by rw [hN]; omega
  refine ⟨⟨(i 0).val / 5000, ht⟩, flush2_5 _, ?_⟩
  obtain ⟨-, -, -, -, -, -, eo0, eo1, -⟩ := idx_facts ⟨(i 0).val / 5000, ht⟩
  show i ∈ ((View.whole main_v36_0).slice (win2_5.rect ⟨(i 0).val / 5000, ht⟩)).set
  rw [View.set_slice_whole, Rect.mem_set_unit]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [eo1]; omega

/-- The row array ends at Y. -/
theorem final_rows (c : Dev nD) : (dat2 V c).arrAt 5 cfg2.N = unmat (Y V c) :=
  (dat2 V c).arrAt_eq_of_cover 5 (unmat (Y V c)) (fun t _ => flushed_rows V c t) cover_rows

/-- The running sum is written back once, after the last point, through the whole [128] array. -/
theorem flushed_sum (c : Dev nD) (t : Fin cfg2.N) (hf : (cfg2.win 6).flush t = true) :
    (dat2 V c).flushed 6 t = ((cfg2.win 6).blk t).view.read (Elt Ideal) (outsAt2 V c t2_9.val t2_9.isLt).2.1 := by
  have hN : cfg2.N = 10 := N_2
  have h9 : t.val = 9 := by have := (flush2_6 t).mp hf; have := t.isLt; omega
  obtain rfl : t = t2_9 := Fin.ext h9
  show (cfg2.win 6).cut (grid2.coords t2_9) ((dat2 V c).after 6 t2_9) = _
  rw [after2_6]
  have hz' : (fun a => win2_6.index t2_9 a * main_v36_1.ty.shape.size a) = fun _ => 0 :=
    funext fun a => by fin_cases a <;> decide +kernel
  exact (Memref.read_access_unit_zero (Elt Ideal) main_v36_1 hz' (fun a => by rw [congrFun hz' a]; simp) _).symm

theorem final_sum (c : Dev nD) : (dat2 V c).arrAt 6 cfg2.N = (outsAt2 V c t2_9.val t2_9.isLt).2.1 :=
  (dat2 V c).arrAt_eq_of_cover 6 _ (flushed_sum V c) fun i =>
    ⟨t2_9, (flush2_6 t2_9).mpr rfl, by
      show i ∈ ((View.whole main_v36_1).slice (win2_6.rect t2_9)).set
      rw [View.set_slice_whole, Rect.mem_set_unit]
      intro a
      have h0 : (i 0 : Nat) < 128 := (i 0).isLt
      match a with
      | ⟨0, _⟩ =>
        show win2_6.index t2_9 0 * win2_6.size 0 ≤ (i 0 : Nat)
          ∧ (i 0 : Nat) < win2_6.index t2_9 0 * win2_6.size 0 + win2_6.xsize (grid2.coords t2_9) 0
        rw [show win2_6.index t2_9 0 * win2_6.size 0 = 0 from by decide +kernel,
          show win2_6.xsize (grid2.coords t2_9) 0 = 128 from by decide +kernel]
        omega⟩

theorem flushed_sumsq (c : Dev nD) (t : Fin cfg2.N) (hf : (cfg2.win 7).flush t = true) :
    (dat2 V c).flushed 7 t = ((cfg2.win 7).blk t).view.read (Elt Ideal) (outsAt2 V c t2_9.val t2_9.isLt).2.2 := by
  have hN : cfg2.N = 10 := N_2
  have h9 : t.val = 9 := by have := (flush2_7 t).mp hf; have := t.isLt; omega
  obtain rfl : t = t2_9 := Fin.ext h9
  show (cfg2.win 7).cut (grid2.coords t2_9) ((dat2 V c).after 7 t2_9) = _
  rw [after2_7]
  have hz' : (fun a => win2_7.index t2_9 a * main_v36_2.ty.shape.size a) = fun _ => 0 :=
    funext fun a => by fin_cases a <;> decide +kernel
  exact (Memref.read_access_unit_zero (Elt Ideal) main_v36_2 hz' (fun a => by rw [congrFun hz' a]; simp) _).symm

theorem final_sumsq (c : Dev nD) : (dat2 V c).arrAt 7 cfg2.N = (outsAt2 V c t2_9.val t2_9.isLt).2.2 :=
  (dat2 V c).arrAt_eq_of_cover 7 _ (flushed_sumsq V c) fun i =>
    ⟨t2_9, (flush2_7 t2_9).mpr rfl, by
      show i ∈ ((View.whole main_v36_2).slice (win2_7.rect t2_9)).set
      rw [View.set_slice_whole, Rect.mem_set_unit]
      intro a
      have h0 : (i 0 : Nat) < 128 := (i 0).isLt
      match a with
      | ⟨0, _⟩ =>
        show win2_7.index t2_9 0 * win2_7.size 0 ≤ (i 0 : Nat)
          ∧ (i 0 : Nat) < win2_7.index t2_9 0 * win2_7.size 0 + win2_7.xsize (grid2.coords t2_9) 0
        rw [show win2_7.index t2_9 0 * win2_7.size 0 = 0 from by decide +kernel,
          show win2_7.xsize (grid2.coords t2_9) 0 = 128 from by decide +kernel]
        omega⟩

/-- The three arrays after the region, in the network's terms. -/
theorem rows_eq (c : Dev nD) : mat ((dat2 V c).arrAt 5 cfg2.N) = Y V c := by
  rw [final_rows]; rfl

theorem sum_eq (c : Dev nD) : row ((dat2 V c).arrAt 6 cfg2.N) = fun j => ∑ r : Fin 50000, Y V c r j := by
  funext j
  show (dat2 V c).arrAt 6 cfg2.N (ix1 j) = _
  rw [final_sum]
  exact ((sums_at V c 9 t2_9.isLt).1 j).trans (sum_ext0 _)

theorem sumsq_eq (c : Dev nD) :
    row ((dat2 V c).arrAt 7 cfg2.N) = fun j => ∑ r : Fin 50000, Y V c r j * Y V c r j := by
  funext j
  show (dat2 V c).arrAt 7 cfg2.N (ix1 j) = _
  rw [final_sumsq]
  exact ((sums_at V c 9 t2_9.isLt).2 j).trans (sum_ext0 _)

end Cert.KernelIdeal.Reg2

end
-- ==== Proof.Pay3.lean ====
/-
  The last kernel's arithmetic at an index. A point of its grid holds 5000 rows x of the second layer's output and
  four rows: the column means mu, the column variances var, the scale g and the shift be. It stores the normalised rows:
  entry (q, c) is (x (q, c) − mu c) · rsqrt (var c + eps) · g c + be c. Each row vector is laid under every one of the
  5000 rows, so at (q, c) it reads its entry c; the offset eps is the same constant in every column; a cast of an array
  to its own shape changes nothing.
-/
import proofs.«114590_j23673859736036_2_alg».proof.Proof.Gen.KernelIdeal.Skeleton
import proofs.«114590_j23673859736036_2_alg».proof.Proof.LibDot
import proofs.«114590_j23673859736036_2_alg».proof.Proof.LibColReduce
import proofs.«114590_j23673859736036_2_alg».proof.Proof.LibRowwise
import proofs.«114590_j23673859736036_2_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.KernelIdeal.Pay3

open Cert.KernelIdeal Cert.KernelIdeal.Gen

/-- The stored block: the normalised rows. -/
theorem rows_apply (x : Vec Ideal S5000x128 .f32) (mu var g be : Vec Ideal S128 .f32) (q : Fin 5000) (c : Fin 128) :
    k3_pay1 (F := Ideal) x mu var g be (ix2 q c)
      = (x (ix2 q c) - mu (ix1 c)) * Ideal.rsqrt (var (ix1 c) + Cert.Net.eps) * g (ix1 c) + be (ix1 c) := by
  unfold k3_pay1
  refine (addf_apply _ _ (ix2 q c)).trans ?_
  refine congrArg₂ (· + ·) ?_
    (Cert.LibRowwise.rowUnder_apply be shapeCasts_S128_S1x128 broadcasts_S1x128_S5000x128 q c)
  refine (mulf_apply _ _ (ix2 q c)).trans ?_
  refine congrArg₂ (· * ·) ?_
    (Cert.LibRowwise.rowUnder_apply g shapeCasts_S128_S1x128 broadcasts_S1x128_S5000x128 q c)
  refine (mulf_apply _ _ (ix2 q c)).trans ?_
  refine congrArg₂ (· * ·) ?_ ?_
  · refine (subf_apply _ _ (ix2 q c)).trans ?_
    refine congrArg₂ (· - ·) ?_ ?_
    · rw [shapeCast_self]
    · refine (Cert.LibRowwise.rowUnder_apply _ shapeCasts_S128_S1x128 broadcasts_S1x128_S5000x128 q c).trans ?_
      rw [shapeCast_self]
  · refine (Cert.LibRowwise.rowUnder_apply _ shapeCasts_S128_S1x128 broadcasts_S1x128_S5000x128 q c).trans ?_
    rw [shapeCast_self]
    rfl

end Cert.KernelIdeal.Pay3

end
-- ==== Proof.Reg3.lean ====
/-
  The last kernel region (the outer normalisation) as values. Its grid has ten points; point t holds rows
  5000·t … 5000·t + 4999 of the second layer's output x and, whole at every point, four rows: the column means mu, the
  column variances var, the scale g and the shift be. It writes the same rows of
  y (r, c) = (x (r, c) − mu c) · rsqrt (var c + eps) · g c + be c, and every point writes its block back, so the row
  array ends at y: every row r lies in the block of point r / 5000.
-/
import proofs.«114590_j23673859736036_2_alg».proof.Proof.Gen.KernelIdeal.Frame
import proofs.«114590_j23673859736036_2_alg».proof.Proof.Pay3
import proofs.«114590_j23673859736036_2_alg».proof.Proof.Mats
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open scoped BigOperators

open Idealize.ShloMosaic.Pipeline (Dat)

namespace Cert.KernelIdeal.Reg3

open Cert.KernelIdeal Cert.KernelIdeal.Gen Cert.Net

variable (V : (c : Dev nD) → (b : Ref sig .tc) → Buf (Elt Ideal) ((c : Thread nD τ).loc b))

/-- The rows the region computes, as a function of the arrays it finds. -/
def Y (c : Dev nD) : Mat :=
  bn (mat (V c main_v36_0)) (row (V c main_v38)) (row (V c main_v42)) (row (V c main_arg10)) (row (V c main_arg11))

/-- The printed index maps over the grid: the row windows move with the point, the others stay. -/
theorem idx_facts : ∀ t : Fin cfg3.N, win3_0.index t (0 : Fin 2) = t.val ∧ win3_0.index t (1 : Fin 2) = 0
    ∧ win3_1.index t (0 : Fin 1) = 0 ∧ win3_2.index t (0 : Fin 1) = 0 ∧ win3_3.index t (0 : Fin 1) = 0
    ∧ win3_4.index t (0 : Fin 1) = 0 ∧ win3_5.index t (0 : Fin 2) = t.val ∧ win3_5.index t (1 : Fin 2) = 0 :=
  (by decide +kernel : ∀ t : Fin grid3.N, _)

/-- Row q of point t's block is row 5000·t + q of the array. -/
def rowOf (t : Fin cfg3.N) (q : Fin 5000) : Fin 50000 :=
  ⟨t.val * 5000 + q.val, by have := lt_of_lt_of_eq t.isLt (show cfg3.N = 10 from N_3); have := q.isLt; omega⟩

/-- Point t's block of rows, read at its coordinates. -/
theorem xblk_apply (c : Dev nD) (t : Fin cfg3.N) (q : Fin 5000) (k : Fin 128) :
    (iblk3 V c 0 t : Vec Ideal S5000x128 .f32) (ix2 q k) = V c main_v36_0 (ix2 (rowOf t q) k) := by
  unfold iblk3
  rw [View.read_apply]
  show V c main_v36_0 (((cfg3.win 0).blk t).view.emb (ix2 q k)) = _
  obtain ⟨e0, e1, -⟩ := idx_facts t
  refine congrArg _ (funext fun a => Fin.ext ?_)
  match a with
  | ⟨0, _⟩ => show win3_0.index t (0 : Fin 2) * 5000 + 1 * q.val = t.val * 5000 + q.val; rw [e0]; omega
  | ⟨1, _⟩ => show win3_0.index t (1 : Fin 2) * 128 + 1 * k.val = k.val; rw [e1]; omega

/-! The four rows are whole at every point. -/

theorem mublk_apply (c : Dev nD) (t : Fin cfg3.N) (j : Fin 128) :
    (iblk3 V c 1 t : Vec Ideal S128 .f32) (ix1 j) = V c main_v38 (ix1 j) := by
  unfold iblk3
  rw [View.read_apply]
  show V c main_v38 (((cfg3.win 1).blk t).view.emb (ix1 j)) = _
  obtain ⟨-, -, e0, -⟩ := idx_facts t
  refine congrArg _ (funext fun a => Fin.ext ?_)
  match a with
  | ⟨0, _⟩ => show win3_1.index t (0 : Fin 1) * 128 + 1 * j.val = j.val; rw [e0]; omega

theorem varblk_apply (c : Dev nD) (t : Fin cfg3.N) (j : Fin 128) :
    (iblk3 V c 2 t : Vec Ideal S128 .f32) (ix1 j) = V c main_v42 (ix1 j) := by
  unfold iblk3
  rw [View.read_apply]
  show V c main_v42 (((cfg3.win 2).blk t).view.emb (ix1 j)) = _
  obtain ⟨-, -, -, e0, -⟩ := idx_facts t
  refine congrArg _ (funext fun a => Fin.ext ?_)
  match a with
  | ⟨0, _⟩ => show win3_2.index t (0 : Fin 1) * 128 + 1 * j.val = j.val; rw [e0]; omega

theorem gblk_apply (c : Dev nD) (t : Fin cfg3.N) (j : Fin 128) :
    (iblk3 V c 3 t : Vec Ideal S128 .f32) (ix1 j) = V c main_arg10 (ix1 j) := by
  unfold iblk3
  rw [View.read_apply]
  show V c main_arg10 (((cfg3.win 3).blk t).view.emb (ix1 j)) = _
  obtain ⟨-, -, -, -, e0, -⟩ := idx_facts t
  refine congrArg _ (funext fun a => Fin.ext ?_)
  match a with
  | ⟨0, _⟩ => show win3_3.index t (0 : Fin 1) * 128 + 1 * j.val = j.val; rw [e0]; omega

theorem beblk_apply (c : Dev nD) (t : Fin cfg3.N) (j : Fin 128) :
    (iblk3 V c 4 t : Vec Ideal S128 .f32) (ix1 j) = V c main_arg11 (ix1 j) := by
  unfold iblk3
  rw [View.read_apply]
  show V c main_arg11 (((cfg3.win 4).blk t).view.emb (ix1 j)) = _
  obtain ⟨-, -, -, -, -, e0, -⟩ := idx_facts t
  refine congrArg _ (funext fun a => Fin.ext ?_)
  match a with
  | ⟨0, _⟩ => show win3_4.index t (0 : Fin 1) * 128 + 1 * j.val = j.val; rw [e0]; omega

/-- What point t stores: its rows of Y. -/
theorem rows_at (c : Dev nD) (t : Fin cfg3.N) (q : Fin 5000) (j : Fin 128) :
    k3_pay1 (F := Ideal) (iblk3 V c 0 t) (iblk3 V c 1 t) (iblk3 V c 2 t) (iblk3 V c 3 t) (iblk3 V c 4 t) (ix2 q j)
      = Y V c (rowOf t q) j := by
  refine (Pay3.rows_apply (iblk3 V c 0 t) (iblk3 V c 1 t) (iblk3 V c 2 t) (iblk3 V c 3 t) (iblk3 V c 4 t) q j).trans ?_
  unfold Y bn mat row
  rw [xblk_apply V c t q j, mublk_apply V c t j, varblk_apply V c t j, gblk_apply V c t j, beblk_apply V c t j]

/-! ## The array after the region -/

theorem hz2 : (![0, 0] : Fin 2 → Nat) = fun _ => 0 := funext fun a => by fin_cases a <;> rfl
theorem hz1 : (![0] : Fin 1 → Nat) = fun _ => 0 := funext fun a => by fin_cases a <;> rfl

set_option maxHeartbeats 400000 in
/-- What point t writes back is block t of the rows Y. -/
theorem flushed_rows (c : Dev nD) (t : Fin cfg3.N) :
    (dat3 V c).flushed 5 t = ((cfg3.win 5).blk t).view.read (Elt Ideal) (unmat (Y V c)) := by
  show (cfg3.win 5).cut (grid3.coords t) ((dat3 V c).after 5 t) = _
  rw [after3_5]
  unfold out3_5
  rw [View.canon_unit_zero hz2]
  simp only [View.ld_unit_zero (S := S5000x128) hz2, View.ld_unit_zero (S := S128) hz1]
  funext j
  obtain ⟨q, k, rfl⟩ : ∃ (q : Fin 5000) (k : Fin 128), j = ix2 q k := ⟨j 0, j 1, eq_ix2 j⟩
  show k3_pay1 (F := Ideal) (iblk3 V c 0 t) (iblk3 V c 1 t) (iblk3 V c 2 t) (iblk3 V c 3 t) (iblk3 V c 4 t) (ix2 q k)
    = unmat (Y V c) (((cfg3.win 5).blk t).view.emb (ix2 q k))
  refine (rows_at V c t q k).trans ?_
  obtain ⟨-, -, -, -, -, -, e0, e1⟩ := idx_facts t
  refine congrArg₂ (Y V c) (Fin.ext ?_) (Fin.ext ?_)
  · show t.val * 5000 + q.val = win3_5.index t (0 : Fin 2) * 5000 + 1 * q.val
    rw [e0]; omega
  · show k.val = win3_5.index t (1 : Fin 2) * 128 + 1 * k.val
    rw [e1]; omega

/-- Every row lies in the block of the point that holds it. -/
theorem cover_rows (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  have ht : (i 0).val / 5000 < cfg3.N := by rw [hN]; omega
  refine ⟨⟨(i 0).val / 5000, ht⟩, flush3_5 _, ?_⟩
  obtain ⟨-, -, -, -, -, -, e0, e1⟩ := idx_facts ⟨(i 0).val / 5000, ht⟩
  show i ∈ ((View.whole main_v43).slice (win3_5.rect ⟨(i 0).val / 5000, ht⟩)).set
  rw [View.set_slice_whole, Rect.mem_set_unit]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [e1]; omega

/-- The row array ends at Y. -/
theorem final_rows (c : Dev nD) : (dat3 V c).arrAt 5 cfg3.N = unmat (Y V c) :=
  (dat3 V c).arrAt_eq_of_cover 5 (unmat (Y V c)) (fun t _ => flushed_rows V c t) cover_rows

/-- The array after the region, in the network's terms. -/
theorem rows_eq (c : Dev nD) : mat ((dat3 V c).arrAt 5 cfg3.N) = Y V c := by
  rw [final_rows]; rfl

end Cert.KernelIdeal.Reg3

end
-- ==== Proof.HostMid.lean ====
import proofs.«114590_j23673859736036_2_alg».proof.Proof.Gen.KernelIdeal.Frame
import proofs.«114590_j23673859736036_2_alg».proof.Proof.Host0
import proofs.«114590_j23673859736036_2_alg».proof.Proof.Mats
import Idealize.ShloMosaic.Lib.StableHlo.Run
import Idealize.ShloMosaic.Lib.ValueIdx

/-!
# The operations between the kernel regions, as values, and the buffers they leave alone

Between two kernel regions the program turns the column sums `S` and the column sums of squares `Q` the region
before left into the column mean `S / 50000` and the variance `Q / 50000 − (S / 50000)²`. When `S` and `Q` are the
column sums of a matrix `y` and of its squares these are `y`'s column means and its variances in the second-moment form.

Each such stretch writes only its own results and each region only its own arrays, so every other buffer is unchanged
by them: the rows a region stored are still there when the next region starts, and an argument that nothing writes
still holds its launch contents (a transposed weight matrix: the transpose of the argument's launch contents).
-/

noncomputable section

namespace Cert.HostMid

open Cert.KernelIdeal Cert.KernelIdeal.Gen Cert.Net
open Idealize.ShloMosaic Idealize.ShloMosaic.TcCoe Idealize.SL.Sem Idealize.ShloMosaic.StableHlo
open Idealize.ShloMosaic.ValueIdx
open scoped BigOperators

/-- The number of rows, 50000, in every column. -/
abbrev bc : FVec Ideal S128 .f32 := broadcastInDim S128 ![] bcast_S_S128 (constant (F := Ideal) S_ .f32 0x47435000#32)

/-- The column means from the column sums. -/
def meanK (S : FVec Ideal S128 .f32) : FVec Ideal S128 .f32 := Host.divf S bc

/-- The column variances from the column sums and the column sums of squares: the mean of the squares minus the
    square of the mean. -/
def varK (S Q : FVec Ideal S128 .f32) : FVec Ideal S128 .f32 :=
  subf (Host.divf Q bc) (mulf (Host.divf S bc) (Host.divf S bc))

/-- When `S` holds the column sums of `y` and `Q` the column sums of its squares, the two are the column means
    of `y` and its variances in the second-moment form. -/
theorem stats_row (S Q : FVec Ideal S128 .f32) (y : Mat)
    (hS : row S = fun j => ∑ r : Fin 50000, y r j)
    (hQ : row Q = fun j => ∑ r : Fin 50000, y r j * y r j) :
    row (meanK S) = mean y ∧ row (varK S Q) = varSq y := by
  have hS' : ∀ j, S (ix1 j) = ∑ r : Fin 50000, y r j := fun j => congrFun hS j
  have hQ' : ∀ j, Q (ix1 j) = ∑ r : Fin 50000, y r j * y r j := fun j => congrFun hQ j
  refine ⟨funext fun j => ?_, funext fun j => ?_⟩
  · show Ideal.div (S (ix1 j)) cnt = Ideal.div (∑ r : Fin 50000, y r j) cnt
    rw [hS' j]
  · show Ideal.div (Q (ix1 j)) cnt - Ideal.div (S (ix1 j)) cnt * Ideal.div (S (ix1 j)) cnt
        = Ideal.div (∑ r : Fin 50000, y r j * y r j) cnt
          - Ideal.div (∑ r : Fin 50000, y r j) cnt * Ideal.div (∑ r : Fin 50000, y r j) cnt
    rw [hS' j, hQ' j]

section Run

variable (m : (ℓ : Loc nD τ sig) → Buf (Elt Ideal) ℓ) (ρ : Dev nD → PrngReg)

/-! ## The statistics each stretch computes -/

/-- The mean the stretch before region 1 leaves. -/
theorem W3_mean (c : Dev nD) :
    W3 (F := Ideal) m ρ c (Proc.devRef .tc main_v24) = meanK (W2 m ρ c (Proc.devRef .tc main_v22_1)) := by
  show StableHlo.after hostOps1 (W2 m ρ c) (Proc.devRef .tc main_v24) = _
  after_results_simp
  rfl

/-- The variance the stretch before region 1 leaves. -/
theorem W3_var (c : Dev nD) :
    W3 (F := Ideal) m ρ c (Proc.devRef .tc main_v28)
      = varK (W2 m ρ c (Proc.devRef .tc main_v22_1)) (W2 m ρ c (Proc.devRef .tc main_v22_2)) := by
  show StableHlo.after hostOps1 (W2 m ρ c) (Proc.devRef .tc main_v28) = _
  after_results_simp
  rfl

/-- The mean the stretch before region 2 leaves. -/
theorem W5_mean (c : Dev nD) :
    W5 (F := Ideal) m ρ c (Proc.devRef .tc main_v31) = meanK (W4 m ρ c (Proc.devRef .tc main_v29_1)) := by
  show StableHlo.after hostOps2 (W4 m ρ c) (Proc.devRef .tc main_v31) = _
  after_results_simp
  rfl

/-- The variance the stretch before region 2 leaves. -/
theorem W5_var (c : Dev nD) :
    W5 (F := Ideal) m ρ c (Proc.devRef .tc main_v35)
      = varK (W4 m ρ c (Proc.devRef .tc main_v29_1)) (W4 m ρ c (Proc.devRef .tc main_v29_2)) := by
  show StableHlo.after hostOps2 (W4 m ρ c) (Proc.devRef .tc main_v35) = _
  after_results_simp
  rfl

/-- The mean the stretch before region 3 leaves. -/
theorem W7_mean (c : Dev nD) :
    W7 (F := Ideal) m ρ c (Proc.devRef .tc main_v38) = meanK (W6 m ρ c (Proc.devRef .tc main_v36_1)) := by
  show StableHlo.after hostOps3 (W6 m ρ c) (Proc.devRef .tc main_v38) = _
  after_results_simp
  rfl

/-- The variance the stretch before region 3 leaves. -/
theorem W7_var (c : Dev nD) :
    W7 (F := Ideal) m ρ c (Proc.devRef .tc main_v42)
      = varK (W6 m ρ c (Proc.devRef .tc main_v36_1)) (W6 m ρ c (Proc.devRef .tc main_v36_2)) := by
  show StableHlo.after hostOps3 (W6 m ρ c) (Proc.devRef .tc main_v42) = _
  after_results_simp
  rfl

/-! ## The buffers a stretch leaves alone

A stretch writes only its own six results, and a region only its own arrays, so any other buffer holds after them what
it held before; walked back to the launch, an argument holds its launch contents. -/

theorem W3_rows (c : Dev nD) :
    W3 (F := Ideal) m ρ c (Proc.devRef .tc main_v22_0) = W2 m ρ c (Proc.devRef .tc main_v22_0) := by
  show StableHlo.after hostOps1 (W2 m ρ c) (Proc.devRef .tc main_v22_0) = _
  after_results_simp

theorem W5_rows (c : Dev nD) :
    W5 (F := Ideal) m ρ c (Proc.devRef .tc main_v29_0) = W4 m ρ c (Proc.devRef .tc main_v29_0) := by
  show StableHlo.after hostOps2 (W4 m ρ c) (Proc.devRef .tc main_v29_0) = _
  after_results_simp

theorem W7_rows (c : Dev nD) :
    W7 (F := Ideal) m ρ c (Proc.devRef .tc main_v36_0) = W6 m ρ c (Proc.devRef .tc main_v36_0) := by
  show StableHlo.after hostOps3 (W6 m ρ c) (Proc.devRef .tc main_v36_0) = _
  after_results_simp

theorem W3_main_arg4 (c : Dev nD) :
    W3 (F := Ideal) m ρ c (Proc.devRef .tc main_arg4) = m ((c : Thread nD τ).loc main_arg4) := by
  have e3 : W3 (F := Ideal) m ρ c (Proc.devRef .tc main_arg4) = W2 m ρ c (Proc.devRef .tc main_arg4) := by
    show StableHlo.after hostOps1 (W2 m ρ c) (Proc.devRef .tc main_arg4) = _
    after_results_simp
  rw [e3, W2_of_ne m ρ c main_arg4 (by decide)]
  exact Cert.Host0.W1_main_arg4 m ρ c

theorem W3_main_arg5 (c : Dev nD) :
    W3 (F := Ideal) m ρ c (Proc.devRef .tc main_arg5) = m ((c : Thread nD τ).loc main_arg5) := by
  have e3 : W3 (F := Ideal) m ρ c (Proc.devRef .tc main_arg5) = W2 m ρ c (Proc.devRef .tc main_arg5) := by
    show StableHlo.after hostOps1 (W2 m ρ c) (Proc.devRef .tc main_arg5) = _
    after_results_simp
  rw [e3, W2_of_ne m ρ c main_arg5 (by decide)]
  exact Cert.Host0.W1_main_arg5 m ρ c

theorem W3_main_arg7 (c : Dev nD) :
    W3 (F := Ideal) m ρ c (Proc.devRef .tc main_arg7) = m ((c : Thread nD τ).loc main_arg7) := by
  have e3 : W3 (F := Ideal) m ρ c (Proc.devRef .tc main_arg7) = W2 m ρ c (Proc.devRef .tc main_arg7) := by
    show StableHlo.after hostOps1 (W2 m ρ c) (Proc.devRef .tc main_arg7) = _
    after_results_simp
  rw [e3, W2_of_ne m ρ c main_arg7 (by decide)]
  exact Cert.Host0.W1_main_arg7 m ρ c

theorem W3_wt2 (c : Dev nD) :
    W3 (F := Ideal) m ρ c (Proc.devRef .tc main_v21)
      = transpose S128x128 [1, 0] (m ((c : Thread nD τ).loc main_arg6)) transposes_S128x128_S128x128_1_0 := by
  have e3 : W3 (F := Ideal) m ρ c (Proc.devRef .tc main_v21) = W2 m ρ c (Proc.devRef .tc main_v21) := by
    show StableHlo.after hostOps1 (W2 m ρ c) (Proc.devRef .tc main_v21) = _
    after_results_simp
  rw [e3, W2_of_ne m ρ c main_v21 (by decide)]
  exact Cert.Host0.W1_wt2 m ρ c

theorem W5_main_arg8 (c : Dev nD) :
    W5 (F := Ideal) m ρ c (Proc.devRef .tc main_arg8) = m ((c : Thread nD τ).loc main_arg8) := by
  have e5 : W5 (F := Ideal) m ρ c (Proc.devRef .tc main_arg8) = W4 m ρ c (Proc.devRef .tc main_arg8) := by
    show StableHlo.after hostOps2 (W4 m ρ c) (Proc.devRef .tc main_arg8) = _
    after_results_simp
  rw [e5, W4_of_ne m ρ c main_arg8 (by decide)]
  have e3 : W3 (F := Ideal) m ρ c (Proc.devRef .tc main_arg8) = W2 m ρ c (Proc.devRef .tc main_arg8) := by
    show StableHlo.after hostOps1 (W2 m ρ c) (Proc.devRef .tc main_arg8) = _
    after_results_simp
  rw [e3, W2_of_ne m ρ c main_arg8 (by decide)]
  exact Cert.Host0.W1_main_arg8 m ρ c

theorem W5_main_arg9 (c : Dev nD) :
    W5 (F := Ideal) m ρ c (Proc.devRef .tc main_arg9) = m ((c : Thread nD τ).loc main_arg9) := by
  have e5 : W5 (F := Ideal) m ρ c (Proc.devRef .tc main_arg9) = W4 m ρ c (Proc.devRef .tc main_arg9) := by
    show StableHlo.after hostOps2 (W4 m ρ c) (Proc.devRef .tc main_arg9) = _
    after_results_simp
  rw [e5, W4_of_ne m ρ c main_arg9 (by decide)]
  have e3 : W3 (F := Ideal) m ρ c (Proc.devRef .tc main_arg9) = W2 m ρ c (Proc.devRef .tc main_arg9) := by
    show StableHlo.after hostOps1 (W2 m ρ c) (Proc.devRef .tc main_arg9) = _
    after_results_simp
  rw [e3, W2_of_ne m ρ c main_arg9 (by decide)]
  exact Cert.Host0.W1_main_arg9 m ρ c

theorem W7_main_arg10 (c : Dev nD) :
    W7 (F := Ideal) m ρ c (Proc.devRef .tc main_arg10) = m ((c : Thread nD τ).loc main_arg10) := by
  have e7 : W7 (F := Ideal) m ρ c (Proc.devRef .tc main_arg10) = W6 m ρ c (Proc.devRef .tc main_arg10) := by
    show StableHlo.after hostOps3 (W6 m ρ c) (Proc.devRef .tc main_arg10) = _
    after_results_simp
  rw [e7, W6_of_ne m ρ c main_arg10 (by decide)]
  have e5 : W5 (F := Ideal) m ρ c (Proc.devRef .tc main_arg10) = W4 m ρ c (Proc.devRef .tc main_arg10) := by
    show StableHlo.after hostOps2 (W4 m ρ c) (Proc.devRef .tc main_arg10) = _
    after_results_simp
  rw [e5, W4_of_ne m ρ c main_arg10 (by decide)]
  have e3 : W3 (F := Ideal) m ρ c (Proc.devRef .tc main_arg10) = W2 m ρ c (Proc.devRef .tc main_arg10) := by
    show StableHlo.after hostOps1 (W2 m ρ c) (Proc.devRef .tc main_arg10) = _
    after_results_simp
  rw [e3, W2_of_ne m ρ c main_arg10 (by decide)]
  exact Cert.Host0.W1_main_arg10 m ρ c

theorem W7_main_arg11 (c : Dev nD) :
    W7 (F := Ideal) m ρ c (Proc.devRef .tc main_arg11) = m ((c : Thread nD τ).loc main_arg11) := by
  have e7 : W7 (F := Ideal) m ρ c (Proc.devRef .tc main_arg11) = W6 m ρ c (Proc.devRef .tc main_arg11) := by
    show StableHlo.after hostOps3 (W6 m ρ c) (Proc.devRef .tc main_arg11) = _
    after_results_simp
  rw [e7, W6_of_ne m ρ c main_arg11 (by decide)]
  have e5 : W5 (F := Ideal) m ρ c (Proc.devRef .tc main_arg11) = W4 m ρ c (Proc.devRef .tc main_arg11) := by
    show StableHlo.after hostOps2 (W4 m ρ c) (Proc.devRef .tc main_arg11) = _
    after_results_simp
  rw [e5, W4_of_ne m ρ c main_arg11 (by decide)]
  have e3 : W3 (F := Ideal) m ρ c (Proc.devRef .tc main_arg11) = W2 m ρ c (Proc.devRef .tc main_arg11) := by
    show StableHlo.after hostOps1 (W2 m ρ c) (Proc.devRef .tc main_arg11) = _
    after_results_simp
  rw [e3, W2_of_ne m ρ c main_arg11 (by decide)]
  exact Cert.Host0.W1_main_arg11 m ρ c

end Run

end Cert.HostMid

end
-- ==== Proof.KValue.lean ====
/-
  The idealized kernel program's result, followed back through its four kernel regions and the host lines between them.

  The first region reads the aggregated features h (the host's scatter-add), the transposed first weights and the first
  bias, and leaves y1 = h · W1ᵀ + b1 with the column sums of y1 and of y1². The host divides them by the number of rows:
  the mean of y1 and its variance in the form "mean of the squares minus the square of the mean". The second region
  normalises y1 with these, takes max (·, 0), and leaves y2 = a1 · W2ᵀ + b2 with its column sums; the host forms the
  statistics of y2; the third region leaves a2 = max (normalised y2, 0) with its column sums; the host forms the
  statistics of a2; the fourth region leaves the normalised a2. Each region's arrays are read where the next host line
  or region finds them; every other buffer is as the segment before left it. So the result buffer holds the network
  of Net.lean built on the squares form of the variance.
-/
import proofs.«114590_j23673859736036_2_alg».proof.Proof.Gen.KernelIdeal.Frame
import proofs.«114590_j23673859736036_2_alg».proof.Proof.Reg0
import proofs.«114590_j23673859736036_2_alg».proof.Proof.Reg1
import proofs.«114590_j23673859736036_2_alg».proof.Proof.Reg2
import proofs.«114590_j23673859736036_2_alg».proof.Proof.Reg3
import proofs.«114590_j23673859736036_2_alg».proof.Proof.Host0
import proofs.«114590_j23673859736036_2_alg».proof.Proof.HostMid
import proofs.«114590_j23673859736036_2_alg».proof.Proof.Mats
import Idealize.ShloMosaic.Lib.ValueLayout
import Idealize.ShloMosaic.Lib.ValueIdx

noncomputable section

open Idealize.ShloMosaic Idealize.ShloMosaic.TcCoe Idealize.SL.Sem Idealize.ShloMosaic.ValueIdx
open scoped BigOperators

namespace Cert.KValue

open Cert.KernelIdeal Cert.KernelIdeal.Gen Cert.Net Cert.Host0 Cert.HostMid

variable (m : (ℓ : Loc nD τ sig) → Buf (Elt Ideal) ℓ) (ρ : Dev nD → PrngReg)

/-- A transposed square array read as it stands is the array read transposed. -/
theorem sqm_transpose (W : ShS.Idx → EReal) (h : ShS.Transposes [1, 0] ShS) : sqm (transpose ShS [1, 0] W h) = sqT W := by
  funext k j
  exact transpose_ix2_apply W h k j

/-- The aggregated features. -/
def h0 (c : Dev nD) : Mat := mat (aggK (m ((c : Thread nD τ).loc main_arg0)) (m ((c : Thread nD τ).loc main_arg1)))
/-- The first dense layer. -/
def y1 (c : Dev nD) : Mat := lin (h0 m c) (sqT (m ((c : Thread nD τ).loc main_arg2))) (row (m ((c : Thread nD τ).loc main_arg3)))
/-- Its normalisation and rectification. -/
def a1 (c : Dev nD) : Mat := relu (layer varSq (y1 m c) (row (m ((c : Thread nD τ).loc main_arg4))) (row (m ((c : Thread nD τ).loc main_arg5))))
/-- The second dense layer. -/
def y2 (c : Dev nD) : Mat := lin (a1 m c) (sqT (m ((c : Thread nD τ).loc main_arg6))) (row (m ((c : Thread nD τ).loc main_arg7)))
/-- Its normalisation and rectification. -/
def a2 (c : Dev nD) : Mat := relu (layer varSq (y2 m c) (row (m ((c : Thread nD τ).loc main_arg8))) (row (m ((c : Thread nD τ).loc main_arg9))))
/-- The network's result as an array. -/
def out (c : Dev nD) : ShM.Idx → EReal :=
  unmat (net varSq (mat (aggK (m ((c : Thread nD τ).loc main_arg0)) (m ((c : Thread nD τ).loc main_arg1)))) (sqT (m ((c : Thread nD τ).loc main_arg2))) (row (m ((c : Thread nD τ).loc main_arg3)))
    (row (m ((c : Thread nD τ).loc main_arg4))) (row (m ((c : Thread nD τ).loc main_arg5))) (sqT (m ((c : Thread nD τ).loc main_arg6))) (row (m ((c : Thread nD τ).loc main_arg7))) (row (m ((c : Thread nD τ).loc main_arg8)))
    (row (m ((c : Thread nD τ).loc main_arg9))) (row (m ((c : Thread nD τ).loc main_arg10))) (row (m ((c : Thread nD τ).loc main_arg11))))

theorem out_eq (c : Dev nD) : out m c = unmat (layer varSq (a2 m c) (row (m ((c : Thread nD τ).loc main_arg10))) (row (m ((c : Thread nD τ).loc main_arg11)))) := rfl

/-! ## Region 0 -/

theorem s0 (c : Dev nD) : Reg0.Y (V1 m ρ) c = y1 m c := by
  unfold Reg0.Y y1 h0
  rw [show V1 m ρ c main_v19 = aggK (m ((c : Thread nD τ).loc main_arg0)) (m ((c : Thread nD τ).loc main_arg1)) from W1_agg m ρ c,
    show V1 m ρ c main_v20 = transpose S128x128 [1, 0] (m ((c : Thread nD τ).loc main_arg2)) transposes_S128x128_S128x128_1_0 from W1_wt1 m ρ c,
    show V1 m ρ c main_arg3 = (m ((c : Thread nD τ).loc main_arg3)) from W1_main_arg3 m ρ c, sqm_transpose]

theorem r0_rows (c : Dev nD) : mat (W2 m ρ c (Proc.devRef .tc main_v22_0)) = y1 m c := by
  rw [show W2 m ρ c (Proc.devRef .tc main_v22_0) = (dat0 (V1 m ρ) c).arrAt 3 cfg0.N from W2_arr m ρ c 3,
    Reg0.rows_eq, s0]
theorem r0_sum (c : Dev nD) : row (W2 m ρ c (Proc.devRef .tc main_v22_1)) = fun j => ∑ r : Fin 50000, y1 m c r j := by
  rw [show W2 m ρ c (Proc.devRef .tc main_v22_1) = (dat0 (V1 m ρ) c).arrAt 4 cfg0.N from W2_arr m ρ c 4,
    Reg0.sum_eq, s0]
theorem r0_sq (c : Dev nD) :
    row (W2 m ρ c (Proc.devRef .tc main_v22_2)) = fun j => ∑ r : Fin 50000, y1 m c r j * y1 m c r j := by
  rw [show W2 m ρ c (Proc.devRef .tc main_v22_2) = (dat0 (V1 m ρ) c).arrAt 5 cfg0.N from W2_arr m ρ c 5,
    Reg0.sumsq_eq, s0]

theorem mu1 (c : Dev nD) : row (W3 m ρ c (Proc.devRef .tc main_v24)) = mean (y1 m c) := by
  rw [W3_mean]; exact (stats_row _ _ _ (r0_sum m ρ c) (r0_sq m ρ c)).1
theorem var1 (c : Dev nD) : row (W3 m ρ c (Proc.devRef .tc main_v28)) = varSq (y1 m c) := by
  rw [W3_var]; exact (stats_row _ _ _ (r0_sum m ρ c) (r0_sq m ρ c)).2

/-! ## Region 1 -/

theorem s1 (c : Dev nD) : Reg1.Y (V3 m ρ) c = y2 m c := by
  unfold Reg1.Y y2 a1 layer
  rw [show V3 m ρ c main_v22_0 = W2 m ρ c (Proc.devRef .tc main_v22_0) from W3_rows m ρ c, r0_rows,
    show row (V3 m ρ c main_v24) = mean (y1 m c) from mu1 m ρ c,
    show row (V3 m ρ c main_v28) = varSq (y1 m c) from var1 m ρ c,
    show V3 m ρ c main_arg4 = (m ((c : Thread nD τ).loc main_arg4)) from W3_main_arg4 m ρ c,
    show V3 m ρ c main_arg5 = (m ((c : Thread nD τ).loc main_arg5)) from W3_main_arg5 m ρ c,
    show V3 m ρ c main_v21 = transpose S128x128 [1, 0] (m ((c : Thread nD τ).loc main_arg6)) transposes_S128x128_S128x128_1_0 from W3_wt2 m ρ c,
    show V3 m ρ c main_arg7 = (m ((c : Thread nD τ).loc main_arg7)) from W3_main_arg7 m ρ c, sqm_transpose]

theorem r1_rows (c : Dev nD) : mat (W4 m ρ c (Proc.devRef .tc main_v29_0)) = y2 m c := by
  rw [show W4 m ρ c (Proc.devRef .tc main_v29_0) = (dat1 (V3 m ρ) c).arrAt 7 cfg1.N from W4_arr m ρ c 7,
    Reg1.rows_eq, s1]
theorem r1_sum (c : Dev nD) : row (W4 m ρ c (Proc.devRef .tc main_v29_1)) = fun j => ∑ r : Fin 50000, y2 m c r j := by
  rw [show W4 m ρ c (Proc.devRef .tc main_v29_1) = (dat1 (V3 m ρ) c).arrAt 8 cfg1.N from W4_arr m ρ c 8,
    Reg1.sum_eq, s1]
theorem r1_sq (c : Dev nD) :
    row (W4 m ρ c (Proc.devRef .tc main_v29_2)) = fun j => ∑ r : Fin 50000, y2 m c r j * y2 m c r j := by
  rw [show W4 m ρ c (Proc.devRef .tc main_v29_2) = (dat1 (V3 m ρ) c).arrAt 9 cfg1.N from W4_arr m ρ c 9,
    Reg1.sumsq_eq, s1]

theorem mu2 (c : Dev nD) : row (W5 m ρ c (Proc.devRef .tc main_v31)) = mean (y2 m c) := by
  rw [W5_mean]; exact (stats_row _ _ _ (r1_sum m ρ c) (r1_sq m ρ c)).1
theorem var2 (c : Dev nD) : row (W5 m ρ c (Proc.devRef .tc main_v35)) = varSq (y2 m c) := by
  rw [W5_var]; exact (stats_row _ _ _ (r1_sum m ρ c) (r1_sq m ρ c)).2

/-! ## Region 2 -/

theorem s2 (c : Dev nD) : Reg2.Y (V5 m ρ) c = a2 m c := by
  unfold Reg2.Y a2 layer
  rw [show V5 m ρ c main_v29_0 = W4 m ρ c (Proc.devRef .tc main_v29_0) from W5_rows m ρ c, r1_rows,
    show row (V5 m ρ c main_v31) = mean (y2 m c) from mu2 m ρ c,
    show row (V5 m ρ c main_v35) = varSq (y2 m c) from var2 m ρ c,
    show V5 m ρ c main_arg8 = (m ((c : Thread nD τ).loc main_arg8)) from W5_main_arg8 m ρ c,
    show V5 m ρ c main_arg9 = (m ((c : Thread nD τ).loc main_arg9)) from W5_main_arg9 m ρ c]

theorem r2_rows (c : Dev nD) : mat (W6 m ρ c (Proc.devRef .tc main_v36_0)) = a2 m c := by
  rw [show W6 m ρ c (Proc.devRef .tc main_v36_0) = (dat2 (V5 m ρ) c).arrAt 5 cfg2.N from W6_arr m ρ c 5,
    Reg2.rows_eq, s2]
theorem r2_sum (c : Dev nD) : row (W6 m ρ c (Proc.devRef .tc main_v36_1)) = fun j => ∑ r : Fin 50000, a2 m c r j := by
  rw [show W6 m ρ c (Proc.devRef .tc main_v36_1) = (dat2 (V5 m ρ) c).arrAt 6 cfg2.N from W6_arr m ρ c 6,
    Reg2.sum_eq, s2]
theorem r2_sq (c : Dev nD) :
    row (W6 m ρ c (Proc.devRef .tc main_v36_2)) = fun j => ∑ r : Fin 50000, a2 m c r j * a2 m c r j := by
  rw [show W6 m ρ c (Proc.devRef .tc main_v36_2) = (dat2 (V5 m ρ) c).arrAt 7 cfg2.N from W6_arr m ρ c 7,
    Reg2.sumsq_eq, s2]

theorem mu3 (c : Dev nD) : row (W7 m ρ c (Proc.devRef .tc main_v38)) = mean (a2 m c) := by
  rw [W7_mean]; exact (stats_row _ _ _ (r2_sum m ρ c) (r2_sq m ρ c)).1
theorem var3 (c : Dev nD) : row (W7 m ρ c (Proc.devRef .tc main_v42)) = varSq (a2 m c) := by
  rw [W7_var]; exact (stats_row _ _ _ (r2_sum m ρ c) (r2_sq m ρ c)).2

/-! ## Region 3 and the result -/

theorem s3 (c : Dev nD) :
    Reg3.Y (V7 m ρ) c = layer varSq (a2 m c) (row (m ((c : Thread nD τ).loc main_arg10))) (row (m ((c : Thread nD τ).loc main_arg11))) := by
  unfold Reg3.Y layer
  rw [show V7 m ρ c main_v36_0 = W6 m ρ c (Proc.devRef .tc main_v36_0) from W7_rows m ρ c, r2_rows,
    show row (V7 m ρ c main_v38) = mean (a2 m c) from mu3 m ρ c,
    show row (V7 m ρ c main_v42) = varSq (a2 m c) from var3 m ρ c,
    show V7 m ρ c main_arg10 = (m ((c : Thread nD τ).loc main_arg10)) from W7_main_arg10 m ρ c,
    show V7 m ρ c main_arg11 = (m ((c : Thread nD τ).loc main_arg11)) from W7_main_arg11 m ρ c]

/-- The kernel program's result buffer at the end of its run is the network's result. -/
theorem result (c : Dev nD) : W8 (F := Ideal) m ρ c (Proc.devRef .tc main_v43) = out m c := by
  rw [show W8 m ρ c (Proc.devRef .tc main_v43) = (dat3 (V7 m ρ) c).arrAt 5 cfg3.N from W8_arr m ρ c 5,
    Reg3.final_rows, s3, out_eq]

end Cert.KValue

end
-- ==== Proof.lean ====
/-
  The certificate: the kernel, its idealization and the idealized reference each run to the end with their arguments
  unchanged, and on the extended reals the idealized kernel and the idealized reference end with the same result.

  Both compute, from the aggregated features (every node's features plus the sum of its in-neighbours'), a dense
  layer, a batch normalisation and max (·, 0), twice, and a third batch normalisation. The two aggregations agree
  because no destination index is negative, so the kernel's wrap of negative destination indices changes nothing. The normalisations
  differ in the form of the variance: the reference takes the mean of the squared deviations from the mean, the kernel
  the mean of the squares minus the square of the mean. On a column of real numbers these are one number (the
  second-moment law), and every stage keeps all entries real when the inputs are: sums and products of reals are real,
  the deviation form is a real ≥ 0, so the variance plus the offset is a positive real and its reciprocal square root
  is real. The precondition gives real inputs, so the two networks agree.
-/
import proofs.«114590_j23673859736036_2_alg».proof.Defs
import proofs.«114590_j23673859736036_2_alg».proof.Proof.Gen.Kernel
import proofs.«114590_j23673859736036_2_alg».proof.Proof.Gen.Kernel.Skeleton
import proofs.«114590_j23673859736036_2_alg».proof.Proof.Gen.Kernel.Launch
import proofs.«114590_j23673859736036_2_alg».proof.Proof.Gen.Kernel.Points
import proofs.«114590_j23673859736036_2_alg».proof.Proof.Gen.Kernel.Frame
import proofs.«114590_j23673859736036_2_alg».proof.Proof.Gen.KernelIdeal
import proofs.«114590_j23673859736036_2_alg».proof.Proof.Gen.KernelIdeal.Skeleton
import proofs.«114590_j23673859736036_2_alg».proof.Proof.Gen.KernelIdeal.Launch
import proofs.«114590_j23673859736036_2_alg».proof.Proof.Gen.KernelIdeal.Points
import proofs.«114590_j23673859736036_2_alg».proof.Proof.Gen.KernelIdeal.Frame
import proofs.«114590_j23673859736036_2_alg».proof.Proof.Gen.ReferenceIdeal
import proofs.«114590_j23673859736036_2_alg».proof.Proof.Gen.Pre_finite_inputs
import proofs.«114590_j23673859736036_2_alg».proof.Proof.Gen.ReferenceIdeal.Run
import proofs.«114590_j23673859736036_2_alg».proof.Proof.Gen.ReferenceIdeal.Read
import proofs.«114590_j23673859736036_2_alg».proof.Proof.Net
import proofs.«114590_j23673859736036_2_alg».proof.Proof.Mats
import proofs.«114590_j23673859736036_2_alg».proof.Proof.PreFacts
import proofs.«114590_j23673859736036_2_alg».proof.Proof.Host0
import proofs.«114590_j23673859736036_2_alg».proof.Proof.KRun
import proofs.«114590_j23673859736036_2_alg».proof.Proof.RefNet
import proofs.«114590_j23673859736036_2_alg».proof.Proof.KValue
import Idealize.ShloMosaic.Adequacy
import Idealize.ShloMosaic.Init

noncomputable section

namespace Cert.Proof

open Idealize.ShloMosaic Idealize.ShloMosaic.TcCoe Idealize.SL.Sem Cert.Net

/-- The kernel runs to the end and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the idealized reference. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the idealized kernel and the idealized reference end with the same result: the network of
    the aggregated features. The reference's is built on the deviation form of the variance, the kernel's on the
    second-moment form; the inputs are real, so the two are one. -/
theorem algebraic : Cert.algebraic_KernelIdeal_ReferenceIdeal := by
  intro m ρ m' ρ' hpre hagree
  refine ⟨fun c => Cert.KValue.out m c, ?_, ?_⟩
  · exact (θ_run Cert.KernelIdeal.defs _ _).mono
      (fun r h c => ⟨((h c).1).trans (Cert.KValue.result m ρ c), (h c).2⟩) (Cert.KernelIdeal.KRun.run_result m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11⟩ := hagree c
    obtain ⟨r0, r2, r3, r4, r5, r6, r7, r8, r9, r10, r11, hdst⟩ := Cert.PreFacts.of_pre _ _ _ _ _ _ _ _ _ _ _ _ (hpre c)
    refine (h c).1.trans ((Cert.ReferenceIdeal.Read.val_main_v103_eq m' c).trans ?_)
    rw [e0, e1, e2, e3, e4, e5, e6, e7, e8, e9, e10, e11]
    refine (Cert.RefNet.ref_value _ _ _ _ _ _ _ _ _ _ _ _).trans ?_
    unfold Cert.KValue.out
    beta_reduce
    rw [← Cert.Host0.aggK_eq_ref _ _ hdst]
    exact congrArg unmat (Cert.Net.net_eq (realM_mat (Cert.Host0.aggK_real _ _ r0)) (realS_sqT r2) (realR_row r3)
      (realR_row r4) (realR_row r5) (realS_sqT r6) (realR_row r7) (realR_row r8) (realR_row r9)).symm

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
